-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x5 : Shape := ⟨2, ![32768, 5]⟩
abbrev S500000x128 : Shape := ⟨2, ![500000, 128]⟩
abbrev S100x128 : Shape := ⟨2, ![100, 128]⟩
abbrev S4x128 : Shape := ⟨2, ![4, 128]⟩
abbrev S64x128 : Shape := ⟨2, ![64, 128]⟩
abbrev S100000x128 : Shape := ⟨2, ![100000, 128]⟩
abbrev S1920x640 : Shape := ⟨2, ![1920, 640]⟩
abbrev S1920 : Shape := ⟨1, ![1920]⟩
abbrev S256x640 : Shape := ⟨2, ![256, 640]⟩
abbrev S256 : Shape := ⟨1, ![256]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S100x128 : S_.BroadcastsInDim S100x128 (![] : Fin 0 → Fin S100x128.rank)
  reducesTo_S100x128_S_d0_1 : S100x128.ReducesTo [0, 1] S_
  bcast_S_S4x128 : S_.BroadcastsInDim S4x128 (![] : Fin 0 → Fin S4x128.rank)
  reducesTo_S4x128_S_d0_1 : S4x128.ReducesTo [0, 1] S_
  bcast_S_S64x128 : S_.BroadcastsInDim S64x128 (![] : Fin 0 → Fin S64x128.rank)
  reducesTo_S64x128_S_d0_1 : S64x128.ReducesTo [0, 1] S_
  bcast_S_S100000x128 : S_.BroadcastsInDim S100000x128 (![] : Fin 0 → Fin S100000x128.rank)
  reducesTo_S100000x128_S_d0_1 : S100000x128.ReducesTo [0, 1] S_
  bcast_S_S1920x640 : S_.BroadcastsInDim S1920x640 (![] : Fin 0 → Fin S1920x640.rank)
  reducesTo_S1920x640_S_d0_1 : S1920x640.ReducesTo [0, 1] S_
  bcast_S_S1920 : S_.BroadcastsInDim S1920 (![] : Fin 0 → Fin S1920.rank)
  reducesTo_S1920_S_d0 : S1920.ReducesTo [0] S_
  bcast_S_S256x640 : S_.BroadcastsInDim S256x640 (![] : Fin 0 → Fin S256x640.rank)
  reducesTo_S256x640_S_d0_1 : S256x640.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  main_v53

def fn_part2 {F : FTy → Type} [FloatOps F] (main_arg8 : FVec F S1920 .f32) (main_arg9 : FVec F S1920 .f32) (main_arg10 : FVec F S256x640 .f32) (main_arg11 : FVec F S256 .f32) (main_v33 : IVec S_ 1) : IVec S_ 1 :=
  let main_v34 : FVec F S1920 .f32 := Host.absf main_arg8
  let main_cst_12 : FVec F S_ .f32 := constant S_ .f32 0x7F800000#32
  let main_v35 : FVec F S1920 .f32 := broadcastInDim S1920 ![] bcast_S_S1920 main_cst_12
  let main_v36 : IVec S1920 1 := cmpf .olt main_v34 main_v35
  let main_c_13 : IVec S_ 1 := constantI S_ 1 1#1
  let main_v37 : IVec S_ 1 := (fun x v => Host.reduce IntOp.andi x v reducesTo_S1920_S_d0 h_S_) main_v36 main_c_13
  let main_v38 : IVec S_ 1 := andi main_v33 main_v37
  let main_v39 : FVec F S1920 .f32 := Host.absf main_arg9
  let main_cst_14 : FVec F S_ .f32 := constant S_ .f32 0x7F800000#32
  let main_v40 : FVec F S1920 .f32 := broadcastInDim S1920 ![] bcast_S_S1920 main_cst_14
  let main_v41 : IVec S1920 1 := cmpf .olt main_v39 main_v40
  let main_c_15 : IVec S_ 1 := constantI S_ 1 1#1
  let main_v42 : IVec S_ 1 := (fun x v => Host.reduce IntOp.andi x v reducesTo_S1920_S_d0 h_S_) main_v41 main_c_15
  let main_v43 : IVec S_ 1 := andi main_v38 main_v42
  let main_v44 : FVec F S256x640 .f32 := Host.absf main_arg10
  let main_cst_16 : FVec F S_ .f32 := constant S_ .f32 0x7F800000#32
  let main_v45 : FVec F S256x640 .f32 := broadcastInDim S256x640 ![] bcast_S_S256x640 main_cst_16
  let main_v46 : IVec S256x640 1 := cmpf .olt main_v44 main_v45
  let main_c_17 : IVec S_ 1 := constantI S_ 1 1#1
  let main_v47 : IVec S_ 1 := (fun x v => Host.reduce IntOp.andi x v reducesTo_S256x640_S_d0_1 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_v48 main_v49 main_v50

def fn_part1 {F : FTy → Type} [FloatOps F] (main_arg5 : FVec F S100000x128 .f32) (main_arg6 : FVec F S1920x640 .f32) (main_arg7 : FVec F S1920x640 .f32) (main_arg8 : FVec F S1920 .f32) (main_arg9 : FVec F S1920 .f32) (main_arg10 : FVec F S256x640 .f32) (main_arg11 : FVec F S256 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S100000x128 .f32 := Host.absf main_arg5
  let main_cst_6 : FVec F S_ .f32 := constant S_ .f32 0x7F800000#32
  let main_v20 : FVec F S100000x128 .f32 := broadcastInDim S100000x128 ![] bcast_S_S100000x128 main_cst_6
  let main_v21 : IVec S100000x128 1 := cmpf .olt main_v19 main_v20
  let main_c_7 : IVec S_ 1 := constantI S_ 1 1#1
  let main_v22 : IVec S_ 1 := (fun x v => Host.reduce IntOp.andi x v reducesTo_S100000x128_S_d0_1 h_S_) main_v21 main_c_7
  let main_v23 : IVec S_ 1 := andi main_v18 main_v22
  let main_v24 : FVec F S1920x640 .f32 := Host.absf main_arg6
  let main_cst_8 : FVec F S_ .f32 := constant S_ .f32 0x7F800000#32
  let main_v25 : FVec F S1920x640 .f32 := broadcastInDim S1920x640 ![] bcast_S_S1920x640 main_cst_8
  let main_v26 : IVec S1920x640 1 := cmpf .olt main_v24 main_v25
  let main_c_9 : IVec S_ 1 := constantI S_ 1 1#1
  let main_v27 : IVec S_ 1 := (fun x v => Host.reduce IntOp.andi x v reducesTo_S1920x640_S_d0_1 h_S_) main_v26 main_c_9
  let main_v28 : IVec S_ 1 := andi main_v23 main_v27
  let main_v29 : FVec F S1920x640 .f32 := Host.absf main_arg7
  let main_cst_10 : FVec F S_ .f32 := constant S_ .f32 0x7F800000#32
  let main_v30 : FVec F S1920x640 .f32 := broadcastInDim S1920x640 ![] bcast_S_S1920x640 main_cst_10
  let main_v31 : IVec S1920x640 1 := cmpf .olt main_v29 main_v30
  let main_c_11 : IVec S_ 1 := constantI S_ 1 1#1
  let main_v32 : IVec S_ 1 := (fun x v => Host.reduce IntOp.andi x v reducesTo_S1920x640_S_d0_1 h_S_) main_v31 main_c_11
  let main_v33 : IVec S_ 1 := andi main_v28 main_v32
  fn_part2 (F := F) main_arg8 main_arg9 main_arg10 main_arg11 main_v33

def fn {F : FTy → Type} [FloatOps F] (main_arg0 : IVec S32768x5 32) (main_arg1 : FVec F S500000x128 .f32) (main_arg2 : FVec F S100x128 .f32) (main_arg3 : FVec F S4x128 .f32) (main_arg4 : FVec F S64x128 .f32) (main_arg5 : FVec F S100000x128 .f32) (main_arg6 : FVec F S1920x640 .f32) (main_arg7 : FVec F S1920x640 .f32) (main_arg8 : FVec F S1920 .f32) (main_arg9 : FVec F S1920 .f32) (main_arg10 : FVec F S256x640 .f32) (main_arg11 : FVec F S256 .f32) : IVec S_ 1 :=
  let main_v0 : FVec F S500000x128 .f32 := Host.absf main_arg1
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S100x128 .f32 := Host.absf main_arg2
  let main_cst_0 : FVec F S_ .f32 := constant S_ .f32 0x7F800000#32
  let main_v5 : FVec F S100x128 .f32 := broadcastInDim S100x128 ![] bcast_S_S100x128 main_cst_0
  let main_v6 : IVec S100x128 1 := cmpf .olt main_v4 main_v5
  let main_c_1 : IVec S_ 1 := constantI S_ 1 1#1
  let main_v7 : IVec S_ 1 := (fun x v => Host.reduce IntOp.andi x v reducesTo_S100x128_S_d0_1 h_S_) main_v6 main_c_1
  let main_v8 : IVec S_ 1 := andi main_v3 main_v7
  let main_v9 : FVec F S4x128 .f32 := Host.absf main_arg3
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_arg6 main_arg7 main_arg8 main_arg9 main_arg10 main_arg11 main_v13 main_v16
-- ==== Kernel.lean ====
abbrev S32768x5 : Shape := ⟨2, ![32768, 5]⟩
abbrev S500000x128 : Shape := ⟨2, ![500000, 128]⟩
abbrev S100x128 : Shape := ⟨2, ![100, 128]⟩
abbrev S4x128 : Shape := ⟨2, ![4, 128]⟩
abbrev S64x128 : Shape := ⟨2, ![64, 128]⟩
abbrev S100000x128 : Shape := ⟨2, ![100000, 128]⟩
abbrev S1920x640 : Shape := ⟨2, ![1920, 640]⟩
abbrev S1920 : Shape := ⟨1, ![1920]⟩
abbrev S256x640 : Shape := ⟨2, ![256, 640]⟩
abbrev S256 : Shape := ⟨1, ![256]⟩
abbrev S32768x1 : Shape := ⟨2, ![32768, 1]⟩
abbrev S32768 : Shape := ⟨1, ![32768]⟩
abbrev S_ : Shape := ⟨0, ![]⟩
abbrev S32768x128 : Shape := ⟨2, ![32768, 128]⟩
abbrev S32768x640 : Shape := ⟨2, ![32768, 640]⟩
abbrev S640x1920 : Shape := ⟨2, ![640, 1920]⟩
abbrev S5x128x1920 : Shape := ⟨3, ![5, 128, 1920]⟩
abbrev S128x1920 : Shape := ⟨2, ![128, 1920]⟩
abbrev S1x128x1920 : Shape := ⟨3, ![1, 128, 1920]⟩
abbrev S640x256 : Shape := ⟨2, ![640, 256]⟩
abbrev S1x1920 : Shape := ⟨2, ![1, 1920]⟩
abbrev S1x256 : Shape := ⟨2, ![1, 256]⟩
abbrev S32768x256 : Shape := ⟨2, ![32768, 256]⟩
abbrev S512x640 : Shape := ⟨2, ![512, 640]⟩
abbrev S512x256 : Shape := ⟨2, ![512, 256]⟩
abbrev S512x1920 : Shape := ⟨2, ![512, 1920]⟩

abbrev nBuf : Space → Nat
  | .hbm => 85
  | .vmem => 10
  | .smem => 0
  | _ => 0

abbrev bufTy : (tb : Table) → Fin (tcTables nBuf tb) → BufTy
  | .hbm, ⟨0, _⟩ => ⟨S32768x5, .i32⟩
  | .hbm, ⟨1, _⟩ => ⟨S500000x128, .f32⟩
  | .hbm, ⟨2, _⟩ => ⟨S100x128, .f32⟩
  | .hbm, ⟨3, _⟩ => ⟨S4x128, .f32⟩
  | .hbm, ⟨4, _⟩ => ⟨S64x128, .f32⟩
  | .hbm, ⟨5, _⟩ => ⟨S100000x128, .f32⟩
  | .hbm, ⟨6, _⟩ => ⟨S1920x640, .f32⟩
  | .hbm, ⟨7, _⟩ => ⟨S1920x640, .f32⟩
  | .hbm, ⟨8, _⟩ => ⟨S1920, .f32⟩
  | .hbm, ⟨9, _⟩ => ⟨S1920, .f32⟩
  | .hbm, ⟨10, _⟩ => ⟨S256x640, .f32⟩
  | .hbm, ⟨11, _⟩ => ⟨S256, .f32⟩
  | .hbm, ⟨12, _⟩ => ⟨S32768x1, .i32⟩
  | .hbm, ⟨13, _⟩ => ⟨S32768, .i32⟩
  | .hbm, ⟨14, _⟩ => ⟨S_, .i32⟩
  | .hbm, ⟨15, _⟩ => ⟨S32768, .i32⟩
  | .hbm, ⟨16, _⟩ => ⟨S32768, .i1⟩
  | .hbm, ⟨17, _⟩ => ⟨S_, .i32⟩
  | .hbm, ⟨18, _⟩ => ⟨S32768, .i32⟩
  | .hbm, ⟨19, _⟩ => ⟨S32768, .i32⟩
  | .hbm, ⟨20, _⟩ => ⟨S32768, .i32⟩
  | .hbm, ⟨21, _⟩ => ⟨S32768x1, .i32⟩
  | .hbm, ⟨22, _⟩ => ⟨S32768x128, .f32⟩
  | .hbm, ⟨23, _⟩ => ⟨S32768x1, .i32⟩
  | .hbm, ⟨24, _⟩ => ⟨S32768, .i32⟩
  | .hbm, ⟨25, _⟩ => ⟨S_, .i32⟩
  | .hbm, ⟨26, _⟩ => ⟨S32768, .i32⟩
  | .hbm, ⟨27, _⟩ => ⟨S32768, .i1⟩
  | .hbm, ⟨28, _⟩ => ⟨S_, .i32⟩
  | .hbm, ⟨29, _⟩ => ⟨S32768, .i32⟩
  | .hbm, ⟨30, _⟩ => ⟨S32768, .i32⟩
  | .hbm, ⟨31, _⟩ => ⟨S32768, .i32⟩
  | .hbm, ⟨32, _⟩ => ⟨S32768x1, .i32⟩
  | .hbm, ⟨33, _⟩ => ⟨S32768x128, .f32⟩
  | .hbm, ⟨34, _⟩ => ⟨S32768x1, .i32⟩
  | .hbm, ⟨35, _⟩ => ⟨S32768, .i32⟩
  | .hbm, ⟨36, _⟩ => ⟨S_, .i32⟩
  | .hbm, ⟨37, _⟩ => ⟨S32768, .i32⟩
  | .hbm, ⟨38, _⟩ => ⟨S32768, .i1⟩
  | .hbm, ⟨39, _⟩ => ⟨S_, .i32⟩
  | .hbm, ⟨40, _⟩ => ⟨S32768, .i32⟩
  | .hbm, ⟨41, _⟩ => ⟨S32768, .i32⟩
  | .hbm, ⟨42, _⟩ => ⟨S32768, .i32⟩
  | .hbm, ⟨43, _⟩ => ⟨S32768x1, .i32⟩
  | .hbm, ⟨44, _⟩ => ⟨S32768x128, .f32⟩
  | .hbm, ⟨45, _⟩ => ⟨S32768x1, .i32⟩
  | .hbm, ⟨46, _⟩ => ⟨S32768, .i32⟩
  | .hbm, ⟨47, _⟩ => ⟨S_, .i32⟩
  | .hbm, ⟨48, _⟩ => ⟨S32768, .i32⟩
  | .hbm, ⟨49, _⟩ => ⟨S32768, .i1⟩
  | .hbm, ⟨50, _⟩ => ⟨S_, .i32⟩
  | .hbm, ⟨51, _⟩ => ⟨S32768, .i32⟩
  | .hbm, ⟨52, _⟩ => ⟨S32768, .i32⟩
  | .hbm, ⟨53, _⟩ => ⟨S32768, .i32⟩
  | .hbm, ⟨54, _⟩ => ⟨S32768x1, .i32⟩
  | .hbm, ⟨55, _⟩ => ⟨S32768x128, .f32⟩
  | .hbm, ⟨56, _⟩ => ⟨S32768x1, .i32⟩
  | .hbm, ⟨57, _⟩ => ⟨S32768, .i32⟩
  | .hbm, ⟨58, _⟩ => ⟨S_, .i32⟩
  | .hbm, ⟨59, _⟩ => ⟨S32768, .i32⟩
  | .hbm, ⟨60, _⟩ => ⟨S32768, .i1⟩
  | .hbm, ⟨61, _⟩ => ⟨S_, .i32⟩
  | .hbm, ⟨62, _⟩ => ⟨S32768, .i32⟩
  | .hbm, ⟨63, _⟩ => ⟨S32768, .i32⟩
  | .hbm, ⟨64, _⟩ => ⟨S32768, .i32⟩
  | .hbm, ⟨65, _⟩ => ⟨S32768x1, .i32⟩
  | .hbm, ⟨66, _⟩ => ⟨S32768x128, .f32⟩
  | .hbm, ⟨67, _⟩ => ⟨S32768x640, .f32⟩
  | .hbm, ⟨68, _⟩ => ⟨S640x1920, .f32⟩
  | .hbm, ⟨69, _⟩ => ⟨S5x128x1920, .f32⟩
  | .hbm, ⟨70, _⟩ => ⟨S_, .f32⟩
  | .hbm, ⟨71, _⟩ => ⟨S128x1920, .f32⟩
  | .hbm, ⟨72, _⟩ => ⟨S1x128x1920, .f32⟩
  | .hbm, ⟨73, _⟩ => ⟨S5x128x1920, .f32⟩
  | .hbm, ⟨74, _⟩ => ⟨S5x128x1920, .f32⟩
  | .hbm, ⟨75, _⟩ => ⟨S640x1920, .f32⟩
  | .hbm, ⟨76, _⟩ => ⟨S640x1920, .f32⟩
  | .hbm, ⟨77, _⟩ => ⟨S640x256, .f32⟩
  | .hbm, ⟨78, _⟩ => ⟨S1x1920, .f32⟩
  | .hbm, ⟨79, _⟩ => ⟨S1x1920, .f32⟩
  | .hbm, ⟨80, _⟩ => ⟨S1x256, .f32⟩
  | .hbm, ⟨81, _⟩ => ⟨S640x1920, .bf16⟩
  | .hbm, ⟨82, _⟩ => ⟨S640x1920, .bf16⟩
  | .hbm, ⟨83, _⟩ => ⟨S640x256, .bf16⟩
  | .hbm, ⟨84, _⟩ => ⟨S32768x256, .f32⟩
  | .local _ .vmem, ⟨0, _⟩ => ⟨S512x640, .f32⟩
  | .local _ .vmem, ⟨1, _⟩ => ⟨S512x640, .f32⟩
  | .local _ .vmem, ⟨2, _⟩ => ⟨S640x1920, .bf16⟩
  | .local _ .vmem, ⟨3, _⟩ => ⟨S640x1920, .bf16⟩
  | .local _ .vmem, ⟨4, _⟩ => ⟨S1x1920, .f32⟩
  | .local _ .vmem, ⟨5, _⟩ => ⟨S1x1920, .f32⟩
  | .local _ .vmem, ⟨6, _⟩ => ⟨S640x256, .bf16⟩
  | .local _ .vmem, ⟨7, _⟩ => ⟨S1x256, .f32⟩
  | .local _ .vmem, ⟨8, _⟩ => ⟨S512x256, .f32⟩
  | .local _ .vmem, ⟨9, _⟩ => ⟨S512x256, .f32⟩
  | _, _ => ⟨S32768x5, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_3 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_5 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_7 : Ref sig .tc := ⟨.hbm, 58, rfl⟩
abbrev main_v38 : Ref sig .tc := ⟨.hbm, 59, rfl⟩
abbrev main_v39 : Ref sig .tc := ⟨.hbm, 60, rfl⟩
abbrev main_c_8 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S640x1920 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S640x1920 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1920 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1920 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S640x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S32768x5_S32768x1_0_0 : S32768x5.Slices ![0, 0] S32768x1
  shapeCasts_S32768x1_S32768 : S32768x1.ShapeCasts S32768
  bcast_S_S32768 : S_.BroadcastsInDim S32768 (![] : Fin 0 → Fin S32768.rank)
  bcast_S32768_S32768x1_0 : S32768.BroadcastsInDim S32768x1 (![0] : Fin 1 → Fin S32768x1.rank)
  slices_S32768x5_S32768x1_0_1 : S32768x5.Slices ![0, 1] S32768x1
  slices_S32768x5_S32768x1_0_2 : S32768x5.Slices ![0, 2] S32768x1
  slices_S32768x5_S32768x1_0_3 : S32768x5.Slices ![0, 3] S32768x1
  slices_S32768x5_S32768x1_0_4 : S32768x5.Slices ![0, 4] S32768x1
  concatenates_S32768x128_S32768x128_S32768x128_S32768x128_S32768x128_S32768x640_d1 : Shape.Concatenates [S32768x128, S32768x128, S32768x128, S32768x128, S32768x128] S32768x640 1
  transposes_S1920x640_S640x1920_1_0 : S1920x640.Transposes [1, 0] S640x1920
  shapeCasts_S640x1920_S5x128x1920 : S640x1920.ShapeCasts S5x128x1920
  reducesTo_S5x128x1920_S128x1920_d0 : S5x128x1920.ReducesTo [0] S128x1920
  h_S_ : 0 < S_.numel
  bcast_S128x1920_S1x128x1920_1_2 : S128x1920.BroadcastsInDim S1x128x1920 (![1, 2] : Fin 2 → Fin S1x128x1920.rank)
  bcast_S1x128x1920_S5x128x1920_0_1_2 : S1x128x1920.BroadcastsInDim S5x128x1920 (![0, 1, 2] : Fin 3 → Fin S5x128x1920.rank)
  shapeCasts_S5x128x1920_S640x1920 : S5x128x1920.ShapeCasts S640x1920
  transposes_S256x640_S640x256_1_0 : S256x640.Transposes [1, 0] S640x256
  shapeCasts_S1920_S1x1920 : S1920.ShapeCasts S1x1920
  shapeCasts_S256_S1x256 : S256.ShapeCasts S1x256
  bitsLt_bf16_f32 : FTy.bits .bf16 < FTy.bits .f32
  inb_S512x640_S512x640_0_0 : ∀ a, (![0, 0] : Fin 2 → Nat) a + S512x640.size a ≤ S512x640.size a
  h_S512x640 : 0 < S512x640.numel
  shapeCasts_S512x640_S512x640 : S512x640.ShapeCasts S512x640
  inb_S640x1920_S640x1920_0_0 : ∀ a, (![0, 0] : Fin 2 → Nat) a + S640x1920.size a ≤ S640x1920.size a
  h_S640x1920 : 0 < S640x1920.numel
  shapeCasts_S640x1920_S640x1920 : S640x1920.ShapeCasts S640x1920
  inb_S1x1920_S1x1920_0_0 : ∀ a, (![0, 0] : Fin 2 → Nat) a + S1x1920.size a ≤ S1x1920.size a
  h_S1x1920 : 0 < S1x1920.numel
  shapeCasts_S1x1920_S1x1920 : S1x1920.ShapeCasts S1x1920
  broadcasts_S1x1920_S512x1920 : S1x1920.Broadcasts S512x1920
  slices_S512x1920_o0_0_S512x640 : S512x1920.Slices ![0, 0] S512x640
  slices_S512x1920_o0_640_S512x640 : S512x1920.Slices ![0, 640] S512x640
  slices_S512x1920_o0_1280_S512x640 : S512x1920.Slices ![0, 1280] S512x640
  inb_S640x256_S640x256_0_0 : ∀ a, (![0, 0] : Fin 2 → Nat) a + S640x256.size a ≤ S640x256.size a
  h_S640x256 : 0 < S640x256.numel
  shapeCasts_S640x256_S640x256 : S640x256.ShapeCasts S640x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  gather_S500000x128_S32768x1_S32768x128_1_0_n_n_0_1_1128_wf : GatherDims.WF S500000x128 S32768x1 S32768x128 [1] [0] [] [0] [] 1 ![1, 128]
  gather_S100x128_S32768x1_S32768x128_1_0_n_n_0_1_1128_wf : GatherDims.WF S100x128 S32768x1 S32768x128 [1] [0] [] [0] [] 1 ![1, 128]
  gather_S4x128_S32768x1_S32768x128_1_0_n_n_0_1_1128_wf : GatherDims.WF S4x128 S32768x1 S32768x128 [1] [0] [] [0] [] 1 ![1, 128]
  gather_S64x128_S32768x1_S32768x128_1_0_n_n_0_1_1128_wf : GatherDims.WF S64x128 S32768x1 S32768x128 [1] [0] [] [0] [] 1 ![1, 128]
  gather_S100000x128_S32768x1_S32768x128_1_0_n_n_0_1_1128_wf : GatherDims.WF S100000x128 S32768x1 S32768x128 [1] [0] [] [0] [] 1 ![1, 128]
  dot_S512x640_S640x1920_S512x1920_1_0_0_1_n_n_wf : DotDims.WF S512x640 S640x1920 S512x1920 [1] [0] [0] [1] [] []
  dot_S512x640_S640x256_S512x256_1_0_0_1_n_n_wf : DotDims.WF S512x640 S640x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x640.size a ≤ S32768x640.size a
  hwx0_0 : ∀ i : grid0.Coords, EltTy.bits .f32 = 32 ∨ (Rect.block (s := S32768x640) S512x640.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S640x1920.size a ≤ S640x1920.size a
  hwx0_1 : ∀ i : grid0.Coords, EltTy.bits .bf16 = 32 ∨ (Rect.block (s := S640x1920) S640x1920.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S640x1920.size a ≤ S640x1920.size a
  hwx0_2 : ∀ i : grid0.Coords, EltTy.bits .bf16 = 32 ∨ (Rect.block (s := S640x1920) S640x1920.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1920.size a ≤ S1x1920.size a
  hwx0_3 : ∀ i : grid0.Coords, EltTy.bits .f32 = 32 ∨ (Rect.block (s := S1x1920) S1x1920.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1920.size a ≤ S1x1920.size a
  hwx0_4 : ∀ i : grid0.Coords, EltTy.bits .f32 = 32 ∨ (Rect.block (s := S1x1920) S1x1920.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S640x256.size a ≤ S640x256.size a
  hwx0_5 : ∀ i : grid0.Coords, EltTy.bits .bf16 = 32 ∨ (Rect.block (s := S640x256) S640x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x256.size a ≤ S32768x256.size a
  hwx0_7 : ∀ i : grid0.Coords, EltTy.bits .f32 = 32 ∨ (Rect.block (s := S32768x256) S512x256.size (cc0_transform_7 i) (hinb0_7 i)).WholeWords (EltTy.packing .f32)

variable [Facts₀]

def gather_S500000x128_S32768x1_S32768x128_1_0_n_n_0_1_1128 : GatherDims S500000x128 S32768x1 S32768x128 where
  offsetDims := [1]
  collapsedSliceDims := [0]
  operandBatchingDims := []
  startIndicesBatchingDims := []
  startIndexMap := [0]
  indexVectorDim := 1
  sliceSizes := ![1, 128]
  wf := gather_S500000x128_S32768x1_S32768x128_1_0_n_n_0_1_1128_wf
def gather_S100x128_S32768x1_S32768x128_1_0_n_n_0_1_1128 : GatherDims S100x128 S32768x1 S32768x128 where
  offsetDims := [1]
  collapsedSliceDims := [0]
  operandBatchingDims := []
  startIndicesBatchingDims := []
  startIndexMap := [0]
  indexVectorDim := 1
  sliceSizes := ![1, 128]
  wf := gather_S100x128_S32768x1_S32768x128_1_0_n_n_0_1_1128_wf
def gather_S4x128_S32768x1_S32768x128_1_0_n_n_0_1_1128 : GatherDims S4x128 S32768x1 S32768x128 where
  offsetDims := [1]
  collapsedSliceDims := [0]
  operandBatchingDims := []
  startIndicesBatchingDims := []
  startIndexMap := [0]
  indexVectorDim := 1
  sliceSizes := ![1, 128]
  wf := gather_S4x128_S32768x1_S32768x128_1_0_n_n_0_1_1128_wf
def gather_S64x128_S32768x1_S32768x128_1_0_n_n_0_1_1128 : GatherDims S64x128 S32768x1 S32768x128 where
  offsetDims := [1]
  collapsedSliceDims := [0]
  operandBatchingDims := []
  startIndicesBatchingDims := []
  startIndexMap := [0]
  indexVectorDim := 1
  sliceSizes := ![1, 128]
  wf := gather_S64x128_S32768x1_S32768x128_1_0_n_n_0_1_1128_wf
def gather_S100000x128_S32768x1_S32768x128_1_0_n_n_0_1_1128 : GatherDims S100000x128 S32768x1 S32768x128 where
  offsetDims := [1]
  collapsedSliceDims := [0]
  operandBatchingDims := []
  startIndicesBatchingDims := []
  startIndexMap := [0]
  indexVectorDim := 1
  sliceSizes := ![1, 128]
  wf := gather_S100000x128_S32768x1_S32768x128_1_0_n_n_0_1_1128_wf
def dot_S512x640_S640x1920_S512x1920_1_0_0_1_n_n : DotDims S512x640 S640x1920 S512x1920 where
  lhsContracting := [1]
  rhsContracting := [0]
  lhsNonContracting := [0]
  rhsNonContracting := [1]
  lhsBatch := []
  rhsBatch := []
  wf := dot_S512x640_S640x1920_S512x1920_1_0_0_1_n_n_wf
def dot_S512x640_S640x256_S512x256_1_0_0_1_n_n : DotDims S512x640 S640x256 S512x256 where
  lhsContracting := [1]
  rhsContracting := [0]
  lhsNonContracting := [0]
  rhsNonContracting := [1]
  lhsBatch := []
  rhsBatch := []
  wf := dot_S512x640_S640x256_S512x256_1_0_0_1_n_n_wf

abbrev win0_0 : Pipeline.Window sig grid0 :=
  Pipeline.Window.ofSpec (Memref.whole main_v45) S512x640.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v58) S640x1920.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v59) S640x1920.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v55) S1x1920.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v56) S1x1920.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v60) S640x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v57) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v61) S512x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S32768x5 : Shape := ⟨2, ![32768, 5]⟩
abbrev S500000x128 : Shape := ⟨2, ![500000, 128]⟩
abbrev S100x128 : Shape := ⟨2, ![100, 128]⟩
abbrev S4x128 : Shape := ⟨2, ![4, 128]⟩
abbrev S64x128 : Shape := ⟨2, ![64, 128]⟩
abbrev S100000x128 : Shape := ⟨2, ![100000, 128]⟩
abbrev S1920x640 : Shape := ⟨2, ![1920, 640]⟩
abbrev S1920 : Shape := ⟨1, ![1920]⟩
abbrev S256x640 : Shape := ⟨2, ![256, 640]⟩
abbrev S256 : Shape := ⟨1, ![256]⟩
abbrev S32768x1 : Shape := ⟨2, ![32768, 1]⟩
abbrev S32768 : Shape := ⟨1, ![32768]⟩
abbrev S_ : Shape := ⟨0, ![]⟩
abbrev S32768x128 : Shape := ⟨2, ![32768, 128]⟩
abbrev S32768x1x128 : Shape := ⟨3, ![32768, 1, 128]⟩
abbrev S32768x5x128 : Shape := ⟨3, ![32768, 5, 128]⟩
abbrev S32768x640 : Shape := ⟨2, ![32768, 640]⟩
abbrev S640x1920 : Shape := ⟨2, ![640, 1920]⟩
abbrev S32768x1920 : Shape := ⟨2, ![32768, 1920]⟩
abbrev S1x1920 : Shape := ⟨2, ![1, 1920]⟩
abbrev S640x256 : Shape := ⟨2, ![640, 256]⟩
abbrev S32768x256 : Shape := ⟨2, ![32768, 256]⟩
abbrev S1x256 : Shape := ⟨2, ![1, 256]⟩

abbrev nBuf : Space → Nat
  | .hbm => 181
  | .vmem => 0
  | .smem => 0
  | _ => 0

abbrev hbmTy0_0 (i : Nat) : BufTy := match i % 128 with
  | 0 => ⟨S32768x5, .i32⟩
  | 1 => ⟨S500000x128, .f32⟩
  | 2 => ⟨S100x128, .f32⟩
  | 3 => ⟨S4x128, .f32⟩
  | 4 => ⟨S64x128, .f32⟩
  | 5 => ⟨S100000x128, .f32⟩
  | 6 => ⟨S1920x640, .f32⟩
  | 7 => ⟨S1920x640, .f32⟩
  | 8 => ⟨S1920, .f32⟩
  | 9 => ⟨S1920, .f32⟩
  | 10 => ⟨S256x640, .f32⟩
  | 11 => ⟨S256, .f32⟩
  | 12 => ⟨S32768x1, .i32⟩
  | 13 => ⟨S32768, .i32⟩
  | 14 => ⟨S_, .i32⟩
  | 15 => ⟨S32768, .i32⟩
  | 16 => ⟨S32768, .i1⟩
  | 17 => ⟨S_, .i32⟩
  | 18 => ⟨S32768, .i32⟩
  | 19 => ⟨S32768, .i32⟩
  | 20 => ⟨S32768, .i32⟩
  | 21 => ⟨S32768x1, .i32⟩
  | 22 => ⟨S32768x128, .f32⟩
  | 23 => ⟨S32768x1, .i32⟩
  | 24 => ⟨S32768, .i32⟩
  | 25 => ⟨S_, .i32⟩
  | 26 => ⟨S32768, .i32⟩
  | 27 => ⟨S32768, .i1⟩
  | 28 => ⟨S_, .i32⟩
  | 29 => ⟨S32768, .i32⟩
  | 30 => ⟨S32768, .i32⟩
  | 31 => ⟨S32768, .i32⟩
  | 32 => ⟨S32768x1, .i32⟩
  | 33 => ⟨S32768x128, .f32⟩
  | 34 => ⟨S32768x1, .i32⟩
  | 35 => ⟨S32768, .i32⟩
  | 36 => ⟨S_, .i32⟩
  | 37 => ⟨S32768, .i32⟩
  | 38 => ⟨S32768, .i1⟩
  | 39 => ⟨S_, .i32⟩
  | 40 => ⟨S32768, .i32⟩
  | 41 => ⟨S32768, .i32⟩
  | 42 => ⟨S32768, .i32⟩
  | 43 => ⟨S32768x1, .i32⟩
  | 44 => ⟨S32768x128, .f32⟩
  | 45 => ⟨S32768x1, .i32⟩
  | 46 => ⟨S32768, .i32⟩
  | 47 => ⟨S_, .i32⟩
  | 48 => ⟨S32768, .i32⟩
  | 49 => ⟨S32768, .i1⟩
  | 50 => ⟨S_, .i32⟩
  | 51 => ⟨S32768, .i32⟩
  | 52 => ⟨S32768, .i32⟩
  | 53 => ⟨S32768, .i32⟩
  | 54 => ⟨S32768x1, .i32⟩
  | 55 => ⟨S32768x128, .f32⟩
  | 56 => ⟨S32768x1, .i32⟩
  | 57 => ⟨S32768, .i32⟩
  | 58 => ⟨S_, .i32⟩
  | 59 => ⟨S32768, .i32⟩
  | 60 => ⟨S32768, .i1⟩
  | 61 => ⟨S_, .i32⟩
  | 62 => ⟨S32768, .i32⟩
  | 63 => ⟨S32768, .i32⟩
  | 64 => ⟨S32768, .i32⟩
  | 65 => ⟨S32768x1, .i32⟩
  | 66 => ⟨S32768x128, .f32⟩
  | 67 => ⟨S32768x1x128, .f32⟩
  | 68 => ⟨S32768x1x128, .f32⟩
  | 69 => ⟨S32768x1x128, .f32⟩
  | 70 => ⟨S32768x1x128, .f32⟩
  | 71 => ⟨S32768x1x128, .f32⟩
  | 72 => ⟨S32768x5x128, .f32⟩
  | 73 => ⟨S_, .f32⟩
  | 74 => ⟨S32768x128, .f32⟩
  | 75 => ⟨S32768x1x128, .f32⟩
  | 76 => ⟨S32768x5x128, .f32⟩
  | 77 => ⟨S32768x5x128, .f32⟩
  | 78 => ⟨S32768x640, .f32⟩
  | 79 => ⟨S32768x640, .f32⟩
  | 80 => ⟨S640x1920, .f32⟩
  | 81 => ⟨S32768x1920, .f32⟩
  | 82 => ⟨S1x1920, .f32⟩
  | 83 => ⟨S32768x1920, .f32⟩
  | 84 => ⟨S32768x1920, .f32⟩
  | 85 => ⟨S640x1920, .f32⟩
  | 86 => ⟨S32768x1920, .f32⟩
  | 87 => ⟨S1x1920, .f32⟩
  | 88 => ⟨S32768x1920, .f32⟩
  | 89 => ⟨S32768x1920, .f32⟩
  | 90 => ⟨S32768x640, .f32⟩
  | 91 => ⟨S32768x640, .f32⟩
  | 92 => ⟨S32768x640, .f32⟩
  | 93 => ⟨S32768x640, .f32⟩
  | 94 => ⟨S32768x640, .f32⟩
  | 95 => ⟨S32768x640, .f32⟩
  | 96 => ⟨S32768x640, .f32⟩
  | 97 => ⟨S32768x640, .f32⟩
  | 98 => ⟨S32768x640, .f32⟩
  | 99 => ⟨S_, .f32⟩
  | 100 => ⟨S32768x640, .f32⟩
  | 101 => ⟨S32768x640, .f32⟩
  | 102 => ⟨S_, .f32⟩
  | 103 => ⟨S32768x640, .f32⟩
  | 104 => ⟨S32768x640, .f32⟩
  | 105 => ⟨S32768x640, .f32⟩
  | 106 => ⟨S32768x640, .f32⟩
  | 107 => ⟨S32768x640, .f32⟩
  | 108 => ⟨S_, .f32⟩
  | 109 => ⟨S32768x640, .f32⟩
  | 110 => ⟨S32768x640, .f32⟩
  | 111 => ⟨S_, .f32⟩
  | 112 => ⟨S32768x640, .f32⟩
  | 113 => ⟨S32768x640, .f32⟩
  | 114 => ⟨S32768x640, .f32⟩
  | 115 => ⟨S32768x640, .f32⟩
  | 116 => ⟨S32768x640, .f32⟩
  | 117 => ⟨S_, .f32⟩
  | 118 => ⟨S32768x640, .f32⟩
  | 119 => ⟨S32768x640, .f32⟩
  | 120 => ⟨S32768x640, .f32⟩
  | 121 => ⟨S32768x640, .f32⟩
  | 122 => ⟨S32768x640, .f32⟩
  | 123 => ⟨S32768x5x128, .f32⟩
  | 124 => ⟨S_, .f32⟩
  | 125 => ⟨S32768x128, .f32⟩
  | 126 => ⟨S32768x1x128, .f32⟩
  | 127 => ⟨S32768x5x128, .f32⟩
  | _ => ⟨S32768x5, .i32⟩

abbrev hbmTy0_1 (i : Nat) : BufTy := match i % 128 with
  | 0 => ⟨S32768x5x128, .f32⟩
  | 1 => ⟨S32768x640, .f32⟩
  | 2 => ⟨S32768x640, .f32⟩
  | 3 => ⟨S640x1920, .f32⟩
  | 4 => ⟨S32768x1920, .f32⟩
  | 5 => ⟨S1x1920, .f32⟩
  | 6 => ⟨S32768x1920, .f32⟩
  | 7 => ⟨S32768x1920, .f32⟩
  | 8 => ⟨S640x1920, .f32⟩
  | 9 => ⟨S32768x1920, .f32⟩
  | 10 => ⟨S1x1920, .f32⟩
  | 11 => ⟨S32768x1920, .f32⟩
  | 12 => ⟨S32768x1920, .f32⟩
  | 13 => ⟨S32768x640, .f32⟩
  | 14 => ⟨S32768x640, .f32⟩
  | 15 => ⟨S32768x640, .f32⟩
  | 16 => ⟨S32768x640, .f32⟩
  | 17 => ⟨S32768x640, .f32⟩
  | 18 => ⟨S32768x640, .f32⟩
  | 19 => ⟨S32768x640, .f32⟩
  | 20 => ⟨S32768x640, .f32⟩
  | 21 => ⟨S32768x640, .f32⟩
  | 22 => ⟨S_, .f32⟩
  | 23 => ⟨S32768x640, .f32⟩
  | 24 => ⟨S32768x640, .f32⟩
  | 25 => ⟨S_, .f32⟩
  | 26 => ⟨S32768x640, .f32⟩
  | 27 => ⟨S32768x640, .f32⟩
  | 28 => ⟨S32768x640, .f32⟩
  | 29 => ⟨S32768x640, .f32⟩
  | 30 => ⟨S32768x640, .f32⟩
  | 31 => ⟨S_, .f32⟩
  | 32 => ⟨S32768x640, .f32⟩
  | 33 => ⟨S32768x640, .f32⟩
  | 34 => ⟨S_, .f32⟩
  | 35 => ⟨S32768x640, .f32⟩
  | 36 => ⟨S32768x640, .f32⟩
  | 37 => ⟨S32768x640, .f32⟩
  | 38 => ⟨S32768x640, .f32⟩
  | 39 => ⟨S32768x640, .f32⟩
  | 40 => ⟨S_, .f32⟩
  | 41 => ⟨S32768x640, .f32⟩
  | 42 => ⟨S32768x640, .f32⟩
  | 43 => ⟨S32768x640, .f32⟩
  | 44 => ⟨S32768x640, .f32⟩
  | 45 => ⟨S32768x640, .f32⟩
  | 46 => ⟨S32768x5x128, .f32⟩
  | 47 => ⟨S32768x640, .f32⟩
  | 48 => ⟨S640x256, .f32⟩
  | 49 => ⟨S32768x256, .f32⟩
  | 50 => ⟨S1x256, .f32⟩
  | 51 => ⟨S32768x256, .f32⟩
  | 52 => ⟨S32768x256, .f32⟩
  | _ => ⟨S32768x5, .i32⟩

abbrev hbmTy (i : Nat) : BufTy := match i / 128 with
  | 0 => hbmTy0_0 i
  | 1 => hbmTy0_1 i
  | _ => ⟨S32768x5, .i32⟩

abbrev bufTy : (tb : Table) → Fin (tcTables nBuf tb) → BufTy
  | .hbm, ⟨i, _⟩ => hbmTy i
  | _, _ => ⟨S32768x5, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_3 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_5 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_7 : Ref sig .tc := ⟨.hbm, 58, rfl⟩
abbrev main_v38 : Ref sig .tc := ⟨.hbm, 59, rfl⟩
abbrev main_v39 : Ref sig .tc := ⟨.hbm, 60, rfl⟩
abbrev main_c_8 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_9 : Ref sig .tc := ⟨.hbm, 99, rfl⟩
abbrev main_v76 : Ref sig .tc := ⟨.hbm, 100, rfl⟩
abbrev main_v77 : Ref sig .tc := ⟨.hbm, 101, rfl⟩
abbrev main_cst_10 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_11 : Ref sig .tc := ⟨.hbm, 108, rfl⟩
abbrev main_v83 : Ref sig .tc := ⟨.hbm, 109, rfl⟩
abbrev main_v84 : Ref sig .tc := ⟨.hbm, 110, rfl⟩
abbrev main_cst_12 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_cst_13 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_cst_14 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_cst_15 : Ref sig .tc := ⟨.hbm, 150, rfl⟩
abbrev main_v121 : Ref sig .tc := ⟨.hbm, 151, rfl⟩
abbrev main_v122 : Ref sig .tc := ⟨.hbm, 152, rfl⟩
abbrev main_cst_16 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_cst_17 : Ref sig .tc := ⟨.hbm, 159, rfl⟩
abbrev main_v128 : Ref sig .tc := ⟨.hbm, 160, rfl⟩
abbrev main_v129 : Ref sig .tc := ⟨.hbm, 161, rfl⟩
abbrev main_cst_18 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_cst_19 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩

abbrev nD : Nat := 1
abbrev τ : Topo := Topo.v7x

variable {F : FTy → Type} [FloatOps F]

class Facts₀ : Prop where
  slices_S32768x5_S32768x1_0_0 : S32768x5.Slices ![0, 0] S32768x1
  shapeCasts_S32768x1_S32768 : S32768x1.ShapeCasts S32768
  bcast_S_S32768 : S_.BroadcastsInDim S32768 (![] : Fin 0 → Fin S32768.rank)
  bcast_S32768_S32768x1_0 : S32768.BroadcastsInDim S32768x1 (![0] : Fin 1 → Fin S32768x1.rank)
  slices_S32768x5_S32768x1_0_1 : S32768x5.Slices ![0, 1] S32768x1
  slices_S32768x5_S32768x1_0_2 : S32768x5.Slices ![0, 2] S32768x1
  slices_S32768x5_S32768x1_0_3 : S32768x5.Slices ![0, 3] S32768x1
  slices_S32768x5_S32768x1_0_4 : S32768x5.Slices ![0, 4] S32768x1
  bcast_S32768x128_S32768x1x128_0_2 : S32768x128.BroadcastsInDim S32768x1x128 (![0, 2] : Fin 2 → Fin S32768x1x128.rank)
  concatenates_S32768x1x128_S32768x1x128_S32768x1x128_S32768x1x128_S32768x1x128_S32768x5x128_d1 : Shape.Concatenates [S32768x1x128, S32768x1x128, S32768x1x128, S32768x1x128, S32768x1x128] S32768x5x128 1
  reducesTo_S32768x5x128_S32768x128_d1 : S32768x5x128.ReducesTo [1] S32768x128
  h_S_ : 0 < S_.numel
  bcast_S32768x1x128_S32768x5x128_0_1_2 : S32768x1x128.BroadcastsInDim S32768x5x128 (![0, 1, 2] : Fin 3 → Fin S32768x5x128.rank)
  shapeCasts_S32768x5x128_S32768x640 : S32768x5x128.ShapeCasts S32768x640
  transposes_S1920x640_S640x1920_1_0 : S1920x640.Transposes [1, 0] S640x1920
  bcast_S1920_S1x1920_1 : S1920.BroadcastsInDim S1x1920 (![1] : Fin 1 → Fin S1x1920.rank)
  bcast_S1x1920_S32768x1920_0_1 : S1x1920.BroadcastsInDim S32768x1920 (![0, 1] : Fin 2 → Fin S32768x1920.rank)
  slices_S32768x1920_S32768x640_0_0 : S32768x1920.Slices ![0, 0] S32768x640
  slices_S32768x1920_S32768x640_0_640 : S32768x1920.Slices ![0, 640] S32768x640
  slices_S32768x1920_S32768x640_0_1280 : S32768x1920.Slices ![0, 1280] S32768x640
  bcast_S_S32768x640 : S_.BroadcastsInDim S32768x640 (![] : Fin 0 → Fin S32768x640.rank)
  shapeCasts_S32768x640_S32768x5x128 : S32768x640.ShapeCasts S32768x5x128
  transposes_S256x640_S640x256_1_0 : S256x640.Transposes [1, 0] S640x256
  bcast_S256_S1x256_1 : S256.BroadcastsInDim S1x256 (![1] : Fin 1 → Fin S1x256.rank)
  bcast_S1x256_S32768x256_0_1 : S1x256.BroadcastsInDim S32768x256 (![0, 1] : Fin 2 → Fin S32768x256.rank)
  gather_S500000x128_S32768x1_S32768x128_1_0_n_n_0_1_1128_wf : GatherDims.WF S500000x128 S32768x1 S32768x128 [1] [0] [] [0] [] 1 ![1, 128]
  gather_S100x128_S32768x1_S32768x128_1_0_n_n_0_1_1128_wf : GatherDims.WF S100x128 S32768x1 S32768x128 [1] [0] [] [0] [] 1 ![1, 128]
  gather_S4x128_S32768x1_S32768x128_1_0_n_n_0_1_1128_wf : GatherDims.WF S4x128 S32768x1 S32768x128 [1] [0] [] [0] [] 1 ![1, 128]
  gather_S64x128_S32768x1_S32768x128_1_0_n_n_0_1_1128_wf : GatherDims.WF S64x128 S32768x1 S32768x128 [1] [0] [] [0] [] 1 ![1, 128]
  gather_S100000x128_S32768x1_S32768x128_1_0_n_n_0_1_1128_wf : GatherDims.WF S100000x128 S32768x1 S32768x128 [1] [0] [] [0] [] 1 ![1, 128]
  dot_S32768x640_S640x1920_S32768x1920_1_0_0_1_n_n_wf : DotDims.WF S32768x640 S640x1920 S32768x1920 [1] [0] [0] [1] [] []
  dot_S32768x640_S640x256_S32768x256_1_0_0_1_n_n_wf : DotDims.WF S32768x640 S640x256 S32768x256 [1] [0] [0] [1] [] []

variable [Facts₀]

def gather_S500000x128_S32768x1_S32768x128_1_0_n_n_0_1_1128 : GatherDims S500000x128 S32768x1 S32768x128 where
  offsetDims := [1]
  collapsedSliceDims := [0]
  operandBatchingDims := []
  startIndicesBatchingDims := []
  startIndexMap := [0]
  indexVectorDim := 1
  sliceSizes := ![1, 128]
  wf := gather_S500000x128_S32768x1_S32768x128_1_0_n_n_0_1_1128_wf
def gather_S100x128_S32768x1_S32768x128_1_0_n_n_0_1_1128 : GatherDims S100x128 S32768x1 S32768x128 where
  offsetDims := [1]
  collapsedSliceDims := [0]
  operandBatchingDims := []
  startIndicesBatchingDims := []
  startIndexMap := [0]
  indexVectorDim := 1
  sliceSizes := ![1, 128]
  wf := gather_S100x128_S32768x1_S32768x128_1_0_n_n_0_1_1128_wf
def gather_S4x128_S32768x1_S32768x128_1_0_n_n_0_1_1128 : GatherDims S4x128 S32768x1 S32768x128 where
  offsetDims := [1]
  collapsedSliceDims := [0]
  operandBatchingDims := []
  startIndicesBatchingDims := []
  startIndexMap := [0]
  indexVectorDim := 1
  sliceSizes := ![1, 128]
  wf := gather_S4x128_S32768x1_S32768x128_1_0_n_n_0_1_1128_wf
def gather_S64x128_S32768x1_S32768x128_1_0_n_n_0_1_1128 : GatherDims S64x128 S32768x1 S32768x128 where
  offsetDims := [1]
  collapsedSliceDims := [0]
  operandBatchingDims := []
  startIndicesBatchingDims := []
  startIndexMap := [0]
  indexVectorDim := 1
  sliceSizes := ![1, 128]
  wf := gather_S64x128_S32768x1_S32768x128_1_0_n_n_0_1_1128_wf
def gather_S100000x128_S32768x1_S32768x128_1_0_n_n_0_1_1128 : GatherDims S100000x128 S32768x1 S32768x128 where
  offsetDims := [1]
  collapsedSliceDims := [0]
  operandBatchingDims := []
  startIndicesBatchingDims := []
  startIndexMap := [0]
  indexVectorDim := 1
  sliceSizes := ![1, 128]
  wf := gather_S100000x128_S32768x1_S32768x128_1_0_n_n_0_1_1128_wf
def dot_S32768x640_S640x1920_S32768x1920_1_0_0_1_n_n : DotDims S32768x640 S640x1920 S32768x1920 where
  lhsContracting := [1]
  rhsContracting := [0]
  lhsNonContracting := [0]
  rhsNonContracting := [1]
  lhsBatch := []
  rhsBatch := []
  wf := dot_S32768x640_S640x1920_S32768x1920_1_0_0_1_n_n_wf
def dot_S32768x640_S640x256_S32768x256_1_0_0_1_n_n : DotDims S32768x640 S640x256 S32768x256 where
  lhsContracting := [1]
  rhsContracting := [0]
  lhsNonContracting := [0]
  rhsNonContracting := [1]
  lhsBatch := []
  rhsBatch := []
  wf := dot_S32768x640_S640x256_S32768x256_1_0_0_1_n_n_wf

class Facts : Prop extends Facts₀ where

variable [Facts]
-- ==== Proof.HostV.lean ====
/-
  The kernel program's buffers at the moment its one pallas_call is entered: the launch memory after the
  host operations that precede the region (the index arithmetic and the five table lookups, the folding of
  the message passing into the input-side weights, the transposes, the one-row reshapes of the biases, the
  format changes), as one fold of those operations over the launch memory.
-/
import proofs.«167956_j6846177870358_2_alg».proof.Proof.Gen.KernelIdeal.Launch
import Idealize.ShloMosaic.Lib.StableHlo.Run

noncomputable section

namespace Cert.KernelIdeal.Frame

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ)

/-- Device `c`'s buffer `b` when the region is entered: the launch memory after the preceding host operations. -/
abbrev V (c : Dev nD) (b : Ref sig .tc) : Buf (Elt F) ((c : Thread nD τ).loc b) :=
  StableHlo.after hostOps0 (fun b => m (c, b)) b

end Cert.KernelIdeal.Frame

end
-- ==== Proof.FrameI.lean ====
/-
  The kernel program runs: every weakly fair execution of its @main terminates without a fault, and leaves
  its twelve argument arrays as launched; moreover the output array ends at what the grid's 64 points wrote back.

  @main is 72 host operations (none of which writes an argument array) and then one pallas_call over a grid of
  64 points.  At a point the body reads seven staged blocks — the point's 512 rows of the embedded features,
  and, whole, the two 640 × 1920 weight matrices, the two bias rows, the 640 × 256 output weights and the output
  bias row — and stores ONE 512 × 256 block.  So after the body an input's staging buffer still holds its block,
  and the output's holds that one store: a pure function (`out0_7`) of the seven input blocks, whatever the
  buffer held before.  These are the contents the pipelining argument of the library needs at every point
  (the proof data `dats`); the body's triple is obtained by running the body symbolically.
-/
import proofs.«167956_j6846177870358_2_alg».proof.Proof.HostV
import proofs.«167956_j6846177870358_2_alg».proof.Proof.Gen.KernelIdeal.Skeleton
import proofs.«167956_j6846177870358_2_alg».proof.Proof.Gen.KernelIdeal.Points
import Idealize.ShloMosaic.Lib.Pipeline.FrameBody
import Idealize.ShloMosaic.Lib.Ring
import Idealize.ShloMosaic.Lib.Tactic

-- membership in a rectangle of these extents recurses once per coordinate of the long axes
set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- No host operation allocates anything. -/
theorem hostOps0_fresh : (hostOps0 : List (HloOp τ sig (Elt F))).Forall fun op => op.fresh = ∅ := by
  simp only [hostOps0, List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, fetched there or not (where it is
    not fetched its block index has not moved), for any proof data over the region-entry arrays whose body
    leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- No window's array is an argument array, so each argument is an unscoped buffer the region never stages:
    it ends as the region found it, which is as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c)⟩) h

/-! ## The body's accesses -/

abbrev rH : Rect S512x640 := Rect.unit (s := S512x640) ![0, 0] S512x640.size inb_S512x640_S512x640_0_0
abbrev rW : Rect S640x1920 := Rect.unit (s := S640x1920) ![0, 0] S640x1920.size inb_S640x1920_S640x1920_0_0
abbrev rB : Rect S1x1920 := Rect.unit (s := S1x1920) ![0, 0] S1x1920.size inb_S1x1920_S1x1920_0_0
abbrev rF : Rect S640x256 := Rect.unit (s := S640x256) ![0, 0] S640x256.size inb_S640x256_S640x256_0_0
abbrev rG : Rect S1x256 := Rect.unit (s := S1x256) ![0, 0] S1x256.size inb_S1x256_S1x256_0_0
abbrev rO : Rect S512x256 := Rect.unit (s := S512x256) ![0, 0] S512x256.size inb_S512x256_S512x256_0_0

/-! ## What the body leaves in the output window's buffer -/

/-- The output's staging buffer after the body: its one store, the final layer's block, over the row block
    after two rounds — all pure functions of the seven input blocks. -/
def out0_7 (x0 : Vec F S512x640 .f32) (x1 x2 : Vec F S640x1920 .bf16) (x3 x4 : Vec F S1x1920 .f32) (x5 : Vec F S640x256 .bf16) (x6 : Vec F S1x256 .f32) : Vec F S512x256 .f32 :=
  View.canon [⟨rO, k0_pay1 (k0_pay6 (View.ld x0 rH) (View.ld x1 rW) (View.ld x2 rW) (View.ld x3 rB) (View.ld x4 rB))
    (k0_pay8 (View.ld x0 rH) (View.ld x1 rW) (View.ld x2 rW) (View.ld x3 rB) (View.ld x4 rB))
    (k0_pay9 (View.ld x0 rH) (View.ld x1 rW) (View.ld x2 rW) (View.ld x3 rB) (View.ld x4 rB)) (View.ld x5 rF) (View.ld x6 rG)⟩]

/-- The one store is of the whole buffer. -/
theorem cover0_7 (p0 : Vec F S512x256 .f32) (y : S512x256.Idx) :
    ∃ pc ∈ ([⟨rO, p0⟩] : List (View.Piece (Elt F) S512x256 .f32)), y ∈ pc.1.set :=
  View.cover_of_tiled [⟨rO, p0⟩] S512x256.size (by rfl) y

/-! ## The body's triple -/

set_option maxHeartbeats 4000000 in
/-- The body on whole staging memrefs, the inputs' at contents `x0 … x6` and the output's at anything, runs to a
    state with the inputs' as they were and the output's at `out0_7` of them. -/
theorem sound_kernel (c : Dev nD) (E : Set ℕ) (i : grid0.Coords) (arg1 : Memref sig .tc .vmem S512x640 .f32) (harg1 : arg1.IsWhole) (arg2 : Memref sig .tc .vmem S640x1920 .bf16) (harg2 : arg2.IsWhole) (arg3 : Memref sig .tc .vmem S640x1920 .bf16) (harg3 : arg3.IsWhole) (arg4 : Memref sig .tc .vmem S1x1920 .f32) (harg4 : arg4.IsWhole) (arg5 : Memref sig .tc .vmem S1x1920 .f32) (harg5 : arg5.IsWhole) (arg6 : Memref sig .tc .vmem S640x256 .bf16) (harg6 : arg6.IsWhole) (arg7 : Memref sig .tc .vmem S1x256 .f32) (harg7 : arg7.IsWhole) (arg8 : Memref sig .tc .vmem S512x256 .f32) (harg8 : arg8.IsWhole)
    (x0 : Vec F S512x640 .f32) (x1 x2 : Vec F S640x1920 .bf16) (x3 x4 : Vec F S1x1920 .f32) (x5 : Vec F S640x256 .bf16) (x6 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6)) -∗ K ⟨⟩))
      ⊢ wp frame (wpE (defs₀ (F := F)) Variants.none c none) E (cc0__gnn_kernel i arg1 harg1 arg2 harg2 arg3 harg3 arg4 harg4 arg5 harg5 arg6 harg6 arg7 harg7 arg8 harg8) K := by
  simp only [cc0__gnn_kernel_eq_skeleton]; unfold cc0__gnn_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover0_7 _)

/-! ## The pipeline's proof data -/

/-- On device `c`: the arrays as the region finds them; after the body at point `t` each input's buffer at its
    block and the output's at `out0_7` of the input blocks; the invariant the untouched scoped rest; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out0_7 (iblk m c 0 t) (iblk m c 1 t) (iblk m c 2 t) (iblk m c 3 t) (iblk m c 4 t) (iblk m c 5 t) (iblk m c 6 t)
  Φ _ := Pipeline.ΦA spec0 c
  q _ := fullShare
  owed _ := 0

/-- The proof data's arrays are the region-entry contents (projected, never unfolded: `V` is a long fold). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = out0_7 (iblk m c 0 t) (iblk m c 1 t) (iblk m c 2 t) (iblk m c 3 t) (iblk m c 4 t) (iblk m c 5 t) (iblk m c 6 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 4000000 in
/-- The body at any point: the inputs' memrefs hold their blocks, so the body's triple applies; the invariant and
    the core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at
    what the library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs and leaves its twelve argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (run_main m ρ)

end Cert.KernelIdeal.Frame

end
-- ==== Proof.HostVB.lean ====
/-
  The kernel program's buffers at the moment its one pallas_call is entered: the launch memory after the
  host operations that precede the region (the index arithmetic and the five table lookups, the folding of
  the message passing into the input-side weights, the transposes, the one-row reshapes of the biases, the
  format changes), as one fold of those operations over the launch memory.
-/
import proofs.«167956_j6846177870358_2_alg».proof.Proof.Gen.Kernel.Launch
import Idealize.ShloMosaic.Lib.StableHlo.Run

noncomputable section

namespace Cert.Kernel.Frame

open Cert.Kernel Cert.Kernel.Gen
open Idealize.ShloMosaic Idealize.ShloMosaic.TcCoe
open Idealize.SL Idealize.SL.Sem

variable {F : FTy → Type} [FloatOps F]
variable (m : (ℓ : Loc nD τ sig) → Buf (Elt F) ℓ)

/-- Device `c`'s buffer `b` when the region is entered: the launch memory after the preceding host operations. -/
abbrev V (c : Dev nD) (b : Ref sig .tc) : Buf (Elt F) ((c : Thread nD τ).loc b) :=
  StableHlo.after hostOps0 (fun b => m (c, b)) b

end Cert.Kernel.Frame

end
-- ==== Proof.FrameB.lean ====
/-
  The kernel program runs: every weakly fair execution of its @main terminates without a fault, and leaves
  its twelve argument arrays as launched; moreover the output array ends at what the grid's 64 points wrote back.

  @main is 72 host operations (none of which writes an argument array) and then one pallas_call over a grid of
  64 points.  At a point the body reads seven staged blocks — the point's 512 rows of the embedded features,
  and, whole, the two 640 × 1920 weight matrices, the two bias rows, the 640 × 256 output weights and the output
  bias row — and stores ONE 512 × 256 block.  So after the body an input's staging buffer still holds its block,
  and the output's holds that one store: a pure function (`out0_7`) of the seven input blocks, whatever the
  buffer held before.  These are the contents the pipelining argument of the library needs at every point
  (the proof data `dats`); the body's triple is obtained by running the body symbolically.
-/
import proofs.«167956_j6846177870358_2_alg».proof.Proof.HostVB
import proofs.«167956_j6846177870358_2_alg».proof.Proof.Gen.Kernel.Skeleton
import proofs.«167956_j6846177870358_2_alg».proof.Proof.Gen.Kernel.Points
import Idealize.ShloMosaic.Lib.Pipeline.FrameBody
import Idealize.ShloMosaic.Lib.Ring
import Idealize.ShloMosaic.Lib.Tactic

-- membership in a rectangle of these extents recurses once per coordinate of the long axes
set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- No host operation allocates anything. -/
theorem hostOps0_fresh : (hostOps0 : List (HloOp τ sig (Elt F))).Forall fun op => op.fresh = ∅ := by
  simp only [hostOps0, List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, fetched there or not (where it is
    not fetched its block index has not moved), for any proof data over the region-entry arrays whose body
    leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- No window's array is an argument array, so each argument is an unscoped buffer the region never stages:
    it ends as the region found it, which is as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c)⟩) h

/-! ## The body's accesses -/

abbrev rH : Rect S512x640 := Rect.unit (s := S512x640) ![0, 0] S512x640.size inb_S512x640_S512x640_0_0
abbrev rW : Rect S640x1920 := Rect.unit (s := S640x1920) ![0, 0] S640x1920.size inb_S640x1920_S640x1920_0_0
abbrev rB : Rect S1x1920 := Rect.unit (s := S1x1920) ![0, 0] S1x1920.size inb_S1x1920_S1x1920_0_0
abbrev rF : Rect S640x256 := Rect.unit (s := S640x256) ![0, 0] S640x256.size inb_S640x256_S640x256_0_0
abbrev rG : Rect S1x256 := Rect.unit (s := S1x256) ![0, 0] S1x256.size inb_S1x256_S1x256_0_0
abbrev rO : Rect S512x256 := Rect.unit (s := S512x256) ![0, 0] S512x256.size inb_S512x256_S512x256_0_0

/-! ## What the body leaves in the output window's buffer -/

/-- The output's staging buffer after the body: its one store, the final layer's block, over the row block
    after two rounds — all pure functions of the seven input blocks. -/
def out0_7 (x0 : Vec F S512x640 .f32) (x1 x2 : Vec F S640x1920 .bf16) (x3 x4 : Vec F S1x1920 .f32) (x5 : Vec F S640x256 .bf16) (x6 : Vec F S1x256 .f32) : Vec F S512x256 .f32 :=
  View.canon [⟨rO, k0_pay1 (k0_pay6 (View.ld x0 rH) (View.ld x1 rW) (View.ld x2 rW) (View.ld x3 rB) (View.ld x4 rB))
    (k0_pay8 (View.ld x0 rH) (View.ld x1 rW) (View.ld x2 rW) (View.ld x3 rB) (View.ld x4 rB))
    (k0_pay9 (View.ld x0 rH) (View.ld x1 rW) (View.ld x2 rW) (View.ld x3 rB) (View.ld x4 rB)) (View.ld x5 rF) (View.ld x6 rG)⟩]

/-- The one store is of the whole buffer. -/
theorem cover0_7 (p0 : Vec F S512x256 .f32) (y : S512x256.Idx) :
    ∃ pc ∈ ([⟨rO, p0⟩] : List (View.Piece (Elt F) S512x256 .f32)), y ∈ pc.1.set :=
  View.cover_of_tiled [⟨rO, p0⟩] S512x256.size (by rfl) y

/-! ## The body's triple -/

set_option maxHeartbeats 4000000 in
/-- The body on whole staging memrefs, the inputs' at contents `x0 … x6` and the output's at anything, runs to a
    state with the inputs' as they were and the output's at `out0_7` of them. -/
theorem sound_kernel (c : Dev nD) (E : Set ℕ) (i : grid0.Coords) (arg1 : Memref sig .tc .vmem S512x640 .f32) (harg1 : arg1.IsWhole) (arg2 : Memref sig .tc .vmem S640x1920 .bf16) (harg2 : arg2.IsWhole) (arg3 : Memref sig .tc .vmem S640x1920 .bf16) (harg3 : arg3.IsWhole) (arg4 : Memref sig .tc .vmem S1x1920 .f32) (harg4 : arg4.IsWhole) (arg5 : Memref sig .tc .vmem S1x1920 .f32) (harg5 : arg5.IsWhole) (arg6 : Memref sig .tc .vmem S640x256 .bf16) (harg6 : arg6.IsWhole) (arg7 : Memref sig .tc .vmem S1x256 .f32) (harg7 : arg7.IsWhole) (arg8 : Memref sig .tc .vmem S512x256 .f32) (harg8 : arg8.IsWhole)
    (x0 : Vec F S512x640 .f32) (x1 x2 : Vec F S640x1920 .bf16) (x3 x4 : Vec F S1x1920 .f32) (x5 : Vec F S640x256 .bf16) (x6 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6)) -∗ K ⟨⟩))
      ⊢ wp frame (wpE (defs₀ (F := F)) Variants.none c none) E (cc0__gnn_kernel i arg1 harg1 arg2 harg2 arg3 harg3 arg4 harg4 arg5 harg5 arg6 harg6 arg7 harg7 arg8 harg8) K := by
  simp only [cc0__gnn_kernel_eq_skeleton]; unfold cc0__gnn_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover0_7 _)

/-! ## The pipeline's proof data -/

/-- On device `c`: the arrays as the region finds them; after the body at point `t` each input's buffer at its
    block and the output's at `out0_7` of the input blocks; the invariant the untouched scoped rest; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out0_7 (iblk m c 0 t) (iblk m c 1 t) (iblk m c 2 t) (iblk m c 3 t) (iblk m c 4 t) (iblk m c 5 t) (iblk m c 6 t)
  Φ _ := Pipeline.ΦA spec0 c
  q _ := fullShare
  owed _ := 0

/-- The proof data's arrays are the region-entry contents (projected, never unfolded: `V` is a long fold). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = out0_7 (iblk m c 0 t) (iblk m c 1 t) (iblk m c 2 t) (iblk m c 3 t) (iblk m c 4 t) (iblk m c 5 t) (iblk m c 6 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 4000000 in
/-- The body at any point: the inputs' memrefs hold their blocks, so the body's triple applies; the invariant and
    the core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at
    what the library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs and leaves its twelve argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (run_main m ρ)

end Cert.Kernel.Frame

end
-- ==== Proof.Spec.lean ====
/-
  The row-wise specification of both programs.  A batch row carries 640 = 5 · 128 features: five graph nodes
  of 128 lanes each.  One round sends every node the sum of the OTHER nodes' features (lane by lane), feeds
  that message and the row itself to a GRU cell with 3 · 640 gate pre-activations, and returns the new row;
  after two rounds a linear layer maps the row to 256 outputs.

  The two programs differ in ONE place, the input-side pre-activation of the cell:
    reference   gi c = (∑ q, msg h q * W c q) + b c        with  msg h q  = (0 + ∑ j, h (node j q)) - h q
    kernel      gi c = (∑ q, h q * weff W c q) + b c       with  weff W c q = (0 + ∑ j, W c (node j q)) - W c q
  (the message passing folded into the weights).  Everything else is the same expression on both sides, so it
  is stated once, over the pre-activations (`cell`).
-/
import Idealize.ShloMosaic.PureOps.Ideal

noncomputable section

namespace Cert.Gnn

open Idealize.ShloMosaic

/-- Lane `q % 128` of node `j` in a row of 640 = 5 · 128 features. -/
def node (j : Fin 5) (q : Fin 640) : Fin 640 := ⟨j.val * 128 + q.val % 128, by have := j.isLt; omega⟩

/-- The reset gate's, the update gate's and the candidate's pre-activation for feature `k`: columns `k`,
    `640 + k`, `1280 + k` of the 1920. -/
def gateR (k : Fin 640) : Fin 1920 := ⟨k.val, by have := k.isLt; omega⟩
def gateZ (k : Fin 640) : Fin 1920 := ⟨640 + k.val, by have := k.isLt; omega⟩
def gateN (k : Fin 640) : Fin 1920 := ⟨1280 + k.val, by have := k.isLt; omega⟩

/-- The float word of `1.0`, as both programs spell it. -/
def one : EReal := Ideal.ofBits .f32 0x3F800000#32

theorem one_eq : one = 1 := by
  unfold one; simp [Ideal.ofBits, Ideal.ieee, -EReal.coe_mul]; norm_num

/-- The float word of `+0.0` denotes `0`. -/
theorem ofBits_zero : Ideal.ofBits .f32 0x00000000#32 = 0 := by
  simp [Ideal.ofBits, Ideal.ieee]

/-- The message a lane receives: the sum over the five nodes of that lane, less the node's own. -/
def msg (h : Fin 640 → EReal) (q : Fin 640) : EReal := (0 + ∑ j : Fin 5, h (node j q)) - h q

/-- The folded weight: the sum over the five nodes of the lane's weight, less the node's own. -/
def weff (W : Fin 1920 → Fin 640 → EReal) (c : Fin 1920) (q : Fin 640) : EReal :=
  (0 + ∑ j : Fin 5, W c (node j q)) - W c q

/-- The input-side pre-activations, as the reference computes them: the message times the weights. -/
def giRef (W : Fin 1920 → Fin 640 → EReal) (b : Fin 1920 → EReal) (h : Fin 640 → EReal) (c : Fin 1920) : EReal :=
  (∑ q : Fin 640, msg h q * W c q) + b c

/-- The input-side pre-activations, as the kernel computes them: the row times the folded weights. -/
def giKer (W : Fin 1920 → Fin 640 → EReal) (b : Fin 1920 → EReal) (h : Fin 640 → EReal) (c : Fin 1920) : EReal :=
  (∑ q : Fin 640, h q * weff W c q) + b c

/-- The hidden-side pre-activations: the row times the weights (both programs). -/
def gh (W : Fin 1920 → Fin 640 → EReal) (b : Fin 1920 → EReal) (h : Fin 640 → EReal) (c : Fin 1920) : EReal :=
  (∑ q : Fin 640, h q * W c q) + b c

/-- The GRU cell over given pre-activations: `r = σ(i_r + h_r)`, `z = σ(i_z + h_z)`, `n = tanh(i_n + r · h_n)`,
    new feature `(1 - z) · n + z · h`. -/
def cell (gi gh : Fin 1920 → EReal) (h : Fin 640 → EReal) (k : Fin 640) : EReal :=
  (one - Ideal.logistic (gi (gateZ k) + gh (gateZ k)))
      * Ideal.tanh (gi (gateN k) + Ideal.logistic (gi (gateR k) + gh (gateR k)) * gh (gateN k))
    + Ideal.logistic (gi (gateZ k) + gh (gateZ k)) * h k

/-- One round, the reference's way and the kernel's way. -/
def stepRef (Wih Whh : Fin 1920 → Fin 640 → EReal) (bih bhh : Fin 1920 → EReal) (h : Fin 640 → EReal) : Fin 640 → EReal :=
  cell (giRef Wih bih h) (gh Whh bhh h) h
def stepKer (Wih Whh : Fin 1920 → Fin 640 → EReal) (bih bhh : Fin 1920 → EReal) (h : Fin 640 → EReal) : Fin 640 → EReal :=
  cell (giKer Wih bih h) (gh Whh bhh h) h

/-- One round over ANY input-side weight matrix `E` (the kernel's body sees its weights only as matrices):
    `stepKer Wih … = stepGen (weff Wih) …` by unfolding. -/
def stepGen (E Whh : Fin 1920 → Fin 640 → EReal) (bih bhh : Fin 1920 → EReal) (h : Fin 640 → EReal) : Fin 640 → EReal :=
  cell (gh E bih h) (gh Whh bhh h) h

theorem stepKer_eq_stepGen (Wih Whh : Fin 1920 → Fin 640 → EReal) (bih bhh : Fin 1920 → EReal) (h : Fin 640 → EReal) :
    stepKer Wih Whh bih bhh h = stepGen (weff Wih) Whh bih bhh h := rfl

/-- The final linear layer. -/
def fc (W : Fin 256 → Fin 640 → EReal) (b : Fin 256 → EReal) (h : Fin 640 → EReal) (o : Fin 256) : EReal :=
  (∑ q : Fin 640, h q * W o q) + b o

/-- A row's 256 outputs after two rounds, the reference's way and the kernel's way. -/
def outRef (Wih Whh : Fin 1920 → Fin 640 → EReal) (bih bhh : Fin 1920 → EReal) (Wfc : Fin 256 → Fin 640 → EReal)
    (bfc : Fin 256 → EReal) (h : Fin 640 → EReal) : Fin 256 → EReal :=
  fc Wfc bfc (stepRef Wih Whh bih bhh (stepRef Wih Whh bih bhh h))
def outKer (Wih Whh : Fin 1920 → Fin 640 → EReal) (bih bhh : Fin 1920 → EReal) (Wfc : Fin 256 → Fin 640 → EReal)
    (bfc : Fin 256 → EReal) (h : Fin 640 → EReal) : Fin 256 → EReal :=
  fc Wfc bfc (stepKer Wih Whh bih bhh (stepKer Wih Whh bih bhh h))

/-- A row's 256 outputs after two rounds over any input-side weight matrix. -/
def outGen (E Whh : Fin 1920 → Fin 640 → EReal) (bih bhh : Fin 1920 → EReal) (Wfc : Fin 256 → Fin 640 → EReal)
    (bfc : Fin 256 → EReal) (h : Fin 640 → EReal) : Fin 256 → EReal :=
  fc Wfc bfc (stepGen E Whh bih bhh (stepGen E Whh bih bhh h))

theorem outKer_eq_outGen (Wih Whh : Fin 1920 → Fin 640 → EReal) (bih bhh : Fin 1920 → EReal) (Wfc : Fin 256 → Fin 640 → EReal)
    (bfc : Fin 256 → EReal) (h : Fin 640 → EReal) :
    outKer Wih Whh bih bhh Wfc bfc h = outGen (weff Wih) Whh bih bhh Wfc bfc h := rfl

/-- A row of the embedded features: lane `q % 128` of the `q / 128`-th table's gathered row. -/
def embRow (g : Fin 5 → Fin 128 → EReal) (q : Fin 640) : EReal :=
  g ⟨q.val / 128, by have := q.isLt; omega⟩ ⟨q.val % 128, Nat.mod_lt _ (by norm_num)⟩

/-- "Is a real number": neither infinity. -/
def IsReal (x : EReal) : Prop := ∃ r : ℝ, x = (r : EReal)

end Cert.Gnn

end
-- ==== Proof.KerArray.lean ====
/-
  From the grid's points to the whole output array.  Point `t` of the 64 stages rows `512 t … 512 t + 511` of
  the embedded features and, whole, every weight and bias array; it writes back rows `512 t … 512 t + 511` of
  the output.  So what point `t` writes back is block `t` of ONE function `Gk` of the arrays the region finds:
  entry `(b, o)` is output `o` of row `b` after two rounds.  The 64 blocks tile the 32768 rows, hence the
  output array ends at `Gk`.
  The body's arithmetic enters through one fact about its stored value at an index (`PayFact`), proved apart.
-/
import proofs.«167956_j6846177870358_2_alg».proof.Proof.FrameI
import proofs.«167956_j6846177870358_2_alg».proof.Proof.Spec
import Idealize.ShloMosaic.Lib.ValueIdx
import Idealize.ShloMosaic.Lib.Pipeline.Value

set_option maxRecDepth 16384

noncomputable section

namespace Cert.KernelIdeal.KerValue

open Cert.KernelIdeal Cert.KernelIdeal.Gen Cert.KernelIdeal.Frame
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-- The body's stored value at row `r`, column `o` of its block is output `o` of the block's row `r` after two
    rounds over the staged matrices (stored [feature, column]) and bias rows. -/
def PayFact : Prop :=
  ∀ (x0 : Vec Ideal S512x640 .f32) (x1 x2 : Vec Ideal S640x1920 .bf16) (x3 x4 : Vec Ideal S1x1920 .f32)
    (x5 : Vec Ideal S640x256 .bf16) (x6 : Vec Ideal S1x256 .f32) (r : Fin 512) (o : Fin 256),
    k0_pay1 (F := Ideal) (k0_pay6 x0 x1 x2 x3 x4) (k0_pay8 x0 x1 x2 x3 x4) (k0_pay9 x0 x1 x2 x3 x4) x5 x6 (ix2 r o)
      = Cert.Gnn.outGen (fun c q => x1 (ix2 q c)) (fun c q => x2 (ix2 q c)) (fun c => x3 (ix2 0 c)) (fun c => x4 (ix2 0 c))
          (fun o q => x5 (ix2 q o)) (fun o => x6 (ix2 0 o)) (fun q => x0 (ix2 r q)) o

/-- Two rounds and the final layer depend on their data only through its entries. -/
theorem outGen_congr {E E' Whh Whh' : Fin 1920 → Fin 640 → EReal} {bih bih' bhh bhh' : Fin 1920 → EReal}
    {Wfc Wfc' : Fin 256 → Fin 640 → EReal} {bfc bfc' : Fin 256 → EReal} {h h' : Fin 640 → EReal} {o o' : Fin 256}
    (hE : ∀ c q, E c q = E' c q) (hW : ∀ c q, Whh c q = Whh' c q) (hbi : ∀ c, bih c = bih' c) (hbh : ∀ c, bhh c = bhh' c)
    (hF : ∀ o q, Wfc o q = Wfc' o q) (hbf : ∀ o, bfc o = bfc' o) (hh : ∀ q, h q = h' q) (ho : o = o') :
    Cert.Gnn.outGen E Whh bih bhh Wfc bfc h o = Cert.Gnn.outGen E' Whh' bih' bhh' Wfc' bfc' h' o' := by
  obtain rfl : E = E' := funext fun c => funext (hE c)
  obtain rfl : Whh = Whh' := funext fun c => funext (hW c)
  obtain rfl : bih = bih' := funext hbi
  obtain rfl : bhh = bhh' := funext hbh
  obtain rfl : Wfc = Wfc' := funext fun o => funext (hF o)
  obtain rfl : bfc = bfc' := funext hbf
  obtain rfl : h = h' := funext hh
  subst ho
  rfl

theorem hz : (![0, 0] : Fin 2 → Nat) = fun _ => 0 := funext fun a => by fin_cases a <;> rfl

/-- Output `o` of row `b`, over the operand arrays as the region finds them. -/
def GkAt (c : Dev nD) (b : Fin 32768) (o : Fin 256) : EReal :=
  Cert.Gnn.outGen (fun cc q => (V m c main_v58 : S640x1920.Idx → Elt Ideal .bf16) (ix2 q cc))
    (fun cc q => (V m c main_v59 : S640x1920.Idx → Elt Ideal .bf16) (ix2 q cc))
    (fun cc => (V m c main_v55 : S1x1920.Idx → Elt Ideal .f32) (ix2 (0 : Fin 1) cc))
    (fun cc => (V m c main_v56 : S1x1920.Idx → Elt Ideal .f32) (ix2 (0 : Fin 1) cc))
    (fun o q => (V m c main_v60 : S640x256.Idx → Elt Ideal .bf16) (ix2 q o))
    (fun o => (V m c main_v57 : S1x256.Idx → Elt Ideal .f32) (ix2 (0 : Fin 1) o))
    (fun q => (V m c main_v45 : S32768x640.Idx → Elt Ideal .f32) (ix2 b q)) o

/-- The output array as one function of the operand arrays. -/
def Gk (c : Dev nD) : S32768x256.Idx → Elt Ideal .f32 := fun i => GkAt m c (i 0) (i 1)

/-- The printed index maps over the grid: the row blocks of the features and of the output move together with the
    point, every other block is the whole array. -/
theorem idx_facts : ∀ t : Fin cfg0.N,
    win0_0.index t (0 : Fin 2) = win0_7.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (1 : Fin 2) = 0 ∧ win0_7.index t (0 : Fin 2) ≤ 63 :=
  (by decide +kernel : ∀ t : Fin grid0.N, _)

/-- Every row block is some point's. -/
theorem idx_onto : ∀ q0 : Fin 64, ∃ t : Fin cfg0.N, win0_7.index t = ![q0.val, 0] :=
  (by decide +kernel : ∀ q0 : Fin 64, ∃ t : Fin grid0.N, win0_7.index t = ![q0.val, 0])

/-- Window 1's block at any point is its whole array. -/
theorem blk1_apply (c : Dev nD) (t : Fin cfg0.N) (q : Fin 640) (cc : Fin 1920) :
    iblk m c 1 t (ix2 q cc) = (V m c main_v58 : S640x1920.Idx → Elt Ideal .bf16) (ix2 q cc) := by
  obtain ⟨e00, e01, e10, e11, e20, e21, e30, e31, e40, e41, e50, e51, e60, e61, e71, e7b⟩ := idx_facts t
  have h : ((cfg0.win 1).blk t).view.emb (ix2 q cc) = ix2 q cc := by
    funext ax; apply Fin.ext
    match ax with
    | ⟨0, _⟩ => show win0_1.index t (0 : Fin 2) * 640 + 1 * _ = _; omega
    | ⟨1, _⟩ => show win0_1.index t (1 : Fin 2) * 1920 + 1 * _ = _; omega
  show (V m c main_v58 : S640x1920.Idx → Elt Ideal .bf16) (((cfg0.win 1).blk t).view.emb (ix2 q cc)) = _
  rw [h]

/-- Window 2's block at any point is its whole array. -/
theorem blk2_apply (c : Dev nD) (t : Fin cfg0.N) (q : Fin 640) (cc : Fin 1920) :
    iblk m c 2 t (ix2 q cc) = (V m c main_v59 : S640x1920.Idx → Elt Ideal .bf16) (ix2 q cc) := by
  obtain ⟨e00, e01, e10, e11, e20, e21, e30, e31, e40, e41, e50, e51, e60, e61, e71, e7b⟩ := idx_facts t
  have h : ((cfg0.win 2).blk t).view.emb (ix2 q cc) = ix2 q cc := by
    funext ax; apply Fin.ext
    match ax with
    | ⟨0, _⟩ => show win0_2.index t (0 : Fin 2) * 640 + 1 * _ = _; omega
    | ⟨1, _⟩ => show win0_2.index t (1 : Fin 2) * 1920 + 1 * _ = _; omega
  show (V m c main_v59 : S640x1920.Idx → Elt Ideal .bf16) (((cfg0.win 2).blk t).view.emb (ix2 q cc)) = _
  rw [h]

/-- Window 3's block at any point is its whole array. -/
theorem blk3_apply (c : Dev nD) (t : Fin cfg0.N) (cc : Fin 1920) :
    iblk m c 3 t (ix2 (0 : Fin 1) cc) = (V m c main_v55 : S1x1920.Idx → Elt Ideal .f32) (ix2 (0 : Fin 1) cc) := by
  obtain ⟨e00, e01, e10, e11, e20, e21, e30, e31, e40, e41, e50, e51, e60, e61, e71, e7b⟩ := idx_facts t
  have h : ((cfg0.win 3).blk t).view.emb (ix2 (0 : Fin 1) cc) = ix2 (0 : Fin 1) cc := by
    funext ax; apply Fin.ext
    match ax with
    | ⟨0, _⟩ => show win0_3.index t (0 : Fin 2) * 1 + 1 * _ = _; omega
    | ⟨1, _⟩ => show win0_3.index t (1 : Fin 2) * 1920 + 1 * _ = _; omega
  show (V m c main_v55 : S1x1920.Idx → Elt Ideal .f32) (((cfg0.win 3).blk t).view.emb (ix2 (0 : Fin 1) cc)) = _
  rw [h]

/-- Window 4's block at any point is its whole array. -/
theorem blk4_apply (c : Dev nD) (t : Fin cfg0.N) (cc : Fin 1920) :
    iblk m c 4 t (ix2 (0 : Fin 1) cc) = (V m c main_v56 : S1x1920.Idx → Elt Ideal .f32) (ix2 (0 : Fin 1) cc) := by
  obtain ⟨e00, e01, e10, e11, e20, e21, e30, e31, e40, e41, e50, e51, e60, e61, e71, e7b⟩ := idx_facts t
  have h : ((cfg0.win 4).blk t).view.emb (ix2 (0 : Fin 1) cc) = ix2 (0 : Fin 1) cc := by
    funext ax; apply Fin.ext
    match ax with
    | ⟨0, _⟩ => show win0_4.index t (0 : Fin 2) * 1 + 1 * _ = _; omega
    | ⟨1, _⟩ => show win0_4.index t (1 : Fin 2) * 1920 + 1 * _ = _; omega
  show (V m c main_v56 : S1x1920.Idx → Elt Ideal .f32) (((cfg0.win 4).blk t).view.emb (ix2 (0 : Fin 1) cc)) = _
  rw [h]

/-- Window 5's block at any point is its whole array. -/
theorem blk5_apply (c : Dev nD) (t : Fin cfg0.N) (q : Fin 640) (o : Fin 256) :
    iblk m c 5 t (ix2 q o) = (V m c main_v60 : S640x256.Idx → Elt Ideal .bf16) (ix2 q o) := by
  obtain ⟨e00, e01, e10, e11, e20, e21, e30, e31, e40, e41, e50, e51, e60, e61, e71, e7b⟩ := idx_facts t
  have h : ((cfg0.win 5).blk t).view.emb (ix2 q o) = ix2 q o := by
    funext ax; apply Fin.ext
    match ax with
    | ⟨0, _⟩ => show win0_5.index t (0 : Fin 2) * 640 + 1 * _ = _; omega
    | ⟨1, _⟩ => show win0_5.index t (1 : Fin 2) * 256 + 1 * _ = _; omega
  show (V m c main_v60 : S640x256.Idx → Elt Ideal .bf16) (((cfg0.win 5).blk t).view.emb (ix2 q o)) = _
  rw [h]

/-- Window 6's block at any point is its whole array. -/
theorem blk6_apply (c : Dev nD) (t : Fin cfg0.N) (o : Fin 256) :
    iblk m c 6 t (ix2 (0 : Fin 1) o) = (V m c main_v57 : S1x256.Idx → Elt Ideal .f32) (ix2 (0 : Fin 1) o) := by
  obtain ⟨e00, e01, e10, e11, e20, e21, e30, e31, e40, e41, e50, e51, e60, e61, e71, e7b⟩ := idx_facts t
  have h : ((cfg0.win 6).blk t).view.emb (ix2 (0 : Fin 1) o) = ix2 (0 : Fin 1) o := by
    funext ax; apply Fin.ext
    match ax with
    | ⟨0, _⟩ => show win0_6.index t (0 : Fin 2) * 1 + 1 * _ = _; omega
    | ⟨1, _⟩ => show win0_6.index t (1 : Fin 2) * 256 + 1 * _ = _; omega
  show (V m c main_v57 : S1x256.Idx → Elt Ideal .f32) (((cfg0.win 6).blk t).view.emb (ix2 (0 : Fin 1) o)) = _
  rw [h]

/-- Row `r` of the feature block at point `t` is row `512 t + r` of the embedded features: the row the output's
    block holds at `r`. -/
theorem blk0_apply (c : Dev nD) (t : Fin cfg0.N) (r : Fin 512) (o : Fin 256) (q : Fin 640) :
    iblk m c 0 t (ix2 r q) = (V m c main_v45 : S32768x640.Idx → Elt Ideal .f32) (ix2 ((((cfg0.win 7).blk t).view.emb (ix2 r o)) 0) q) := by
  obtain ⟨e00, e01, e10, e11, e20, e21, e30, e31, e40, e41, e50, e51, e60, e61, e71, e7b⟩ := idx_facts t
  have h : ((cfg0.win 0).blk t).view.emb (ix2 r q) = ix2 ((((cfg0.win 7).blk t).view.emb (ix2 r o)) 0) q := by
    funext ax; apply Fin.ext
    match ax with
    | ⟨0, _⟩ => show win0_0.index t (0 : Fin 2) * 512 + 1 * r.val = win0_7.index t (0 : Fin 2) * 512 + 1 * r.val; omega
    | ⟨1, _⟩ => show win0_0.index t (1 : Fin 2) * 640 + 1 * q.val = q.val; omega
  show (V m c main_v45 : S32768x640.Idx → Elt Ideal .f32) (((cfg0.win 0).blk t).view.emb (ix2 r q)) = _
  rw [h]
  rfl

/-- The column of the output's block at `o` is `o`. -/
theorem col7_apply (t : Fin cfg0.N) (r : Fin 512) (o : Fin 256) :
    o = (((cfg0.win 7).blk t).view.emb (ix2 r o)) 1 := by
  obtain ⟨e00, e01, e10, e11, e20, e21, e30, e31, e40, e41, e50, e51, e60, e61, e71, e7b⟩ := idx_facts t
  apply Fin.ext
  show o.val = win0_7.index t (1 : Fin 2) * 256 + 1 * o.val
  omega

set_option maxHeartbeats 2000000 in
/-- What point `t` writes back is block `t` of `Gk`. -/
theorem flushed7_eq (hpay : PayFact) (c : Dev nD) (t : Fin cfg0.N) :
    (dats m 0 c).flushed 7 t = ((cfg0.win 7).blk t).view.read (Elt Ideal) (Gk m c) := by
  show (cfg0.win 7).cut (grid0.coords t) ((dats m 0 c).after 7 t) = _
  rw [after0_7]
  unfold out0_7
  rw [View.canon_unit_zero hz]
  simp only [View.ld_unit_zero (S := S512x640) hz, View.ld_unit_zero (S := S640x1920) hz, View.ld_unit_zero (S := S1x1920) hz,
    View.ld_unit_zero (S := S640x256) hz, View.ld_unit_zero (S := S1x256) hz]
  funext j
  obtain ⟨r, o, rfl⟩ : ∃ (r : Fin 512) (o : Fin 256), j = ix2 r o := ⟨j 0, j 1, eq_ix2 j⟩
  refine (hpay (iblk m c 0 t) (iblk m c 1 t) (iblk m c 2 t) (iblk m c 3 t) (iblk m c 4 t) (iblk m c 5 t) (iblk m c 6 t) r o).trans ?_
  show _ = GkAt m c ((((cfg0.win 7).blk t).view.emb (ix2 r o)) 0) ((((cfg0.win 7).blk t).view.emb (ix2 r o)) 1)
  unfold GkAt
  exact outGen_congr (fun cc q => blk1_apply m c t q cc) (fun cc q => blk2_apply m c t q cc) (fun cc => blk3_apply m c t cc)
    (fun cc => blk4_apply m c t cc) (fun o' q => blk5_apply m c t q o') (fun o' => blk6_apply m c t o')
    (fun q => blk0_apply m c t r o q) (col7_apply t r o)

/-- An index of the output array is in point `t`'s block iff each coordinate is in the block's range on its axis. -/
theorem mem_blk7 (t : Fin cfg0.N) (i : S32768x256.Idx) :
    i ∈ ((cfg0.win 7).blk t).view.set ↔ ∀ a : Fin 2, win0_7.index t a * S512x256.size a ≤ (i a).val ∧ (i a).val < win0_7.index t a * S512x256.size a + S512x256.size a := by
  show i ∈ ((View.whole main_v61).slice (win0_7.rect t)).set ↔ _
  rw [View.set_slice_whole, Rect.mem_set_unit]
  exact Iff.rfl

/-- The 64 row blocks cover the output array: row `b` is in block `b / 512`. -/
theorem cover7 (i : S32768x256.Idx) :
    ∃ t : Fin cfg0.N, (cfg0.win 7).flush t = true ∧ i ∈ ((cfg0.win 7).blk t).view.set := by
  have hi0 : (i 0).val < 32768 := (i 0).isLt
  have hi1 : (i 1).val < 256 := (i 1).isLt
  obtain ⟨t, ht⟩ := idx_onto ⟨(i 0).val / 512, by omega⟩
  have q0 : win0_7.index t (0 : Fin 2) = (i 0).val / 512 := congrFun ht 0
  have q1 : win0_7.index t (1 : Fin 2) = 0 := congrFun ht 1
  refine ⟨t, flush0_7 t, ?_⟩
  rw [mem_blk7]
  intro a
  match a with
  | ⟨0, _⟩ => show win0_7.index t (0 : Fin 2) * 512 ≤ (i 0).val ∧ (i 0).val < win0_7.index t (0 : Fin 2) * 512 + 512; omega
  | ⟨1, _⟩ => show win0_7.index t (1 : Fin 2) * 256 ≤ (i 1).val ∧ (i 1).val < win0_7.index t (1 : Fin 2) * 256 + 256; omega

/-- The output array after the run is `Gk`. -/
theorem final7 (hpay : PayFact) (c : Dev nD) : (dats m 0 c).arrAt 7 cfg0.N = Gk m c :=
  (dats m 0 c).arrAt_eq_of_cover 7 (Gk m c) (fun t _ => flushed7_eq m hpay c t) cover7

end Cert.KernelIdeal.KerValue

end
-- ==== Proof.LibDotRead.lean ====
/-
  A matrix product accumulated into zero, read at one entry, at the ideal values.

  For the two dimension-number forms a two-operand product takes on rank-2 operands — rows × contraction times
  contraction × columns (`DotDims.plain`), and the same with the right operand stored transposed, columns × contraction
  (`DotDims.transposedRhs`) — entry `(r, c)` of the product is the plain sum, over the one contracted axis, of the
  left operand at `(r, k)` times the right operand at `(k, c)` (at `(c, k)` when stored transposed). The contraction
  index type of the dimension numbers is re-indexed to `Fin K` (`ValueIdx.contrEquiv1`), and the operands' indices at an
  output index and a contraction position are computed axis by axis: a free axis reads the output index, the
  contracted axis the contraction position. Extents are variables: nothing here depends on their values.
  No law of real arithmetic beyond `0 + x = x` is used, so the statements hold at the infinities too.
-/
import Idealize.ShloMosaic.Lib.ValueIdx
import Idealize.ShloMosaic.PureOps.Ideal.Laws

noncomputable section

namespace Idealize.ShloMosaic.DotRead

open Idealize.ShloMosaic Idealize.ShloMosaic.ValueIdx

/-! ## Rows × contraction times contraction × columns -/

/-- The left operand's row is the output's row. -/
theorem plain_lhs_row (M K N : Nat) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction position. -/
theorem plain_lhs_col (M K N : Nat) (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction position. -/
theorem plain_rhs_row (M K N : Nat) (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the output's column. -/
theorem plain_rhs_col (M K N : Nat) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry `(r, c)` of `A · B` accumulated into zero is `∑ k, A (r, k) * B (k, c)`. -/
theorem matmul_plain_zero_apply {φ₁ φ₂ : FTy} (M K N : Nat) (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant (F := Ideal) ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact plain_lhs_row M K N _ _
      | ⟨1, _⟩ => exact (plain_lhs_col M K N _ _).trans hk)
  have er : (DotDims.plain M K N).rhsIdx (ix2 r c) ((contrEquiv1 (DotDims.plain M K N) K rfl rfl).symm k) = ix2 k c :=
    funext fun a => Fin.ext (by
      match a with
      | ⟨0, _⟩ => exact (plain_rhs_row M K N _ _).trans hk
      | ⟨1, _⟩ => exact plain_rhs_col M K N _ _)
  rw [el, er]

/-! ## The right operand stored transposed: rows × contraction times columns × contraction -/

/-- The left operand's row is the output's row. -/
theorem transposedRhs_lhs_row (M K N : Nat) (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column is the contraction position. -/
theorem transposedRhs_lhs_col (M K N : Nat) (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- The right operand's row is the output's column. -/
theorem transposedRhs_rhs_row (M K N : Nat) (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column is the contraction position. -/
theorem transposedRhs_rhs_col (M K N : Nat) (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- Entry `(r, c)` of `A · Bᵀ` accumulated into zero is `∑ k, A (r, k) * B (c, k)`. -/
theorem matmul_transposedRhs_zero_apply {φ₁ φ₂ : FTy} (M K N : Nat) (prec : Option ContractPrecision)
    (lhs : FVec Ideal ⟨2, ![M, K]⟩ φ₁) (rhs : FVec Ideal ⟨2, ![N, K]⟩ φ₂) (r : Fin M) (c : Fin N) :
    FloatOps.matmul (DotDims.transposedRhs M K N) prec lhs rhs (constant (F := Ideal) ⟨2, ![M, N]⟩ .f32 0x00000000#32) (ix2 r c)
      = ∑ k : Fin K, lhs (ix2 r k) * rhs (ix2 c k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 r c) ((contrEquiv1 (DotDims.transposedRhs M K N) K rfl rfl).symm k) = ix2 r k :=
    funext fun a => Fin.ext (by
      match a with
      | ⟨0, _⟩ => exact transposedRhs_lhs_row M K N _ _
      | ⟨1, _⟩ => exact (transposedRhs_lhs_col M K N _ _).trans hk)
  have er : (DotDims.transposedRhs M K N).rhsIdx (ix2 r c) ((contrEquiv1 (DotDims.transposedRhs M K N) K rfl rfl).symm k) = ix2 c k :=
    funext fun a => Fin.ext (by
      match a with
      | ⟨0, _⟩ => exact transposedRhs_rhs_row M K N _ _
      | ⟨1, _⟩ => exact (transposedRhs_rhs_col M K N _ _).trans hk)
  rw [el, er]

end Idealize.ShloMosaic.DotRead

end
-- ==== Proof.KerPayload.lean ====
import proofs.«167956_j6846177870358_2_alg».proof.Proof.Gen.KernelIdeal.Skeleton
import proofs.«167956_j6846177870358_2_alg».proof.Proof.Spec
import proofs.«167956_j6846177870358_2_alg».proof.Proof.LibDotRead
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KerValue

open Cert.KernelIdeal Cert.KernelIdeal.Gen Idealize.ShloMosaic Idealize.ShloMosaic.ValueIdx

/-! ## The two transcendental operations at an index -/

section Pointwise
variable {s : Shape} {φ : FTy}

theorem logistic_apply (a : FVec Ideal s φ) (i : s.Idx) : Idealize.ShloMosaic.logistic a i = Ideal.logistic (a i) := rfl

theorem tanh_apply (a : FVec Ideal s φ) (i : s.Idx) : Idealize.ShloMosaic.tanh a i = Ideal.tanh (a i) := rfl

end Pointwise

/-! ## The three gate slices of a block of 1920 pre-activations, read at a row and a feature -/

theorem sliceR_apply {α : Type} (v : S512x1920.Idx → α) (h : S512x1920.Slices ![0, 0] S512x640) (r : Fin 512) (k : Fin 640) :
    extractStridedSlice S512x640 ![0, 0] v h (ix2 r k) = v (ix2 r (Cert.Gnn.gateR k)) :=
  extractStridedSlice_apply ![0, 0] v h (ix2 r k) (ix2 r (Cert.Gnn.gateR k)) (fun a => by
    match a with
    | ⟨0, _⟩ => show r.val = 0 + r.val; omega
    | ⟨1, _⟩ => show k.val = 0 + k.val; omega)

theorem sliceZ_apply {α : Type} (v : S512x1920.Idx → α) (h : S512x1920.Slices ![0, 640] S512x640) (r : Fin 512) (k : Fin 640) :
    extractStridedSlice S512x640 ![0, 640] v h (ix2 r k) = v (ix2 r (Cert.Gnn.gateZ k)) :=
  extractStridedSlice_apply ![0, 640] v h (ix2 r k) (ix2 r (Cert.Gnn.gateZ k)) (fun a => by
    match a with
    | ⟨0, _⟩ => show r.val = 0 + r.val; omega
    | ⟨1, _⟩ => show 640 + k.val = 640 + k.val; rfl)

theorem sliceN_apply {α : Type} (v : S512x1920.Idx → α) (h : S512x1920.Slices ![0, 1280] S512x640) (r : Fin 512) (k : Fin 640) :
    extractStridedSlice S512x640 ![0, 1280] v h (ix2 r k) = v (ix2 r (Cert.Gnn.gateN k)) :=
  extractStridedSlice_apply ![0, 1280] v h (ix2 r k) (ix2 r (Cert.Gnn.gateN k)) (fun a => by
    match a with
    | ⟨0, _⟩ => show r.val = 0 + r.val; omega
    | ⟨1, _⟩ => show 1280 + k.val = 1280 + k.val; rfl)

/-! ## A bias row broadcast over the 512 rows -/

theorem bias1920_apply {α : Type} (b : S1x1920.Idx → α) (h : S1x1920.Broadcasts S512x1920) (r : Fin 512) (c : Fin 1920) :
    broadcastTo S512x1920 b h (ix2 r c) = b (ix2 0 c) :=
  broadcastTo_apply b h (ix2 r c) (ix2 0 c) (fun a => by
    match a with
    | ⟨0, _⟩ => rfl
    | ⟨1, _⟩ => rfl)

theorem bias256_apply {α : Type} (b : S1x256.Idx → α) (h : S1x256.Broadcasts S512x256) (r : Fin 512) (o : Fin 256) :
    broadcastTo S512x256 b h (ix2 r o) = b (ix2 0 o) :=
  broadcastTo_apply b h (ix2 r o) (ix2 0 o) (fun a => by
    match a with
    | ⟨0, _⟩ => rfl
    | ⟨1, _⟩ => rfl)

/-! ## The two matrix products accumulated into zero, read at an entry -/

theorem matmul1920_apply {φ₁ φ₂ : FTy} (lhs : FVec Ideal S512x640 φ₁) (rhs : FVec Ideal S640x1920 φ₂) (r : Fin 512) (c : Fin 1920) :
    matmul dot_S512x640_S640x1920_S512x1920_1_0_0_1_n_n none lhs rhs (constant (F := Ideal) S512x1920 .f32 0x00000000#32) (ix2 r c)
      = ∑ q : Fin 640, lhs (ix2 r q) * rhs (ix2 q c) :=
  DotRead.matmul_plain_zero_apply 512 640 1920 none lhs rhs r c

theorem matmul256_apply {φ₁ φ₂ : FTy} (lhs : FVec Ideal S512x640 φ₁) (rhs : FVec Ideal S640x256 φ₂) (r : Fin 512) (o : Fin 256) :
    matmul dot_S512x640_S640x256_S512x256_1_0_0_1_n_n none lhs rhs (constant (F := Ideal) S512x256 .f32 0x00000000#32) (ix2 r o)
      = ∑ q : Fin 640, lhs (ix2 r q) * rhs (ix2 q o) :=
  DotRead.matmul_plain_zero_apply 512 640 256 none lhs rhs r o

/-! ## The row block after one round -/

/-- Entry `(r, k)` of the block after the first round is feature `k` of one round applied to row `r` of the loaded block:
    both pre-activation blocks are the row times a weight matrix plus a bias, cut into the three gates' columns, and
    the cell's arithmetic is pointwise. -/
theorem pay6_apply (x0 : Vec Ideal S512x640 .f32) (x1 x2 : Vec Ideal S640x1920 .bf16) (x3 x4 : Vec Ideal S1x1920 .f32)
    (r : Fin 512) (k : Fin 640) :
    k0_pay6 (F := Ideal) x0 x1 x2 x3 x4 (ix2 r k)
      = Cert.Gnn.stepGen (fun c q => x1 (ix2 q c)) (fun c q => x2 (ix2 q c)) (fun c => x3 (ix2 0 c)) (fun c => x4 (ix2 0 c))
          (fun q => x0 (ix2 r q)) k := by
  unfold k0_pay6 k0_pay2 k0_pay3 k0_pay4 k0_pay5
  simp only [addf_apply, mulf_apply, subf_apply, logistic_apply, tanh_apply, truncf_apply, broadcast_apply,
    sliceR_apply, sliceZ_apply, sliceN_apply, bias1920_apply, matmul1920_apply, shapeCast_self, Ideal.ofBits_def]
  rfl

/-! ## The two pre-activation blocks of the second round -/

/-- Entry `(r, c)` of the input-side pre-activations of the second round: the first round's row times column `c` of
    the input-side weights, plus the bias. -/
theorem pay8_apply (x0 : Vec Ideal S512x640 .f32) (x1 x2 : Vec Ideal S640x1920 .bf16) (x3 x4 : Vec Ideal S1x1920 .f32)
    (r : Fin 512) (c : Fin 1920) :
    k0_pay8 (F := Ideal) x0 x1 x2 x3 x4 (ix2 r c)
      = Cert.Gnn.gh (fun c q => x1 (ix2 q c)) (fun c => x3 (ix2 0 c))
          (Cert.Gnn.stepGen (fun c q => x1 (ix2 q c)) (fun c q => x2 (ix2 q c)) (fun c => x3 (ix2 0 c)) (fun c => x4 (ix2 0 c))
            (fun q => x0 (ix2 r q))) c := by
  unfold k0_pay8 k0_pay7 k0_pay2 k0_pay4
  simp only [addf_apply, truncf_apply, bias1920_apply, matmul1920_apply, shapeCast_self, pay6_apply]
  rfl

/-- Entry `(r, c)` of the hidden-side pre-activations of the second round: the first round's row times column `c` of
    the hidden-side weights, plus the bias. -/
theorem pay9_apply (x0 : Vec Ideal S512x640 .f32) (x1 x2 : Vec Ideal S640x1920 .bf16) (x3 x4 : Vec Ideal S1x1920 .f32)
    (r : Fin 512) (c : Fin 1920) :
    k0_pay9 (F := Ideal) x0 x1 x2 x3 x4 (ix2 r c)
      = Cert.Gnn.gh (fun c q => x2 (ix2 q c)) (fun c => x4 (ix2 0 c))
          (Cert.Gnn.stepGen (fun c q => x1 (ix2 q c)) (fun c q => x2 (ix2 q c)) (fun c => x3 (ix2 0 c)) (fun c => x4 (ix2 0 c))
            (fun q => x0 (ix2 r q))) c := by
  unfold k0_pay9 k0_pay7 k0_pay3 k0_pay5
  simp only [addf_apply, truncf_apply, bias1920_apply, matmul1920_apply, shapeCast_self, pay6_apply]
  rfl

/-! ## The stored block -/

/-- Entry `(r, o)` of the stored block over ANY row block and pre-activation blocks: the cell over row `r` of the three,
    then the linear layer. -/
theorem pay1_apply (v34 : FVec Ideal S512x640 .f32) (v38 v41 : FVec Ideal S512x1920 .f32)
    (x5 : Vec Ideal S640x256 .bf16) (x6 : Vec Ideal S1x256 .f32) (r : Fin 512) (o : Fin 256) :
    k0_pay1 (F := Ideal) v34 v38 v41 x5 x6 (ix2 r o)
      = Cert.Gnn.fc (fun o q => x5 (ix2 q o)) (fun o => x6 (ix2 0 o))
          (Cert.Gnn.cell (fun c => v38 (ix2 r c)) (fun c => v41 (ix2 r c)) (fun q => v34 (ix2 r q))) o := by
  unfold k0_pay1
  simp only [addf_apply, mulf_apply, subf_apply, logistic_apply, tanh_apply, truncf_apply, broadcast_apply,
    sliceR_apply, sliceZ_apply, sliceN_apply, bias256_apply, matmul256_apply, shapeCast_self, Ideal.ofBits_def]
  rfl

/-- Entry `(r, o)` of the block the kernel's body stores: output `o` of two rounds and the linear layer applied to row `r`
    of the loaded block. -/
theorem pay_apply [Cert.KernelIdeal.Facts]
    (x0 : Vec Ideal S512x640 .f32) (x1 x2 : Vec Ideal S640x1920 .bf16) (x3 x4 : Vec Ideal S1x1920 .f32)
    (x5 : Vec Ideal S640x256 .bf16) (x6 : Vec Ideal S1x256 .f32) (r : Fin 512) (o : Fin 256) :
    k0_pay1 (F := Ideal) (k0_pay6 x0 x1 x2 x3 x4) (k0_pay8 x0 x1 x2 x3 x4) (k0_pay9 x0 x1 x2 x3 x4) x5 x6 (ix2 r o)
      = Cert.Gnn.outGen (fun c q => x1 (ix2 q c)) (fun c q => x2 (ix2 q c)) (fun c => x3 (ix2 0 c)) (fun c => x4 (ix2 0 c))
          (fun o q => x5 (ix2 q o)) (fun o => x6 (ix2 0 o)) (fun q => x0 (ix2 r q)) o := by
  refine (pay1_apply _ _ _ x5 x6 r o).trans ?_
  have e6 : (fun q => k0_pay6 (F := Ideal) x0 x1 x2 x3 x4 (ix2 r q)) = _ := funext (pay6_apply x0 x1 x2 x3 x4 r)
  have e8 : (fun c => k0_pay8 (F := Ideal) x0 x1 x2 x3 x4 (ix2 r c)) = _ := funext (pay8_apply x0 x1 x2 x3 x4 r)
  have e9 : (fun c => k0_pay9 (F := Ideal) x0 x1 x2 x3 x4 (ix2 r c)) = _ := funext (pay9_apply x0 x1 x2 x3 x4 r)
  rw [e6, e8, e9]
  rfl

end Cert.KernelIdeal.KerValue

end
-- ==== Proof.KerRun.lean ====
/-
  The idealized kernel program's run, read: every weakly fair execution of its @main terminates with the output
  array at `Gk` — entry `(b, o)` output `o` of row `b` after two rounds over the operand arrays the region
  finds — and the twelve argument arrays as launched.
-/
import proofs.«167956_j6846177870358_2_alg».proof.Proof.KerArray
import proofs.«167956_j6846177870358_2_alg».proof.Proof.KerPayload

noncomputable section

namespace Cert.KernelIdeal.KerValue

open Cert.KernelIdeal Cert.KernelIdeal.Gen Cert.KernelIdeal.Frame
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- The body's stored value at an index is two rounds and the final layer of the block's row. -/
theorem payFact : PayFact := fun x0 x1 x2 x3 x4 x5 x6 r o => pay_apply x0 x1 x2 x3 x4 x5 x6 r o

theorem run : θ_run defs (onTc (τ := τ) (main (F := Ideal))) ⟨m, fun _ => 0, ρ⟩ fun r => ∀ c : Dev nD,
      r.2.mem ((c.tc : Thread nD τ).loc main_v61) = Gk m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c => ⟨((h c).1 7).trans (final7 m payFact c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c)⟩)
    (run_main m ρ)

end Cert.KernelIdeal.KerValue

end
-- ==== Proof.KerHost.lean ====
/-
  What the kernel's seven operand arrays hold when its one region is entered, read at an index, at the ideal
  instance.  The region is preceded by host operations only: five table lookups (each index column of the batch,
  wrapped when negative, gathers rows of its table) laid side by side into one row of 640 = 5 · 128 features;
  the folding of the message passing into the input-side weights (the transposed weights cut into five nodes
  of 128 lanes, summed over the nodes, and the weights themselves subtracted); two more transposes; three
  one-row reshapes of the biases; format changes, which at the ideal instance are the identity.

  Each array is first written as the term of its operations over the launch contents (`V_v…_eq`, one fold of the
  host operations per array), and then read at an index with one small lemma per layout operation, stated over
  variables of the literal shapes.
-/
import proofs.«167956_j6846177870358_2_alg».proof.Proof.HostV
import proofs.«167956_j6846177870358_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KerValue

open Cert.KernelIdeal Cert.KernelIdeal.Gen Cert.KernelIdeal.Frame
open Idealize.ShloMosaic Idealize.ShloMosaic.ValueIdx Idealize.ShloMosaic.TcCoe

/-! ## The layout operations of the folded weights, read at an index -/

/-- A `[640, 1920]` array cast to `[5, 128, 1920]` reads, at `(i, n, cc)`, the operand at `(i * 128 + n, cc)`. -/
theorem cast_640_5x128_apply (x : S640x1920.Idx → EReal) (h : S640x1920.ShapeCasts S5x128x1920)
    (i : Fin 5) (n : Fin 128) (cc : Fin 1920) :
    shapeCast S5x128x1920 x h (ix3 i n cc) = x (ix2 (⟨i.val * 128 + n.val, by omega⟩ : Fin 640) cc) :=
  shapeCast_apply x h _ _ (by
    rw [Shape.rowMajor_val_two, Shape.rowMajor_val_three]
    show (i.val * 128 + n.val) * 1920 + cc.val = (i.val * 128 + n.val) * 1920 + cc.val
    rfl)

/-- A `[5, 128, 1920]` array cast to `[640, 1920]` reads, at `(q, cc)`, the operand at `(q / 128, q % 128, cc)`. -/
theorem cast_5x128_640_apply (y : S5x128x1920.Idx → EReal) (h : S5x128x1920.ShapeCasts S640x1920)
    (q : Fin 640) (cc : Fin 1920) :
    shapeCast S640x1920 y h (ix2 q cc)
      = y (ix3 (⟨q.val / 128, by omega⟩ : Fin 5) (⟨q.val % 128, by omega⟩ : Fin 128) cc) :=
  shapeCast_apply y h _ _ (by
    rw [Shape.rowMajor_val_two, Shape.rowMajor_val_three]
    show (q.val / 128 * 128 + q.val % 128) * 1920 + cc.val = q.val * 1920 + cc.val
    omega)

/-- A `[128, 1920]` array given a leading unit axis reads, at `(u, n, cc)`, the operand at `(n, cc)`. -/
theorem bcast_128_1x128_apply (x : S128x1920.Idx → EReal)
    (h : S128x1920.BroadcastsInDim S1x128x1920 (![1, 2] : Fin 2 → Fin S1x128x1920.rank))
    (u : Fin 1) (n : Fin 128) (cc : Fin 1920) :
    broadcastInDim S1x128x1920 ![1, 2] h x (ix3 u n cc) = x (ix2 n cc) :=
  broadcastInDim_apply _ h x _ _ fun a => match a with
    | ⟨0, _⟩ => rfl
    | ⟨1, _⟩ => rfl

/-- A `[1, 128, 1920]` array repeated over five nodes reads, at `(i, n, cc)`, the operand at `(0, n, cc)`. -/
theorem bcast_1x128_5x128_apply (x : S1x128x1920.Idx → EReal)
    (h : S1x128x1920.BroadcastsInDim S5x128x1920 (![0, 1, 2] : Fin 3 → Fin S5x128x1920.rank))
    (i : Fin 5) (n : Fin 128) (cc : Fin 1920) :
    broadcastInDim S5x128x1920 ![0, 1, 2] h x (ix3 i n cc) = x (ix3 (0 : Fin 1) n cc) :=
  broadcastInDim_apply _ h x _ _ fun a => match a with
    | ⟨0, _⟩ => rfl
    | ⟨1, _⟩ => rfl
    | ⟨2, _⟩ => rfl

/-- The sum over the node axis of a `[5, 128, 1920]` array, from the initial value `z`, reads, at `(n, cc)`,
    `z` plus the sum over the five nodes of the operand at `(j, n, cc)`. -/
theorem reduce_nodes_apply (x : S5x128x1920.Idx → EReal) (z : S_.Idx → EReal)
    (h' : S5x128x1920.ReducesTo [0] S128x1920) (hu : 0 < S_.numel) (n : Fin 128) (cc : Fin 1920) :
    Host.reduceAdd (F := Ideal) (φ := .f32) x z h' hu (ix2 n cc)
      = z (Shape.Idx.first hu) + ∑ j : Fin 5, x (ix3 j n cc) := by
  have h : S5x128x1920.Reduces [0] S128x1920 := by decide
  show Ideal.hostReduceAdd h' x (z (Shape.Idx.first hu)) (ix2 n cc) = _
  rw [Ideal.hostReduceAdd_single h' h]
  show z (Shape.Idx.first hu) + ∑ j : Fin 5, x (h.lift (ix2 n cc) j) = _
  refine congrArg (z (Shape.Idx.first hu) + ·) (Finset.sum_congr rfl fun j _ => congrArg x (funext fun a => Fin.ext ?_))
  match a with
  | ⟨0, _⟩ => rfl
  | ⟨1, _⟩ => rfl
  | ⟨2, _⟩ => rfl

/-! ## The folded weights at an index -/

/-- The folded input-side weights — the node sum of the transposed weights, less the transposed weights
    themselves, stored `[feature, gate column]` — read at `(q, cc)`: `weff` of the weights at `(cc, q)`. -/
theorem weffTerm_apply (W : S1920x640.Idx → EReal)
    (hT : S1920x640.Transposes [1, 0] S640x1920) (hC : S640x1920.ShapeCasts S5x128x1920)
    (hR : S5x128x1920.ReducesTo [0] S128x1920) (hu : 0 < S_.numel)
    (hB1 : S128x1920.BroadcastsInDim S1x128x1920 (![1, 2] : Fin 2 → Fin S1x128x1920.rank))
    (hB2 : S1x128x1920.BroadcastsInDim S5x128x1920 (![0, 1, 2] : Fin 3 → Fin S5x128x1920.rank))
    (hC' : S5x128x1920.ShapeCasts S640x1920) (hb : FTy.bits .bf16 < FTy.bits .f32)
    (q : Fin 640) (cc : Fin 1920) :
    (truncf (F := Ideal) .bf16
      (shapeCast S640x1920
        (subf (F := Ideal) (φ := .f32)
          (broadcastInDim S5x128x1920 ![0, 1, 2] hB2
            (broadcastInDim S1x128x1920 ![1, 2] hB1
              (Host.reduceAdd (F := Ideal)
                (shapeCast S5x128x1920 (transpose S640x1920 [1, 0] W hT) hC)
                (constant (F := Ideal) S_ .f32 0x00000000#32) hR hu)))
          (shapeCast S5x128x1920 (transpose S640x1920 [1, 0] W hT) hC))
        hC') hb : S640x1920.Idx → EReal) (ix2 q cc)
      = Cert.Gnn.weff (fun cc q => W (ix2 cc q)) cc q := by
  have hW3 : ∀ (i : Fin 5) (n : Fin 128),
      shapeCast S5x128x1920 (transpose S640x1920 [1, 0] W hT) hC (ix3 i n cc)
        = W (ix2 cc (⟨i.val * 128 + n.val, by omega⟩ : Fin 640)) := fun i n => by
    rw [cast_640_5x128_apply, transpose_ix2_apply]
  rw [truncf_apply, cast_5x128_640_apply, subf_apply, bcast_1x128_5x128_apply, bcast_128_1x128_apply,
    reduce_nodes_apply, hW3, constant_apply, Cert.Gnn.ofBits_zero]
  simp only [hW3]
  unfold Cert.Gnn.weff
  have hq : (⟨q.val / 128 * 128 + q.val % 128, by omega⟩ : Fin 640) = q := Fin.ext (by show q.val / 128 * 128 + q.val % 128 = q.val; omega)
  rw [hq]
  rfl

/-! ## The concatenation of the five gathered tables at an index -/

/-- Five `[32768, 128]` arrays laid side by side read, at `(b, q)`, the `q / 128`-th array at `(b, q % 128)`. -/
theorem concat5_apply (u : Fin 5 → (S32768x128.Idx → EReal))
    (h : Shape.Concatenates [S32768x128, S32768x128, S32768x128, S32768x128, S32768x128] S32768x640 1)
    (b : Fin 32768) (q : Fin 640) :
    concatenate S32768x640 1 [⟨S32768x128, u 0⟩, ⟨S32768x128, u 1⟩, ⟨S32768x128, u 2⟩, ⟨S32768x128, u 3⟩,
        ⟨S32768x128, u 4⟩] h (ix2 b q)
      = Cert.Gnn.embRow (fun j n => u j (ix2 b n)) q := by
  unfold Cert.Gnn.embRow
  exact concatenate_ofFn_apply (t := S32768x640) (s₁ := S32768x128) (N := 5) (1 : Fin 2) u h rfl 128 rfl (ix2 b q) ⟨q.val / 128, by omega⟩ rfl
    (ix2 b ⟨q.val % 128, Nat.mod_lt _ (by norm_num)⟩) rfl
    (fun a ha => match a, ha with
      | ⟨0, _⟩, _ => rfl
      | ⟨1, _⟩, ha => absurd rfl ha)

/-! ## The arrays as terms of the launch contents -/

variable (m : (ℓ : Loc nD τ sig) → Buf (Elt Ideal) ℓ) (c : Dev nD)

set_option quotPrecheck false in
local notation "A0" => (m ((c : Thread nD τ).loc main_arg0) : S32768x5.Idx → BitVec 32)
set_option quotPrecheck false in
local notation "A1" => (m ((c : Thread nD τ).loc main_arg1) : S500000x128.Idx → EReal)
set_option quotPrecheck false in
local notation "A2" => (m ((c : Thread nD τ).loc main_arg2) : S100x128.Idx → EReal)
set_option quotPrecheck false in
local notation "A3" => (m ((c : Thread nD τ).loc main_arg3) : S4x128.Idx → EReal)
set_option quotPrecheck false in
local notation "A4" => (m ((c : Thread nD τ).loc main_arg4) : S64x128.Idx → EReal)
set_option quotPrecheck false in
local notation "A5" => (m ((c : Thread nD τ).loc main_arg5) : S100000x128.Idx → EReal)
set_option quotPrecheck false in
local notation "A6" => (m ((c : Thread nD τ).loc main_arg6) : S1920x640.Idx → EReal)
set_option quotPrecheck false in
local notation "A7" => (m ((c : Thread nD τ).loc main_arg7) : S1920x640.Idx → EReal)
set_option quotPrecheck false in
local notation "A8" => (m ((c : Thread nD τ).loc main_arg8) : S1920.Idx → EReal)
set_option quotPrecheck false in
local notation "A9" => (m ((c : Thread nD τ).loc main_arg9) : S1920.Idx → EReal)
set_option quotPrecheck false in
local notation "A10" => (m ((c : Thread nD τ).loc main_arg10) : S256x640.Idx → EReal)
set_option quotPrecheck false in
local notation "A11" => (m ((c : Thread nD τ).loc main_arg11) : S256.Idx → EReal)

/-- The hidden-side weights' operand is the transposed weights. -/
theorem V_v59_eq : @Eq (S640x1920.Idx → EReal) (V m c main_v59)
    (truncf (F := Ideal) .bf16 (transpose S640x1920 [1, 0] A7 transposes_S1920x640_S640x1920_1_0) bitsLt_bf16_f32) := by
  dsimp only [V, hostOps0]
  after_results_simp <;> rfl

/-- The final layer's weights' operand is the transposed weights. -/
theorem V_v60_eq : @Eq (S640x256.Idx → EReal) (V m c main_v60)
    (truncf (F := Ideal) .bf16 (transpose S640x256 [1, 0] A10 transposes_S256x640_S640x256_1_0) bitsLt_bf16_f32) := by
  dsimp only [V, hostOps0]
  after_results_simp <;> rfl

/-- The three biases' operands are the biases as one row. -/
theorem V_v55_eq : @Eq (S1x1920.Idx → EReal) (V m c main_v55) (shapeCast S1x1920 A8 shapeCasts_S1920_S1x1920) := by
  dsimp only [V, hostOps0]
  after_results_simp <;> rfl

theorem V_v56_eq : @Eq (S1x1920.Idx → EReal) (V m c main_v56) (shapeCast S1x1920 A9 shapeCasts_S1920_S1x1920) := by
  dsimp only [V, hostOps0]
  after_results_simp <;> rfl

theorem V_v57_eq : @Eq (S1x256.Idx → EReal) (V m c main_v57) (shapeCast S1x256 A11 shapeCasts_S256_S1x256) := by
  dsimp only [V, hostOps0]
  after_results_simp <;> rfl

/-- The input-side weights' operand: the node sum of the transposed weights, less the transposed weights. -/
theorem V_v58_eq : @Eq (S640x1920.Idx → EReal) (V m c main_v58)
    (truncf (F := Ideal) .bf16
      (shapeCast S640x1920
        (subf (F := Ideal) (φ := .f32)
          (broadcastInDim S5x128x1920 ![0, 1, 2] bcast_S1x128x1920_S5x128x1920_0_1_2
            (broadcastInDim S1x128x1920 ![1, 2] bcast_S128x1920_S1x128x1920_1_2
              (Host.reduceAdd (F := Ideal)
                (shapeCast S5x128x1920 (transpose S640x1920 [1, 0] A6 transposes_S1920x640_S640x1920_1_0) shapeCasts_S640x1920_S5x128x1920)
                (constant (F := Ideal) S_ .f32 0x00000000#32) reducesTo_S5x128x1920_S128x1920_d0 h_S_)))
          (shapeCast S5x128x1920 (transpose S640x1920 [1, 0] A6 transposes_S1920x640_S640x1920_1_0) shapeCasts_S640x1920_S5x128x1920))
        shapeCasts_S5x128x1920_S640x1920) bitsLt_bf16_f32) := by
  dsimp only [V, hostOps0]
  after_results_simp <;> rfl

/-- The five gathered tables: table `j`'s rows at the batch's `j`-th index column. -/
def gath (j : Fin 5) : S32768x128.Idx → EReal :=
  match j with
  | 0 => V m c main_v8
  | 1 => V m c main_v17
  | 2 => V m c main_v26
  | 3 => V m c main_v35
  | 4 => V m c main_v44

/-- Table 0's lookup: its rows at the batch's index column 0, an index below zero wrapped by the table's height. -/
theorem gath_eq0 : gath m c 0 =
    Host.gather gather_S500000x128_S32768x1_S32768x128_1_0_n_n_0_1_1128 A1
      (broadcastInDim S32768x1 ![0] bcast_S32768_S32768x1_0
        (select (cmpi .slt (shapeCast S32768 (extractStridedSlice S32768x1 ![0, 0] A0 slices_S32768x5_S32768x1_0_0) shapeCasts_S32768x1_S32768) (broadcastInDim S32768 ![] bcast_S_S32768 (constantI S_ 32 0#32)))
          (addi (shapeCast S32768 (extractStridedSlice S32768x1 ![0, 0] A0 slices_S32768x5_S32768x1_0_0) shapeCasts_S32768x1_S32768) (broadcastInDim S32768 ![] bcast_S_S32768 (constantI S_ 32 500000#32)))
          (shapeCast S32768 (extractStridedSlice S32768x1 ![0, 0] A0 slices_S32768x5_S32768x1_0_0) shapeCasts_S32768x1_S32768))) := by
  show (V m c main_v8 : S32768x128.Idx → EReal) = _
  dsimp only [V, hostOps0]
  after_results_simp <;> rfl

/-- Table 1's lookup: its rows at the batch's index column 1, an index below zero wrapped by the table's height. -/
theorem gath_eq1 : gath m c 1 =
    Host.gather gather_S100x128_S32768x1_S32768x128_1_0_n_n_0_1_1128 A2
      (broadcastInDim S32768x1 ![0] bcast_S32768_S32768x1_0
        (select (cmpi .slt (shapeCast S32768 (extractStridedSlice S32768x1 ![0, 1] A0 slices_S32768x5_S32768x1_0_1) shapeCasts_S32768x1_S32768) (broadcastInDim S32768 ![] bcast_S_S32768 (constantI S_ 32 0#32)))
          (addi (shapeCast S32768 (extractStridedSlice S32768x1 ![0, 1] A0 slices_S32768x5_S32768x1_0_1) shapeCasts_S32768x1_S32768) (broadcastInDim S32768 ![] bcast_S_S32768 (constantI S_ 32 100#32)))
          (shapeCast S32768 (extractStridedSlice S32768x1 ![0, 1] A0 slices_S32768x5_S32768x1_0_1) shapeCasts_S32768x1_S32768))) := by
  show (V m c main_v17 : S32768x128.Idx → EReal) = _
  dsimp only [V, hostOps0]
  after_results_simp <;> rfl

/-- Table 2's lookup: its rows at the batch's index column 2, an index below zero wrapped by the table's height. -/
theorem gath_eq2 : gath m c 2 =
    Host.gather gather_S4x128_S32768x1_S32768x128_1_0_n_n_0_1_1128 A3
      (broadcastInDim S32768x1 ![0] bcast_S32768_S32768x1_0
        (select (cmpi .slt (shapeCast S32768 (extractStridedSlice S32768x1 ![0, 2] A0 slices_S32768x5_S32768x1_0_2) shapeCasts_S32768x1_S32768) (broadcastInDim S32768 ![] bcast_S_S32768 (constantI S_ 32 0#32)))
          (addi (shapeCast S32768 (extractStridedSlice S32768x1 ![0, 2] A0 slices_S32768x5_S32768x1_0_2) shapeCasts_S32768x1_S32768) (broadcastInDim S32768 ![] bcast_S_S32768 (constantI S_ 32 4#32)))
          (shapeCast S32768 (extractStridedSlice S32768x1 ![0, 2] A0 slices_S32768x5_S32768x1_0_2) shapeCasts_S32768x1_S32768))) := by
  show (V m c main_v26 : S32768x128.Idx → EReal) = _
  dsimp only [V, hostOps0]
  after_results_simp <;> rfl

/-- Table 3's lookup: its rows at the batch's index column 3, an index below zero wrapped by the table's height. -/
theorem gath_eq3 : gath m c 3 =
    Host.gather gather_S64x128_S32768x1_S32768x128_1_0_n_n_0_1_1128 A4
      (broadcastInDim S32768x1 ![0] bcast_S32768_S32768x1_0
        (select (cmpi .slt (shapeCast S32768 (extractStridedSlice S32768x1 ![0, 3] A0 slices_S32768x5_S32768x1_0_3) shapeCasts_S32768x1_S32768) (broadcastInDim S32768 ![] bcast_S_S32768 (constantI S_ 32 0#32)))
          (addi (shapeCast S32768 (extractStridedSlice S32768x1 ![0, 3] A0 slices_S32768x5_S32768x1_0_3) shapeCasts_S32768x1_S32768) (broadcastInDim S32768 ![] bcast_S_S32768 (constantI S_ 32 64#32)))
          (shapeCast S32768 (extractStridedSlice S32768x1 ![0, 3] A0 slices_S32768x5_S32768x1_0_3) shapeCasts_S32768x1_S32768))) := by
  show (V m c main_v35 : S32768x128.Idx → EReal) = _
  dsimp only [V, hostOps0]
  after_results_simp <;> rfl

/-- Table 4's lookup: its rows at the batch's index column 4, an index below zero wrapped by the table's height. -/
theorem gath_eq4 : gath m c 4 =
    Host.gather gather_S100000x128_S32768x1_S32768x128_1_0_n_n_0_1_1128 A5
      (broadcastInDim S32768x1 ![0] bcast_S32768_S32768x1_0
        (select (cmpi .slt (shapeCast S32768 (extractStridedSlice S32768x1 ![0, 4] A0 slices_S32768x5_S32768x1_0_4) shapeCasts_S32768x1_S32768) (broadcastInDim S32768 ![] bcast_S_S32768 (constantI S_ 32 0#32)))
          (addi (shapeCast S32768 (extractStridedSlice S32768x1 ![0, 4] A0 slices_S32768x5_S32768x1_0_4) shapeCasts_S32768x1_S32768) (broadcastInDim S32768 ![] bcast_S_S32768 (constantI S_ 32 100000#32)))
          (shapeCast S32768 (extractStridedSlice S32768x1 ![0, 4] A0 slices_S32768x5_S32768x1_0_4) shapeCasts_S32768x1_S32768))) := by
  show (V m c main_v44 : S32768x128.Idx → EReal) = _
  dsimp only [V, hostOps0]
  after_results_simp <;> rfl

/-- The embedded features are the five lookups side by side. -/
theorem V_v45_eq : @Eq (S32768x640.Idx → EReal) (V m c main_v45)
    (concatenate S32768x640 1 [⟨S32768x128, gath m c 0⟩, ⟨S32768x128, gath m c 1⟩, ⟨S32768x128, gath m c 2⟩,
        ⟨S32768x128, gath m c 3⟩, ⟨S32768x128, gath m c 4⟩]
      concatenates_S32768x128_S32768x128_S32768x128_S32768x128_S32768x128_S32768x640_d1) := by
  rw [gath_eq0, gath_eq1, gath_eq2, gath_eq3, gath_eq4]
  dsimp only [V, hostOps0]
  after_results_simp <;> rfl

/-! ## The arrays at an index -/

theorem V_v45_apply (b : Fin 32768) (q : Fin 640) :
    (V m c main_v45 : S32768x640.Idx → EReal) (ix2 b q) = Cert.Gnn.embRow (fun j n => gath m c j (ix2 b n)) q := by
  rw [V_v45_eq]
  exact concat5_apply (gath m c) _ b q

theorem V_v58_apply (q : Fin 640) (cc : Fin 1920) :
    (V m c main_v58 : S640x1920.Idx → EReal) (ix2 q cc) = Cert.Gnn.weff (fun cc q => A6 (ix2 cc q)) cc q := by
  rw [V_v58_eq]
  exact weffTerm_apply A6 _ _ _ _ _ _ _ _ q cc

theorem V_v59_apply (q : Fin 640) (cc : Fin 1920) :
    (V m c main_v59 : S640x1920.Idx → EReal) (ix2 q cc) = A7 (ix2 cc q) := by
  rw [V_v59_eq, truncf_apply]
  exact transpose_ix2_apply _ _ q cc

theorem V_v60_apply (q : Fin 640) (o : Fin 256) :
    (V m c main_v60 : S640x256.Idx → EReal) (ix2 q o) = A10 (ix2 o q) := by
  rw [V_v60_eq, truncf_apply]
  exact transpose_ix2_apply _ _ q o

theorem V_v55_apply (cc : Fin 1920) : (V m c main_v55 : S1x1920.Idx → EReal) (ix2 0 cc) = A8 (ix1 cc) := by
  rw [V_v55_eq]
  exact shapeCast_a_1a_apply _ _ 0 cc

theorem V_v56_apply (cc : Fin 1920) : (V m c main_v56 : S1x1920.Idx → EReal) (ix2 0 cc) = A9 (ix1 cc) := by
  rw [V_v56_eq]
  exact shapeCast_a_1a_apply _ _ 0 cc

theorem V_v57_apply (o : Fin 256) : (V m c main_v57 : S1x256.Idx → EReal) (ix2 0 o) = A11 (ix1 o) := by
  rw [V_v57_eq]
  exact shapeCast_a_1a_apply _ _ 0 o

/-! ## Every gathered entry is an entry of its table -/

/-- A gather returns, at every index, an entry of its operand. -/
theorem gather_mem {α : Type} {s si t : Shape} {w : Nat} (d : GatherDims s si t) (x : s.Idx → α) (idx : IVec si w) (y : t.Idx) :
    ∃ i, Host.gather d x idx y = x i := ⟨_, rfl⟩

/-- If every entry of the five tables is a real number, so is every gathered entry. -/
theorem gath_real (h1 : ∀ i : S500000x128.Idx, Cert.Gnn.IsReal (A1 i)) (h2 : ∀ i : S100x128.Idx, Cert.Gnn.IsReal (A2 i))
    (h3 : ∀ i : S4x128.Idx, Cert.Gnn.IsReal (A3 i)) (h4 : ∀ i : S64x128.Idx, Cert.Gnn.IsReal (A4 i))
    (h5 : ∀ i : S100000x128.Idx, Cert.Gnn.IsReal (A5 i)) :
    ∀ j i, Cert.Gnn.IsReal (gath m c j i) := by
  have e0 : ∀ i, Cert.Gnn.IsReal (gath m c 0 i) := fun i => by
    rw [gath_eq0]; obtain ⟨k, hk⟩ := gather_mem gather_S500000x128_S32768x1_S32768x128_1_0_n_n_0_1_1128 A1 _ i; rw [hk]; exact h1 k
  have e1 : ∀ i, Cert.Gnn.IsReal (gath m c 1 i) := fun i => by
    rw [gath_eq1]; obtain ⟨k, hk⟩ := gather_mem gather_S100x128_S32768x1_S32768x128_1_0_n_n_0_1_1128 A2 _ i; rw [hk]; exact h2 k
  have e2 : ∀ i, Cert.Gnn.IsReal (gath m c 2 i) := fun i => by
    rw [gath_eq2]; obtain ⟨k, hk⟩ := gather_mem gather_S4x128_S32768x1_S32768x128_1_0_n_n_0_1_1128 A3 _ i; rw [hk]; exact h3 k
  have e3 : ∀ i, Cert.Gnn.IsReal (gath m c 3 i) := fun i => by
    rw [gath_eq3]; obtain ⟨k, hk⟩ := gather_mem gather_S64x128_S32768x1_S32768x128_1_0_n_n_0_1_1128 A4 _ i; rw [hk]; exact h4 k
  have e4 : ∀ i, Cert.Gnn.IsReal (gath m c 4 i) := fun i => by
    rw [gath_eq4]; obtain ⟨k, hk⟩ := gather_mem gather_S100000x128_S32768x1_S32768x128_1_0_n_n_0_1_1128 A5 _ i; rw [hk]; exact h5 k
  intro j i
  match j with
  | 0 => exact e0 i
  | 1 => exact e1 i
  | 2 => exact e2 i
  | 3 => exact e3 i
  | 4 => exact e4 i

end Cert.KernelIdeal.KerValue
end
-- ==== Proof.RefValue.lean ====
/-
  The reference program's result read at an index, at the ideal values.

  A batch row carries 640 = 5 · 128 features (five nodes of 128 lanes).  The reference embeds a row by
  concatenating five gathered table rows, runs two rounds of message passing and a GRU cell on it, and applies a
  linear layer.  Each array operation of that computation is read here at ONE index — a reshape keeps the
  row-major position, a broadcast forgets the new axes, a slice adds its offset, a reduction over the node axis
  is the initial value plus a sum over the five nodes, a contraction is a sum over the 640 features — first for
  arbitrary arrays of the shapes involved, then composed along the program's named intermediates, so that the
  result at (row, output) is the row-wise specification `Cert.Gnn.outRef` of the row's embedded features.
-/
import proofs.«167956_j6846177870358_2_alg».proof.Proof.Gen.ReferenceIdeal.Run
import proofs.«167956_j6846177870358_2_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Run
import Idealize.ShloMosaic.Lib.StackMember

noncomputable section

namespace Cert.ReferenceIdeal.RefValue

open Cert.ReferenceIdeal Cert.ReferenceIdeal.Gen Cert.ReferenceIdeal.Value Idealize.ShloMosaic Idealize.ShloMosaic.ValueIdx Idealize.ShloMosaic.TcCoe Idealize.SL.Sem Idealize.ShloMosaic.StableHlo

section L0
variable {α : Type}

/-- Flattening (row, node, lane) to (row, feature): feature `q` is lane `q % 128` of node `q / 128`. -/
theorem cast_flat_apply (X : S32768x5x128.Idx → α) (h : S32768x5x128.ShapeCasts S32768x640) (b : Fin 32768) (q : Fin 640) :
    shapeCast S32768x640 X h (ix2 b q)
      = X (ix3 b ⟨q.val / 128, by have := q.isLt; omega⟩ ⟨q.val % 128, Nat.mod_lt _ (by norm_num)⟩) := by
  refine shapeCast_apply X _ _ _ ?_
  rw [Shape.rowMajor_val_three, Shape.rowMajor_val_two]
  show (b.val * 5 + q.val / 128) * 128 + q.val % 128 = b.val * 640 + q.val
  omega

/-- Splitting (row, feature) into (row, node, lane): lane `n` of node `j` is feature `128 j + n`. -/
theorem cast_nodes_apply (Y : S32768x640.Idx → α) (h : S32768x640.ShapeCasts S32768x5x128) (b : Fin 32768) (j : Fin 5) (n : Fin 128) :
    shapeCast S32768x5x128 Y h (ix3 b j n)
      = Y (ix2 b ⟨j.val * 128 + n.val, by have := j.isLt; have := n.isLt; omega⟩) := by
  refine shapeCast_apply Y _ _ _ ?_
  rw [Shape.rowMajor_val_three, Shape.rowMajor_val_two]
  show b.val * 640 + (j.val * 128 + n.val) = (b.val * 5 + j.val) * 128 + n.val
  omega

/-- Reshaping to five nodes of 128 lanes and back is the identity. -/
theorem cast_flat_cast_nodes (Y : S32768x640.Idx → α) (h : S32768x640.ShapeCasts S32768x5x128)
    (h' : S32768x5x128.ShapeCasts S32768x640) : shapeCast S32768x640 (shapeCast S32768x5x128 Y h) h' = Y :=
  shapeCast_shapeCast Y h h'

end L0

section L1a
variable {α : Type}

/-- A (row, lane) array given a unit node axis reads the same entry. -/
theorem bcast02_apply (G : S32768x128.Idx → α) (h : S32768x128.BroadcastsInDim S32768x1x128 (![0, 2] : Fin 2 → Fin S32768x1x128.rank))
    (b : Fin 32768) (z : Fin 1) (n : Fin 128) :
    broadcastInDim S32768x1x128 ![0, 2] h G (ix3 b z n) = G (ix2 b n) := by
  refine broadcastInDim_apply _ h G _ _ fun a => ?_
  match a with
  | ⟨0, _⟩ => rfl
  | ⟨1, _⟩ => rfl

/-- An array with a unit node axis broadcast to five nodes reads its one node at every node. -/
theorem bcast012_apply (M : S32768x1x128.Idx → α) (h : S32768x1x128.BroadcastsInDim S32768x5x128 (![0, 1, 2] : Fin 3 → Fin S32768x5x128.rank))
    (b : Fin 32768) (j : Fin 5) (n : Fin 128) :
    broadcastInDim S32768x5x128 ![0, 1, 2] h M (ix3 b j n) = M (ix3 b 0 n) := by
  refine broadcastInDim_apply _ h M _ _ fun a => ?_
  match a with
  | ⟨0, _⟩ => rfl
  | ⟨1, _⟩ => rfl
  | ⟨2, _⟩ => rfl

/-- Five one-node arrays laid side by side along the node axis: node `j` of the result is piece `j`. -/
theorem concat5_apply (p0 p1 p2 p3 p4 : S32768x1x128.Idx → α)
    (h : Shape.Concatenates [S32768x1x128, S32768x1x128, S32768x1x128, S32768x1x128, S32768x1x128] S32768x5x128 1)
    (b : Fin 32768) (j : Fin 5) (n : Fin 128) :
    concatenate S32768x5x128 1 [⟨S32768x1x128, p0⟩, ⟨S32768x1x128, p1⟩, ⟨S32768x1x128, p2⟩, ⟨S32768x1x128, p3⟩, ⟨S32768x1x128, p4⟩] h (ix3 b j n)
      = (![p0, p1, p2, p3, p4] j) (ix3 b 0 n) := by
  have key : ∀ (k : Nat) (hk : k < 5) (x : S32768x1x128.Idx → α),
      ([⟨S32768x1x128, p0⟩, ⟨S32768x1x128, p1⟩, ⟨S32768x1x128, p2⟩, ⟨S32768x1x128, p3⟩, ⟨S32768x1x128, p4⟩] : List ((s : Shape) × (s.Idx → α)))[k]'(by simpa using hk) = ⟨S32768x1x128, x⟩ →
      j.val = k →
      concatenate S32768x5x128 1 [⟨S32768x1x128, p0⟩, ⟨S32768x1x128, p1⟩, ⟨S32768x1x128, p2⟩, ⟨S32768x1x128, p3⟩, ⟨S32768x1x128, p4⟩] h (ix3 b j n) = x (ix3 b 0 n) := by
    intro k hk x hx hj
    refine concatenate_apply_piece (t := S32768x5x128) (1 : Fin 3) [⟨S32768x1x128, p0⟩, ⟨S32768x1x128, p1⟩, ⟨S32768x1x128, p2⟩, ⟨S32768x1x128, p3⟩, ⟨S32768x1x128, p4⟩] h (ix3 b j n) k (by simpa using hk) S32768x1x128 x hx rfl k ?_ (ix3 b 0 n) ?_ ?_
    · interval_cases k <;> rfl
    · intro a ha
      match a with
      | ⟨0, _⟩ => rfl
      | ⟨1, _⟩ => exact absurd rfl ha
      | ⟨2, _⟩ => rfl
    · show k + 0 = j.val
      omega
  match j with
  | ⟨0, _⟩ => exact key 0 (by omega) p0 rfl rfl
  | ⟨1, _⟩ => exact key 1 (by omega) p1 rfl rfl
  | ⟨2, _⟩ => exact key 2 (by omega) p2 rfl rfl
  | ⟨3, _⟩ => exact key 3 (by omega) p3 rfl rfl
  | ⟨4, _⟩ => exact key 4 (by omega) p4 rfl rfl

end L1a

section L1b

/-- The sum over the node axis, from the initial value `0`: `0 + ∑ j, X (row, j, lane)`. -/
theorem reduce_apply (X : FVec Ideal S32768x5x128 .f32) (hRT : S32768x5x128.ReducesTo [1] S32768x128) (h0 : 0 < S_.numel)
    (b : Fin 32768) (n : Fin 128) :
    Host.reduceAdd X (constant S_ .f32 0x00000000#32) hRT h0 (ix2 b n) = 0 + ∑ j : Fin 5, X (ix3 b j n) := by
  have hR : S32768x5x128.Reduces [1] S32768x128 := by decide
  show Ideal.hostReduceAdd hRT X (Ideal.ofBits .f32 0x00000000#32) (ix2 b n) = _
  rw [Ideal.hostReduceAdd_single hRT hR, Cert.Gnn.ofBits_zero]
  show 0 + ∑ j : Fin 5, X (hR.lift (ix2 b n) j) = 0 + ∑ j : Fin 5, X (ix3 b j n)
  refine congrArg (0 + ·) (Finset.sum_congr rfl fun j _ => congrArg X ?_)
  funext a; apply Fin.ext
  match a with
  | ⟨0, _⟩ => rfl
  | ⟨1, _⟩ => rfl
  | ⟨2, _⟩ => rfl

/-- A [32768, 640] by [640, 1920] product at (row, column) is the sum over the 640 features. -/
theorem dot1920_apply (A : FVec Ideal S32768x640 .f32) (B : FVec Ideal S640x1920 .f32) (b : Fin 32768) (cc : Fin 1920) :
    Host.dotGeneral dot_S32768x640_S640x1920_S32768x1920_1_0_0_1_n_n none A B (ix2 b cc)
      = ∑ k : Fin 640, A (ix2 b k) * B (ix2 k cc) :=
  Idealize.ShloMosaic.StackMember.dotGeneral_plain_apply (m := 32768) (n := 1920) (k := 640) none A B b cc

/-- A [32768, 640] by [640, 256] product at (row, output) is the sum over the 640 features. -/
theorem dot256_apply (A : FVec Ideal S32768x640 .f32) (B : FVec Ideal S640x256 .f32) (b : Fin 32768) (o : Fin 256) :
    Host.dotGeneral dot_S32768x640_S640x256_S32768x256_1_0_0_1_n_n none A B (ix2 b o)
      = ∑ k : Fin 640, A (ix2 b k) * B (ix2 k o) :=
  Idealize.ShloMosaic.StackMember.dotGeneral_plain_apply (m := 32768) (n := 256) (k := 640) none A B b o

/-- A transposed matrix at (k, c) is the matrix at (c, k). -/
theorem transpose1920_apply {α : Type} (W : S1920x640.Idx → α) (h : S1920x640.Transposes [1, 0] S640x1920) (k : Fin 640) (cc : Fin 1920) :
    transpose S640x1920 [1, 0] W h (ix2 k cc) = W (ix2 cc k) := by
  refine transpose_apply _ W h _ _ fun a => ?_
  match a with
  | ⟨0, _⟩ => rfl
  | ⟨1, _⟩ => rfl

/-- A transposed matrix at (k, o) is the matrix at (o, k). -/
theorem transpose256_apply {α : Type} (W : S256x640.Idx → α) (h : S256x640.Transposes [1, 0] S640x256) (k : Fin 640) (o : Fin 256) :
    transpose S640x256 [1, 0] W h (ix2 k o) = W (ix2 o k) := by
  refine transpose_apply _ W h _ _ fun a => ?_
  match a with
  | ⟨0, _⟩ => rfl
  | ⟨1, _⟩ => rfl

/-- A bias vector broadcast over the rows reads its column's entry. -/
theorem bias1920_apply {α : Type} (v : S1920.Idx → α) (h1 : S1920.BroadcastsInDim S1x1920 (![1] : Fin 1 → Fin S1x1920.rank))
    (h2 : S1x1920.BroadcastsInDim S32768x1920 (![0, 1] : Fin 2 → Fin S32768x1920.rank)) (b : Fin 32768) (cc : Fin 1920) :
    broadcastInDim S32768x1920 ![0, 1] h2 (broadcastInDim S1x1920 ![1] h1 v) (ix2 b cc) = v (ix1 cc) := by
  refine (broadcastInDim_apply _ h2 _ _ (ix2 0 cc) fun a => ?_).trans (broadcastInDim_apply _ h1 v _ _ fun a => ?_)
  · match a with
    | ⟨0, _⟩ => rfl
    | ⟨1, _⟩ => rfl
  · match a with
    | ⟨0, _⟩ => rfl

/-- A bias vector broadcast over the rows reads its output's entry. -/
theorem bias256_apply {α : Type} (v : S256.Idx → α) (h1 : S256.BroadcastsInDim S1x256 (![1] : Fin 1 → Fin S1x256.rank))
    (h2 : S1x256.BroadcastsInDim S32768x256 (![0, 1] : Fin 2 → Fin S32768x256.rank)) (b : Fin 32768) (o : Fin 256) :
    broadcastInDim S32768x256 ![0, 1] h2 (broadcastInDim S1x256 ![1] h1 v) (ix2 b o) = v (ix1 o) := by
  refine (broadcastInDim_apply _ h2 _ _ (ix2 0 o) fun a => ?_).trans (broadcastInDim_apply _ h1 v _ _ fun a => ?_)
  · match a with
    | ⟨0, _⟩ => rfl
    | ⟨1, _⟩ => rfl
  · match a with
    | ⟨0, _⟩ => rfl

end L1b

section L1c
variable {α : Type}
/-- The concatenation of five (row, lane) arrays, each given a unit node axis: node `j` reads array `j`. -/
theorem concat5_bcast_apply (G : Fin 5 → S32768x128.Idx → α)
    (hb : S32768x128.BroadcastsInDim S32768x1x128 (![0, 2] : Fin 2 → Fin S32768x1x128.rank))
    (h : Shape.Concatenates [S32768x1x128, S32768x1x128, S32768x1x128, S32768x1x128, S32768x1x128] S32768x5x128 1)
    (b : Fin 32768) (j : Fin 5) (n : Fin 128) :
    concatenate S32768x5x128 1 [⟨S32768x1x128, broadcastInDim S32768x1x128 ![0, 2] hb (G 0)⟩,
        ⟨S32768x1x128, broadcastInDim S32768x1x128 ![0, 2] hb (G 1)⟩, ⟨S32768x1x128, broadcastInDim S32768x1x128 ![0, 2] hb (G 2)⟩,
        ⟨S32768x1x128, broadcastInDim S32768x1x128 ![0, 2] hb (G 3)⟩, ⟨S32768x1x128, broadcastInDim S32768x1x128 ![0, 2] hb (G 4)⟩] h (ix3 b j n)
      = G j (ix2 b n) := by
  rw [concat5_apply]
  match j with
  | ⟨0, _⟩ => exact bcast02_apply (G 0) hb b 0 n
  | ⟨1, _⟩ => exact bcast02_apply (G 1) hb b 0 n
  | ⟨2, _⟩ => exact bcast02_apply (G 2) hb b 0 n
  | ⟨3, _⟩ => exact bcast02_apply (G 3) hb b 0 n
  | ⟨4, _⟩ => exact bcast02_apply (G 4) hb b 0 n
end L1c

section L1
open Cert.Gnn

/-- Feature `node j q` of a flattened array is lane `q % 128` of node `j`. -/
theorem node_row (X : FVec Ideal S32768x5x128 .f32) (hsc : S32768x5x128.ShapeCasts S32768x640) (b : Fin 32768) (j : Fin 5) (q : Fin 640) :
    shapeCast S32768x640 X hsc (ix2 b (node j q)) = X (ix3 b j ⟨q.val % 128, Nat.mod_lt _ (by norm_num)⟩) :=
  (cast_flat_apply X hsc b (node j q)).trans
    (congrArg₂ (fun u v => X (ix3 b u v)) (Fin.ext (by show (j.val * 128 + q.val % 128) / 128 = j.val; omega))
      (Fin.ext (by show (j.val * 128 + q.val % 128) % 128 = q.val % 128; omega)))

/-- The input-side pre-activations: the message (the node sum less the node's own feature) times the weights,
    plus the bias — `giRef` of the flattened row. -/
theorem gi_apply (X : FVec Ideal S32768x5x128 .f32) (W : FVec Ideal S1920x640 .f32) (bias : FVec Ideal S1920 .f32)
    (hsc : S32768x5x128.ShapeCasts S32768x640) (hRT : S32768x5x128.ReducesTo [1] S32768x128) (h0 : 0 < S_.numel)
    (hb3 : S32768x1x128.BroadcastsInDim S32768x5x128 (![0, 1, 2] : Fin 3 → Fin S32768x5x128.rank))
    (hb2 : S32768x128.BroadcastsInDim S32768x1x128 (![0, 2] : Fin 2 → Fin S32768x1x128.rank))
    (htr : S1920x640.Transposes [1, 0] S640x1920)
    (hbA : S1920.BroadcastsInDim S1x1920 (![1] : Fin 1 → Fin S1x1920.rank))
    (hbB : S1x1920.BroadcastsInDim S32768x1920 (![0, 1] : Fin 2 → Fin S32768x1920.rank))
    (b : Fin 32768) (cc : Fin 1920) :
    (addf (Host.dotGeneral dot_S32768x640_S640x1920_S32768x1920_1_0_0_1_n_n none
        (shapeCast S32768x640 (subf (broadcastInDim S32768x5x128 ![0, 1, 2] hb3 (broadcastInDim S32768x1x128 ![0, 2] hb2
          (Host.reduceAdd X (constant S_ .f32 0x00000000#32) hRT h0))) X) hsc)
        (transpose S640x1920 [1, 0] W htr))
      (broadcastInDim S32768x1920 ![0, 1] hbB (broadcastInDim S1x1920 ![1] hbA bias))) (ix2 b cc)
      = giRef (fun cc q => W (ix2 cc q)) (fun cc => bias (ix1 cc)) (fun q => shapeCast S32768x640 X hsc (ix2 b q)) cc := by
  rw [addf_apply, dot1920_apply, bias1920_apply]
  unfold giRef
  refine congrArg (· + bias (ix1 cc)) (Finset.sum_congr rfl fun q _ => ?_)
  rw [transpose1920_apply, cast_flat_apply, subf_apply, bcast012_apply, bcast02_apply, reduce_apply]
  unfold msg
  beta_reduce
  rw [cast_flat_apply, Finset.sum_congr rfl fun j _ => node_row X hsc b j q]

/-- The hidden-side pre-activations: the row times the weights, plus the bias — `gh` of the row. -/
theorem gh_apply (Xf : FVec Ideal S32768x640 .f32) (W : FVec Ideal S1920x640 .f32) (bias : FVec Ideal S1920 .f32)
    (htr : S1920x640.Transposes [1, 0] S640x1920)
    (hbA : S1920.BroadcastsInDim S1x1920 (![1] : Fin 1 → Fin S1x1920.rank))
    (hbB : S1x1920.BroadcastsInDim S32768x1920 (![0, 1] : Fin 2 → Fin S32768x1920.rank))
    (b : Fin 32768) (cc : Fin 1920) :
    (addf (Host.dotGeneral dot_S32768x640_S640x1920_S32768x1920_1_0_0_1_n_n none Xf (transpose S640x1920 [1, 0] W htr))
      (broadcastInDim S32768x1920 ![0, 1] hbB (broadcastInDim S1x1920 ![1] hbA bias))) (ix2 b cc)
      = gh (fun cc q => W (ix2 cc q)) (fun cc => bias (ix1 cc)) (fun q => Xf (ix2 b q)) cc := by
  rw [addf_apply, dot1920_apply, bias1920_apply]
  unfold gh
  refine congrArg (· + bias (ix1 cc)) (Finset.sum_congr rfl fun q _ => ?_)
  rw [transpose1920_apply]

/-- The final linear layer — `fc` of the row. -/
theorem fc_apply (Xf : FVec Ideal S32768x640 .f32) (W : FVec Ideal S256x640 .f32) (bias : FVec Ideal S256 .f32)
    (htr : S256x640.Transposes [1, 0] S640x256)
    (hbA : S256.BroadcastsInDim S1x256 (![1] : Fin 1 → Fin S1x256.rank))
    (hbB : S1x256.BroadcastsInDim S32768x256 (![0, 1] : Fin 2 → Fin S32768x256.rank))
    (b : Fin 32768) (o : Fin 256) :
    (addf (Host.dotGeneral dot_S32768x640_S640x256_S32768x256_1_0_0_1_n_n none Xf (transpose S640x256 [1, 0] W htr))
      (broadcastInDim S32768x256 ![0, 1] hbB (broadcastInDim S1x256 ![1] hbA bias))) (ix2 b o)
      = fc (fun o q => W (ix2 o q)) (fun o => bias (ix1 o)) (fun q => Xf (ix2 b q)) o := by
  rw [addf_apply, dot256_apply, bias256_apply]
  unfold fc
  refine congrArg (· + bias (ix1 o)) (Finset.sum_congr rfl fun q _ => ?_)
  rw [transpose256_apply]

end L1

section L3
open Cert.Gnn

/-- The splat of the float word of `1.0` is `one` everywhere. -/
theorem one_splat_apply (hbc : S_.BroadcastsInDim S32768x640 (![] : Fin 0 → Fin S32768x640.rank)) (i : S32768x640.Idx) :
    (broadcastInDim S32768x640 ![] hbc (constant (F := Ideal) S_ .f32 0x3F800000#32) : FVec Ideal S32768x640 .f32) i = one := rfl

/-- A slice of 640 columns from column `off` reads column `off + k`. -/
theorem slice_apply {α : Type} (G : S32768x1920.Idx → α) (off : Nat) (ho : off + 640 ≤ 1920) (hs : S32768x1920.Slices ![0, off] S32768x640)
    (b : Fin 32768) (k : Fin 640) :
    extractStridedSlice S32768x640 ![0, off] G hs (ix2 b k) = G (ix2 b ⟨off + k.val, by have := k.isLt; omega⟩) := by
  refine extractStridedSlice_apply _ G hs _ _ fun a => ?_
  match a with
  | ⟨0, _⟩ => show b.val = 0 + b.val; omega
  | ⟨1, _⟩ => rfl

/-- The GRU cell, pointwise: with `σ x = 1 / (1 + e^(-x))` written out as the program writes it, the new feature is
    `(1 - z) · tanh (i_n + r · h_n) + z · h` — `cell` of the row's pre-activations. -/
theorem cell_apply (GI GH : FVec Ideal S32768x1920 .f32) (Hf : FVec Ideal S32768x640 .f32)
    (hbc : S_.BroadcastsInDim S32768x640 (![] : Fin 0 → Fin S32768x640.rank))
    (hs0 : S32768x1920.Slices ![0, 0] S32768x640) (hs1 : S32768x1920.Slices ![0, 640] S32768x640)
    (hs2 : S32768x1920.Slices ![0, 1280] S32768x640) (b : Fin 32768) (k : Fin 640) :
    (addf (mulf (subf (broadcastInDim S32768x640 ![] hbc (constant S_ .f32 0x3F800000#32))
          (Host.divf (broadcastInDim S32768x640 ![] hbc (constant S_ .f32 0x3F800000#32)) (addf (broadcastInDim S32768x640 ![] hbc (constant S_ .f32 0x3F800000#32)) (Host.exp (Host.negf (addf (extractStridedSlice S32768x640 ![0, 640] GI hs1) (extractStridedSlice S32768x640 ![0, 640] GH hs1)))))))
        (Host.tanh (addf (extractStridedSlice S32768x640 ![0, 1280] GI hs2)
          (mulf (Host.divf (broadcastInDim S32768x640 ![] hbc (constant S_ .f32 0x3F800000#32)) (addf (broadcastInDim S32768x640 ![] hbc (constant S_ .f32 0x3F800000#32)) (Host.exp (Host.negf (addf (extractStridedSlice S32768x640 ![0, 0] GI hs0) (extractStridedSlice S32768x640 ![0, 0] GH hs0))))))
            (extractStridedSlice S32768x640 ![0, 1280] GH hs2)))))
      (mulf (Host.divf (broadcastInDim S32768x640 ![] hbc (constant S_ .f32 0x3F800000#32)) (addf (broadcastInDim S32768x640 ![] hbc (constant S_ .f32 0x3F800000#32)) (Host.exp (Host.negf (addf (extractStridedSlice S32768x640 ![0, 640] GI hs1) (extractStridedSlice S32768x640 ![0, 640] GH hs1))))))
        Hf) : FVec Ideal S32768x640 .f32) (ix2 b k)
      = cell (fun cc => GI (ix2 b cc)) (fun cc => GH (ix2 b cc)) (fun q => Hf (ix2 b q)) k := by
  have r0 : ∀ G : FVec Ideal S32768x1920 .f32, extractStridedSlice S32768x640 ![0, 0] G hs0 (ix2 b k) = G (ix2 b (gateR k)) := fun G =>
    (slice_apply G 0 (by omega) hs0 b k).trans (congrArg (fun u => G (ix2 b u)) (Fin.ext (by show 0 + k.val = k.val; omega)))
  have r1 : ∀ G : FVec Ideal S32768x1920 .f32, extractStridedSlice S32768x640 ![0, 640] G hs1 (ix2 b k) = G (ix2 b (gateZ k)) := fun G =>
    slice_apply G 640 (by omega) hs1 b k
  have r2 : ∀ G : FVec Ideal S32768x1920 .f32, extractStridedSlice S32768x640 ![0, 1280] G hs2 (ix2 b k) = G (ix2 b (gateN k)) := fun G =>
    slice_apply G 1280 (by omega) hs2 b k
  show (one - Ideal.div one (one + Ideal.exp (-(extractStridedSlice S32768x640 ![0, 640] GI hs1 (ix2 b k) + extractStridedSlice S32768x640 ![0, 640] GH hs1 (ix2 b k)))))
        * Ideal.tanh (extractStridedSlice S32768x640 ![0, 1280] GI hs2 (ix2 b k)
            + Ideal.div one (one + Ideal.exp (-(extractStridedSlice S32768x640 ![0, 0] GI hs0 (ix2 b k) + extractStridedSlice S32768x640 ![0, 0] GH hs0 (ix2 b k))))
              * extractStridedSlice S32768x640 ![0, 1280] GH hs2 (ix2 b k))
      + Ideal.div one (one + Ideal.exp (-(extractStridedSlice S32768x640 ![0, 640] GI hs1 (ix2 b k) + extractStridedSlice S32768x640 ![0, 640] GH hs1 (ix2 b k))))
        * Hf (ix2 b k) = _
  rw [r0, r0, r1, r1, r2, r2]
  unfold cell Ideal.logistic
  rw [one_eq]

end L3

section Compose
open Cert.Gnn

/-- The five gathered embedding tables, each read through its (wrapped) index column. -/
def gath (V0 : Valuation τ sig (Elt Ideal)) (j : Fin 5) : S32768x128.Idx → EReal := match j with
  | 0 => Host.gather gather_S500000x128_S32768x1_S32768x128_1_0_n_n_0_1_1128 (V0 (Proc.devRef .tc main_arg1)) (broadcastInDim S32768x1 ![0] bcast_S32768_S32768x1_0 (select (cmpi .slt (res_main_v1 V0) (broadcastInDim S32768 ![] bcast_S_S32768 (constantI S_ 32 0#32))) (addi (res_main_v1 V0) (broadcastInDim S32768 ![] bcast_S_S32768 (constantI S_ 32 500000#32))) (res_main_v1 V0)))
  | 1 => Host.gather gather_S100x128_S32768x1_S32768x128_1_0_n_n_0_1_1128 (V0 (Proc.devRef .tc main_arg2)) (broadcastInDim S32768x1 ![0] bcast_S32768_S32768x1_0 (select (cmpi .slt (res_main_v10 V0) (broadcastInDim S32768 ![] bcast_S_S32768 (constantI S_ 32 0#32))) (addi (res_main_v10 V0) (broadcastInDim S32768 ![] bcast_S_S32768 (constantI S_ 32 100#32))) (res_main_v10 V0)))
  | 2 => Host.gather gather_S4x128_S32768x1_S32768x128_1_0_n_n_0_1_1128 (V0 (Proc.devRef .tc main_arg3)) (broadcastInDim S32768x1 ![0] bcast_S32768_S32768x1_0 (select (cmpi .slt (res_main_v19 V0) (broadcastInDim S32768 ![] bcast_S_S32768 (constantI S_ 32 0#32))) (addi (res_main_v19 V0) (broadcastInDim S32768 ![] bcast_S_S32768 (constantI S_ 32 4#32))) (res_main_v19 V0)))
  | 3 => Host.gather gather_S64x128_S32768x1_S32768x128_1_0_n_n_0_1_1128 (V0 (Proc.devRef .tc main_arg4)) (broadcastInDim S32768x1 ![0] bcast_S32768_S32768x1_0 (select (cmpi .slt (res_main_v28 V0) (broadcastInDim S32768 ![] bcast_S_S32768 (constantI S_ 32 0#32))) (addi (res_main_v28 V0) (broadcastInDim S32768 ![] bcast_S_S32768 (constantI S_ 32 64#32))) (res_main_v28 V0)))
  | 4 => Host.gather gather_S100000x128_S32768x1_S32768x128_1_0_n_n_0_1_1128 (V0 (Proc.devRef .tc main_arg5)) (broadcastInDim S32768x1 ![0] bcast_S32768_S32768x1_0 (select (cmpi .slt (res_main_v37 V0) (broadcastInDim S32768 ![] bcast_S_S32768 (constantI S_ 32 0#32))) (addi (res_main_v37 V0) (broadcastInDim S32768 ![] bcast_S_S32768 (constantI S_ 32 100000#32))) (res_main_v37 V0)))

variable (V0 : Valuation τ sig (Elt Ideal))

/-- The embedded features at (row, node, lane): the node's gathered table at (row, lane). -/
theorem v50_apply (b : Fin 32768) (j : Fin 5) (n : Fin 128) :
    res_main_v50 V0 (ix3 b j n) = gath V0 j (ix2 b n) := by
  unfold res_main_v50
  exact concat5_bcast_apply (gath V0) _ _ b j n

/-- The batch row's 640 features before the first round. -/
abbrev row0 (b : Fin 32768) : Fin 640 → EReal := embRow (fun j n => gath V0 j (ix2 b n))

/-- The embedded features of a row, flattened. -/
theorem v50_row (hsc : S32768x5x128.ShapeCasts S32768x640) (b : Fin 32768) :
    (fun q => shapeCast S32768x640 (res_main_v50 V0) hsc (ix2 b q)) = row0 V0 b := by
  funext q
  rw [cast_flat_apply, v50_apply]
  rfl

/-- The same through the program's own flattened copy. -/
theorem v56_row (b : Fin 32768) : (fun q => res_main_v56 V0 (ix2 b q)) = row0 V0 b := by
  unfold res_main_v56
  exact v50_row V0 _ b

end Compose

section Compose2
open Cert.Gnn

variable (V0 : Valuation τ sig (Elt Ideal))

/-- The weights and biases as functions of coordinates. -/
abbrev wih : Fin 1920 → Fin 640 → EReal := fun cc q => (V0 (Proc.devRef .tc main_arg6) : FVec Ideal S1920x640 .f32) (ix2 cc q)
abbrev whh : Fin 1920 → Fin 640 → EReal := fun cc q => (V0 (Proc.devRef .tc main_arg7) : FVec Ideal S1920x640 .f32) (ix2 cc q)
abbrev bih : Fin 1920 → EReal := fun cc => (V0 (Proc.devRef .tc main_arg8) : FVec Ideal S1920 .f32) (ix1 cc)
abbrev bhh : Fin 1920 → EReal := fun cc => (V0 (Proc.devRef .tc main_arg9) : FVec Ideal S1920 .f32) (ix1 cc)
abbrev wfc : Fin 256 → Fin 640 → EReal := fun o q => (V0 (Proc.devRef .tc main_arg10) : FVec Ideal S256x640 .f32) (ix2 o q)
abbrev bfc : Fin 256 → EReal := fun o => (V0 (Proc.devRef .tc main_arg11) : FVec Ideal S256 .f32) (ix1 o)

/-- Round 1's input-side pre-activations of a row. -/
theorem v61_row (b : Fin 32768) :
    (fun cc => res_main_v61 V0 (ix2 b cc)) = giRef (wih V0) (bih V0) (row0 V0 b) := by
  funext cc
  unfold res_main_v61
  rw [gi_apply, v50_row]

/-- Round 1's hidden-side pre-activations of a row. -/
theorem v66_row (b : Fin 32768) :
    (fun cc => res_main_v66 V0 (ix2 b cc)) = gh (whh V0) (bhh V0) (row0 V0 b) := by
  funext cc
  unfold res_main_v66
  rw [gh_apply, v56_row]

/-- The row after round 1. -/
abbrev row1 (b : Fin 32768) : Fin 640 → EReal := stepRef (wih V0) (whh V0) (bih V0) (bhh V0) (row0 V0 b)

/-- The row after round 1 (the cell's result reshaped to nodes and flattened again). -/
theorem v95_row (hsc : S32768x5x128.ShapeCasts S32768x640) (b : Fin 32768) :
    (fun q => shapeCast S32768x640 (res_main_v95 V0) hsc (ix2 b q)) = row1 V0 b := by
  funext k
  unfold res_main_v95
  rw [shapeCast_shapeCast]
  unfold res_main_v86
  rw [cell_apply, v61_row, v66_row, v56_row]
  rfl

/-- The same through the program's own flattened copy. -/
theorem v101_row (b : Fin 32768) : (fun q => res_main_v101 V0 (ix2 b q)) = row1 V0 b := by
  unfold res_main_v101
  exact v95_row V0 _ b

/-- Round 2's pre-activations of a row. -/
theorem v106_row (b : Fin 32768) :
    (fun cc => res_main_v106 V0 (ix2 b cc)) = giRef (wih V0) (bih V0) (row1 V0 b) := by
  funext cc
  unfold res_main_v106
  rw [gi_apply, v95_row]

/-- Round 2's hidden-side pre-activations of a row. -/
theorem v111_row (b : Fin 32768) :
    (fun cc => res_main_v111 V0 (ix2 b cc)) = gh (whh V0) (bhh V0) (row1 V0 b) := by
  funext cc
  unfold res_main_v111
  rw [gh_apply, v101_row]

end Compose2

section Final
open Cert.Gnn

variable (V0 : Valuation τ sig (Elt Ideal))

/-- The final layer's weights and bias, at their array types. -/
abbrev a10 : FVec Ideal S256x640 .f32 := V0 (Proc.devRef .tc main_arg10)
abbrev a11 : FVec Ideal S256 .f32 := V0 (Proc.devRef .tc main_arg11)

/-- The reference's result at (row, output): the final linear layer of the row after two rounds. -/
theorem result_apply (b : Fin 32768) (o : Fin 256) :
    (addf (Host.dotGeneral dot_S32768x640_S640x256_S32768x256_1_0_0_1_n_n none (shapeCast _ (shapeCast _ (addf (mulf (subf (broadcastInDim S32768x640 ![] bcast_S_S32768x640 (constant S_ .f32 0x3F800000#32)) (res_main_v131 V0)) (Host.tanh (addf (extractStridedSlice S32768x640 ![0, 1280] (res_main_v106 V0) slices_S32768x1920_S32768x640_0_1280) (mulf (Host.divf (broadcastInDim S32768x640 ![] bcast_S_S32768x640 (constant S_ .f32 0x3F800000#32)) (addf (broadcastInDim S32768x640 ![] bcast_S_S32768x640 (constant S_ .f32 0x3F800000#32)) (Host.exp (Host.negf (addf (extractStridedSlice S32768x640 ![0, 0] (res_main_v106 V0) slices_S32768x1920_S32768x640_0_0) (extractStridedSlice S32768x640 ![0, 0] (res_main_v111 V0) slices_S32768x1920_S32768x640_0_0)))))) (extractStridedSlice S32768x640 ![0, 1280] (res_main_v111 V0) slices_S32768x1920_S32768x640_0_1280))))) (mulf (res_main_v131 V0) (res_main_v101 V0))) shapeCasts_S32768x640_S32768x5x128) shapeCasts_S32768x5x128_S32768x640) (transpose S640x256 [1, 0] (a10 V0) transposes_S256x640_S640x256_1_0)) (broadcastInDim S32768x256 ![0, 1] bcast_S1x256_S32768x256_0_1 (broadcastInDim S1x256 ![1] bcast_S256_S1x256_1 (a11 V0))) : FVec Ideal S32768x256 .f32) (ix2 b o)
      = outRef (wih V0) (whh V0) (bih V0) (bhh V0) (wfc V0) (bfc V0) (row0 V0 b) o := by
  rw [shapeCast_shapeCast, fc_apply]
  unfold outRef
  refine congrArg (fun h => fc (wfc V0) (bfc V0) h o) ?_
  funext k
  unfold res_main_v131
  rw [cell_apply, v106_row, v111_row, v101_row]
  rfl

end Final

/-- Every execution of the reference ends with its result, at (row, output), the specification's `outRef` of the
    row's embedded features, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v146) = (fun i => Cert.Gnn.outRef
          (fun cc q => (launchContents m c (Proc.devRef .tc main_arg6) : FVec Ideal S1920x640 .f32) (ix2 cc q))
          (fun cc q => (launchContents m c (Proc.devRef .tc main_arg7) : FVec Ideal S1920x640 .f32) (ix2 cc q))
          (fun cc => (launchContents m c (Proc.devRef .tc main_arg8) : FVec Ideal S1920 .f32) (ix1 cc))
          (fun cc => (launchContents m c (Proc.devRef .tc main_arg9) : FVec Ideal S1920 .f32) (ix1 cc))
          (fun o q => (launchContents m c (Proc.devRef .tc main_arg10) : FVec Ideal S256x640 .f32) (ix2 o q))
          (fun o => (launchContents m c (Proc.devRef .tc main_arg11) : FVec Ideal S256 .f32) (ix1 o))
          (Cert.Gnn.embRow (fun j n => gath (launchContents m c) j (ix2 (i 0) n))) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c).1.trans (by
      funext i
      obtain ⟨b, o, rfl⟩ : ∃ b o, i = ix2 b o := ⟨i 0, i 1, eq_ix2 i⟩
      exact result_apply (launchContents m c) b o), (h c).2⟩) (Value.run (F := Ideal) m ρ)

end Cert.ReferenceIdeal.RefValue

end
-- ==== Proof.Algebra.lean ====
/-
  The algebra behind the certificate, on the extended reals.

  The reference multiplies the MESSAGE by the weights; the kernel multiplies the ROW by the FOLDED weights:
      ∑ q, msg h q * W c q   versus   ∑ q, h q * weff W c q.
  Both are  ∑ q, ∑ j, h (node j q) * W c q  -  ∑ q, h q * W c q  once the products are distributed, after the
  pairs (q, j) are re-indexed by the involution  (q, j) ↦ (node j q, q / 128)  (swap a lane's own node with the
  node it listens to).  Distributivity fails at the infinities, so every entry is assumed to be a real number; a
  round sends a real row to a real row (the logistic and the hyperbolic tangent of a real are real), so the law
  applies again in the second round.
-/
import proofs.«167956_j6846177870358_2_alg».proof.Proof.Spec

noncomputable section

namespace Cert.Gnn

open Idealize.ShloMosaic

/-! ### Closure of "is a real number" -/

theorem IsReal.coe (r : ℝ) : IsReal (r : EReal) := ⟨r, rfl⟩

theorem IsReal.zero : IsReal 0 := ⟨0, EReal.coe_zero.symm⟩

theorem IsReal.add {a b : EReal} (ha : IsReal a) (hb : IsReal b) : IsReal (a + b) := by
  obtain ⟨x, rfl⟩ := ha; obtain ⟨y, rfl⟩ := hb; exact ⟨x + y, (EReal.coe_add x y).symm⟩

theorem IsReal.sub {a b : EReal} (ha : IsReal a) (hb : IsReal b) : IsReal (a - b) := by
  obtain ⟨x, rfl⟩ := ha; obtain ⟨y, rfl⟩ := hb; exact ⟨x - y, (EReal.coe_sub x y).symm⟩

theorem IsReal.mul {a b : EReal} (ha : IsReal a) (hb : IsReal b) : IsReal (a * b) := by
  obtain ⟨x, rfl⟩ := ha; obtain ⟨y, rfl⟩ := hb; exact ⟨x * y, (EReal.coe_mul x y).symm⟩

theorem IsReal.sum {ι : Type*} (s : Finset ι) (f : ι → EReal) (hf : ∀ i, IsReal (f i)) :
    IsReal (∑ i ∈ s, f i) := by
  classical
  induction s using Finset.induction_on with
  | empty => rw [Finset.sum_empty]; exact IsReal.zero
  | insert a s ha ih => rw [Finset.sum_insert ha]; exact (hf a).add ih

theorem IsReal.one : IsReal one := by rw [one_eq]; exact ⟨1, EReal.coe_one.symm⟩

theorem IsReal.logistic {a : EReal} (ha : IsReal a) : IsReal (Ideal.logistic a) := by
  obtain ⟨x, rfl⟩ := ha; exact ⟨_, Ideal.logistic_coe x⟩

theorem IsReal.tanh {a : EReal} (ha : IsReal a) : IsReal (Ideal.tanh a) := by
  obtain ⟨x, rfl⟩ := ha; exact ⟨_, Ideal.tanh_coe x⟩

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-! ### The re-indexing -/

/-- The node a feature belongs to. -/
def blk (q : Fin 640) : Fin 5 := ⟨q.val / 128, by have := q.isLt; omega⟩

theorem node_blk_node (j : Fin 5) (q : Fin 640) : node (blk q) (node j q) = q := by
  apply Fin.ext
  have := q.isLt; have := j.isLt
  simp only [node, blk]
  omega

theorem blk_node (j : Fin 5) (q : Fin 640) : blk (node j q) = j := by
  apply Fin.ext
  have := q.isLt; have := j.isLt
  simp only [node, blk]
  omega

/-- Swap a lane's own node with the node it listens to. -/
def swapNode (p : Fin 640 × Fin 5) : Fin 640 × Fin 5 := (node p.2 p.1, blk p.1)

theorem swapNode_involutive : Function.Involutive swapNode := by
  intro p
  simp only [swapNode, node_blk_node, blk_node]

/-! ### The law -/

/-- Over the reals: message times weights is row times folded weights. -/
theorem law_real (h w : Fin 640 → ℝ) :
    ∑ q : Fin 640, ((∑ j : Fin 5, h (node j q)) - h q) * w q
      = ∑ q : Fin 640, h q * ((∑ j : Fin 5, w (node j q)) - w q) := by
  simp only [sub_mul, mul_sub, Finset.sum_sub_distrib, Finset.sum_mul, Finset.mul_sum]
  congr 1
  rw [← Fintype.sum_prod_type' (f := fun q j => h (node j q) * w q),
    ← Fintype.sum_prod_type' (f := fun q j => h q * w (node j q))]
  refine Fintype.sum_bijective swapNode swapNode_involutive.bijective _ _ (fun p => ?_)
  simp only [swapNode, node_blk_node]

/-- On the extended reals, for a real row and a real weight row. -/
theorem law (W : Fin 1920 → Fin 640 → EReal) (h : Fin 640 → EReal) (c : Fin 1920)
    (hW : ∀ q, IsReal (W c q)) (hh : ∀ q, IsReal (h q)) :
    ∑ q : Fin 640, msg h q * W c q = ∑ q : Fin 640, h q * weff W c q := by
  choose hr hhr using hh
  choose wr hwr using hW
  simp only [msg, weff, zero_add, hhr, hwr, ← coe_sum, ← EReal.coe_sub, ← EReal.coe_mul]
  rw [law_real hr wr]

/-! ### A round -/

theorem giRef_eq_giKer (W : Fin 1920 → Fin 640 → EReal) (b : Fin 1920 → EReal) (h : Fin 640 → EReal)
    (hW : ∀ c q, IsReal (W c q)) (hh : ∀ q, IsReal (h q)) : giRef W b h = giKer W b h := by
  funext c
  rw [giRef, giKer, law W h c (hW c) hh]

theorem stepRef_eq_stepKer (Wih Whh : Fin 1920 → Fin 640 → EReal) (bih bhh : Fin 1920 → EReal)
    (h : Fin 640 → EReal) (hWih : ∀ c q, IsReal (Wih c q)) (hh : ∀ q, IsReal (h q)) :
    stepRef Wih Whh bih bhh h = stepKer Wih Whh bih bhh h := by
  rw [stepRef, stepKer, giRef_eq_giKer Wih bih h hWih hh]

theorem msg_real (h : Fin 640 → EReal) (hh : ∀ q, IsReal (h q)) (q : Fin 640) : IsReal (msg h q) :=
  (IsReal.zero.add (IsReal.sum _ _ (fun j => hh (node j q)))).sub (hh q)

theorem giRef_real (W : Fin 1920 → Fin 640 → EReal) (b : Fin 1920 → EReal) (h : Fin 640 → EReal)
    (hW : ∀ c q, IsReal (W c q)) (hb : ∀ c, IsReal (b c)) (hh : ∀ q, IsReal (h q)) (c : Fin 1920) :
    IsReal (giRef W b h c) :=
  (IsReal.sum _ _ (fun q => (msg_real h hh q).mul (hW c q))).add (hb c)

theorem gh_real (W : Fin 1920 → Fin 640 → EReal) (b : Fin 1920 → EReal) (h : Fin 640 → EReal)
    (hW : ∀ c q, IsReal (W c q)) (hb : ∀ c, IsReal (b c)) (hh : ∀ q, IsReal (h q)) (c : Fin 1920) :
    IsReal (gh W b h c) :=
  (IsReal.sum _ _ (fun q => (hh q).mul (hW c q))).add (hb c)

theorem cell_real (gi g : Fin 1920 → EReal) (h : Fin 640 → EReal)
    (hgi : ∀ c, IsReal (gi c)) (hg : ∀ c, IsReal (g c)) (hh : ∀ q, IsReal (h q)) (k : Fin 640) :
    IsReal (cell gi g h k) :=
  ((IsReal.one.sub ((hgi _).add (hg _)).logistic).mul
      ((hgi _).add (((hgi _).add (hg _)).logistic.mul (hg _))).tanh).add
    (((hgi _).add (hg _)).logistic.mul (hh k))

theorem stepRef_real (Wih Whh : Fin 1920 → Fin 640 → EReal) (bih bhh : Fin 1920 → EReal)
    (h : Fin 640 → EReal) (hWih : ∀ c q, IsReal (Wih c q)) (hWhh : ∀ c q, IsReal (Whh c q))
    (hbih : ∀ c, IsReal (bih c)) (hbhh : ∀ c, IsReal (bhh c)) (hh : ∀ q, IsReal (h q)) (k : Fin 640) :
    IsReal (stepRef Wih Whh bih bhh h k) :=
  cell_real _ _ _ (giRef_real Wih bih h hWih hbih hh) (gh_real Whh bhh h hWhh hbhh hh) hh k

/-! ### Two rounds and the linear layer -/

theorem outKer_eq_outRef
    (Wih Whh : Fin 1920 → Fin 640 → EReal) (bih bhh : Fin 1920 → EReal)
    (Wfc : Fin 256 → Fin 640 → EReal) (bfc : Fin 256 → EReal) (h : Fin 640 → EReal)
    (hWih : ∀ c q, IsReal (Wih c q)) (hWhh : ∀ c q, IsReal (Whh c q))
    (hbih : ∀ c, IsReal (bih c)) (hbhh : ∀ c, IsReal (bhh c)) (hh : ∀ q, IsReal (h q)) :
    outKer Wih Whh bih bhh Wfc bfc h = outRef Wih Whh bih bhh Wfc bfc h := by
  rw [outKer, outRef, ← stepRef_eq_stepKer Wih Whh bih bhh h hWih hh,
    ← stepRef_eq_stepKer Wih Whh bih bhh (stepRef Wih Whh bih bhh h) hWih
      (stepRef_real Wih Whh bih bhh h hWih hWhh hbih hbhh hh)]

end Cert.Gnn

end
-- ==== Proof.Finite.lean ====
/-
  Finiteness: the precondition  all(|a1| < inf) & … & all(|a11| < inf)  read back as "every entry of every float
  argument is a real number".  Each conjunct is a reduction by "and" of the comparison |x| < +inf over all axes;
  its result is the bit 1 exactly when every comparison is 1, and at the extended reals |x| = max x (-x) lies
  below ⊤ exactly when x is neither infinity.
-/
import proofs.«167956_j6846177870358_2_alg».proof.Pre_finite_inputs
import proofs.«167956_j6846177870358_2_alg».proof.Proof.Spec
import Idealize.ShloMosaic.Lib.ReduceAll
import Idealize.ShloMosaic.Lib.ValueIdx

noncomputable section

namespace Cert.Gnn

open Idealize.ShloMosaic

/-- The rank-0 shape has exactly one index. -/
instance subsingleton_idx0 : Subsingleton (⟨0, ![]⟩ : Shape).Idx := ⟨fun a b => funext fun d => d.elim0⟩

/-- The float word 0x7F800000 denotes +∞. -/
theorem ofBits_inf : Ideal.ofBits .f32 0x7F800000#32 = (⊤ : EReal) := by
  simp [Ideal.ofBits, Ideal.ieee]

/-- An extended real whose absolute value max x (-x) lies strictly below ⊤ is a real number. -/
theorem isReal_of_abs_lt_top (x : EReal) (h : max x (-x) < ⊤) : IsReal x := by
  induction x using EReal.rec with
  | bot => simp at h
  | coe r => exact ⟨r, rfl⟩
  | top => simp at h

/-- One comparison  |x| < +inf  that came out 1 says x is a real number. -/
theorem isReal_of_cmp (x : Ideal .f32)
    (h : FloatOps.cmpf .olt (FloatOps.hostAbsf x) (FloatOps.ofBits (F := Ideal) .f32 0x7F800000#32) = 1#1) : IsReal x := by
  change Ideal.cmp .olt (max (x : EReal) (-(x : EReal))) (Ideal.ofBits .f32 0x7F800000#32) = 1#1 at h
  rw [ofBits_inf] at h
  unfold Ideal.cmp at h
  by_cases hlt : max (x : EReal) (-(x : EReal)) < ⊤
  · exact isReal_of_abs_lt_top x hlt
  · simp [hlt] at h

/-- One conjunct  all(|x| < inf)  that came out 1 says every entry of x is a real number. -/
theorem all_real {S : Shape} (hb : (⟨0, ![]⟩ : Shape).BroadcastsInDim S (![] : Fin 0 → Fin S.rank))
    {axes : List (Fin S.rank)} (hr : S.ReducesTo axes ⟨0, ![]⟩) (hpos : 0 < (⟨0, ![]⟩ : Shape).numel)
    (x : FVec Ideal S .f32)
    (h : Host.reduce IntOp.andi
          (cmpf .olt (Host.absf x) (broadcastInDim S ![] hb (constant (F := Ideal) ⟨0, ![]⟩ .f32 0x7F800000#32)))
          (constantI ⟨0, ![]⟩ 1 1#1) hr hpos ValueIdx.ix0 = 1#1) :
    ∀ i, IsReal (x i) := by
  intro i
  exact isReal_of_cmp (x i) (Host.reduce_andi_all _ _ hr hpos _ h i)

open Cert.Pre_finite_inputs Idealize.ShloMosaic in
theorem real_of_pre [Cert.Pre_finite_inputs.Facts]
    (a0 : IVec S32768x5 32) (a1 : FVec Ideal S500000x128 .f32) (a2 : FVec Ideal S100x128 .f32) (a3 : FVec Ideal S4x128 .f32)
    (a4 : FVec Ideal S64x128 .f32) (a5 : FVec Ideal S100000x128 .f32) (a6 a7 : FVec Ideal S1920x640 .f32)
    (a8 a9 : FVec Ideal S1920 .f32) (a10 : FVec Ideal S256x640 .f32) (a11 : FVec Ideal S256 .f32)
    (h : Cert.Pre_finite_inputs.fn (F := Ideal) a0 a1 a2 a3 a4 a5 a6 a7 a8 a9 a10 a11 = fun _ => 1#1) :
    (∀ i, IsReal (a1 i)) ∧ (∀ i, IsReal (a2 i)) ∧ (∀ i, IsReal (a3 i)) ∧ (∀ i, IsReal (a4 i)) ∧ (∀ i, IsReal (a5 i))
      ∧ (∀ i, IsReal (a6 i)) ∧ (∀ i, IsReal (a7 i)) ∧ (∀ i, IsReal (a8 i)) ∧ (∀ i, IsReal (a9 i))
      ∧ (∀ i, IsReal (a10 i)) ∧ (∀ i, IsReal (a11 i)) := by
  have e := congrFun h ValueIdx.ix0
  dsimp only [Cert.Pre_finite_inputs.fn, Cert.Pre_finite_inputs.fn_part1, Cert.Pre_finite_inputs.fn_part2,
    Cert.Pre_finite_inputs.fn_part3, andi] at e
  simp only [IntOp.andi_eq_one] at e
  obtain ⟨⟨⟨⟨⟨⟨⟨⟨⟨⟨e1, e2⟩, e3⟩, e4⟩, e5⟩, e6⟩, e7⟩, e8⟩, e9⟩, e10⟩, e11⟩ := e
  exact ⟨all_real _ _ _ a1 e1, all_real _ _ _ a2 e2, all_real _ _ _ a3 e3, all_real _ _ _ a4 e4,
    all_real _ _ _ a5 e5, all_real _ _ _ a6 e6, all_real _ _ _ a7 e7, all_real _ _ _ a8 e8,
    all_real _ _ _ a9 e9, all_real _ _ _ a10 e10, all_real _ _ _ a11 e11⟩

end Cert.Gnn

end
-- ==== Proof.Bridge.lean ====
/-
  The two idealized programs end with the same result.  The kernel's output array is `Gk`: entry `(b, o)` is
  output `o` of row `b` after two rounds over the operand arrays its region finds; those operands are the
  embedded rows, the FOLDED input-side weights, the transposed hidden-side and output weights and the biases,
  so `Gk` is the kernel's arrangement `outKer` of the argument arrays.  The reference's result is its own
  arrangement `outRef` of the same data.  Under the precondition every float argument is a real number, and
  a lookup returns an entry of its table, so every datum is real and the two arrangements agree.
-/
import proofs.«167956_j6846177870358_2_alg».proof.Defs
import proofs.«167956_j6846177870358_2_alg».proof.Proof.KerRun
import proofs.«167956_j6846177870358_2_alg».proof.Proof.KerHost
import proofs.«167956_j6846177870358_2_alg».proof.Proof.RefValue
import proofs.«167956_j6846177870358_2_alg».proof.Proof.Algebra
import proofs.«167956_j6846177870358_2_alg».proof.Proof.Finite
import proofs.«167956_j6846177870358_2_alg».proof.Proof.Gen.KernelIdeal
import proofs.«167956_j6846177870358_2_alg».proof.Proof.Gen.ReferenceIdeal
import proofs.«167956_j6846177870358_2_alg».proof.Proof.Gen.Pre_finite_inputs

noncomputable section

namespace Cert.Proof.Bridge

open Idealize.ShloMosaic Idealize.ShloMosaic.TcCoe Idealize.ShloMosaic.ValueIdx Idealize.ShloMosaic.StableHlo
open Idealize.SL Idealize.SL.Sem
open Cert.Gnn

/-- The reference's arrangement depends on its data only through its entries. -/
theorem outRef_congr {Wih Wih' Whh Whh' : Fin 1920 → Fin 640 → EReal} {bih bih' bhh bhh' : Fin 1920 → EReal}
    {Wfc Wfc' : Fin 256 → Fin 640 → EReal} {bfc bfc' : Fin 256 → EReal} {h h' : Fin 640 → EReal} (o : Fin 256)
    (hE : ∀ c q, Wih c q = Wih' c q) (hW : ∀ c q, Whh c q = Whh' c q) (hbi : ∀ c, bih c = bih' c) (hbh : ∀ c, bhh c = bhh' c)
    (hF : ∀ o q, Wfc o q = Wfc' o q) (hbf : ∀ o, bfc o = bfc' o) (hh : ∀ q, h q = h' q) :
    outRef Wih Whh bih bhh Wfc bfc h o = outRef Wih' Whh' bih' bhh' Wfc' bfc' h' o := by
  obtain rfl : Wih = Wih' := funext fun c => funext (hE c)
  obtain rfl : Whh = Whh' := funext fun c => funext (hW c)
  obtain rfl : bih = bih' := funext hbi
  obtain rfl : bhh = bhh' := funext hbh
  obtain rfl : Wfc = Wfc' := funext fun o => funext (hF o)
  obtain rfl : bfc = bfc' := funext hbf
  obtain rfl : h = h' := funext hh
  rfl

/-- A row of real gathered entries is real. -/
theorem embRow_real {g : Fin 5 → Fin 128 → EReal} (hg : ∀ j n, IsReal (g j n)) (q : Fin 640) : IsReal (embRow g q) := by
  unfold embRow; exact hg _ _

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The two programs' lookups are the same lookups of agreeing arguments. -/
theorem gath_eq (c : Dev Cert.KernelIdeal.nD)
    (g0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (g1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (g2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (g3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (g4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (g5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (j : Fin 5) :
    Cert.ReferenceIdeal.RefValue.gath (launchContents m' c) j = Cert.KernelIdeal.KerValue.gath m c j := by
  have e0 : launchContents m' c (Proc.devRef .tc Cert.ReferenceIdeal.main_arg0) = m ((c.tc : Thread Cert.KernelIdeal.nD Cert.KernelIdeal.τ).loc Cert.KernelIdeal.main_arg0) := g0
  have e1 : launchContents m' c (Proc.devRef .tc Cert.ReferenceIdeal.main_arg1) = m ((c.tc : Thread Cert.KernelIdeal.nD Cert.KernelIdeal.τ).loc Cert.KernelIdeal.main_arg1) := g1
  have e2 : launchContents m' c (Proc.devRef .tc Cert.ReferenceIdeal.main_arg2) = m ((c.tc : Thread Cert.KernelIdeal.nD Cert.KernelIdeal.τ).loc Cert.KernelIdeal.main_arg2) := g2
  have e3 : launchContents m' c (Proc.devRef .tc Cert.ReferenceIdeal.main_arg3) = m ((c.tc : Thread Cert.KernelIdeal.nD Cert.KernelIdeal.τ).loc Cert.KernelIdeal.main_arg3) := g3
  have e4 : launchContents m' c (Proc.devRef .tc Cert.ReferenceIdeal.main_arg4) = m ((c.tc : Thread Cert.KernelIdeal.nD Cert.KernelIdeal.τ).loc Cert.KernelIdeal.main_arg4) := g4
  have e5 : launchContents m' c (Proc.devRef .tc Cert.ReferenceIdeal.main_arg5) = m ((c.tc : Thread Cert.KernelIdeal.nD Cert.KernelIdeal.τ).loc Cert.KernelIdeal.main_arg5) := g5
  match j with
  | 0 => rw [Cert.KernelIdeal.KerValue.gath_eq0]; unfold Cert.ReferenceIdeal.RefValue.gath Cert.ReferenceIdeal.Value.res_main_v1; rw [e0, e1]; rfl
  | 1 => rw [Cert.KernelIdeal.KerValue.gath_eq1]; unfold Cert.ReferenceIdeal.RefValue.gath Cert.ReferenceIdeal.Value.res_main_v10; rw [e0, e2]; rfl
  | 2 => rw [Cert.KernelIdeal.KerValue.gath_eq2]; unfold Cert.ReferenceIdeal.RefValue.gath Cert.ReferenceIdeal.Value.res_main_v19; rw [e0, e3]; rfl
  | 3 => rw [Cert.KernelIdeal.KerValue.gath_eq3]; unfold Cert.ReferenceIdeal.RefValue.gath Cert.ReferenceIdeal.Value.res_main_v28; rw [e0, e4]; rfl
  | 4 => rw [Cert.KernelIdeal.KerValue.gath_eq4]; unfold Cert.ReferenceIdeal.RefValue.gath Cert.ReferenceIdeal.Value.res_main_v37; rw [e0, e5]; rfl

/-- The reference's result is the kernel's output array. -/
theorem ref_eq_Gk (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (c : Dev Cert.KernelIdeal.nD) :
    (fun i : Cert.ReferenceIdeal.S32768x256.Idx => outRef
        (fun cc q => (launchContents m' c (Proc.devRef .tc Cert.ReferenceIdeal.main_arg6) : FVec Ideal Cert.ReferenceIdeal.S1920x640 .f32) (ix2 cc q))
        (fun cc q => (launchContents m' c (Proc.devRef .tc Cert.ReferenceIdeal.main_arg7) : FVec Ideal Cert.ReferenceIdeal.S1920x640 .f32) (ix2 cc q))
        (fun cc => (launchContents m' c (Proc.devRef .tc Cert.ReferenceIdeal.main_arg8) : FVec Ideal Cert.ReferenceIdeal.S1920 .f32) (ix1 cc))
        (fun cc => (launchContents m' c (Proc.devRef .tc Cert.ReferenceIdeal.main_arg9) : FVec Ideal Cert.ReferenceIdeal.S1920 .f32) (ix1 cc))
        (fun o q => (launchContents m' c (Proc.devRef .tc Cert.ReferenceIdeal.main_arg10) : FVec Ideal Cert.ReferenceIdeal.S256x640 .f32) (ix2 o q))
        (fun o => (launchContents m' c (Proc.devRef .tc Cert.ReferenceIdeal.main_arg11) : FVec Ideal Cert.ReferenceIdeal.S256 .f32) (ix1 o))
        (embRow (fun j n => Cert.ReferenceIdeal.RefValue.gath (launchContents m' c) j (ix2 (i 0) n))) (i 1))
      = Cert.KernelIdeal.KerValue.Gk m c := by
  obtain ⟨g0, g1, g2, g3, g4, g5, g6, g7, g8, g9, g10, g11⟩ := hagree c
  obtain ⟨r1, r2, r3, r4, r5, r6, r7, r8, r9, r10, r11⟩ := Cert.Gnn.real_of_pre _ _ _ _ _ _ _ _ _ _ _ _ (hpre c)
  have hgr : ∀ j i, IsReal (Cert.KernelIdeal.KerValue.gath m c j i) := Cert.KernelIdeal.KerValue.gath_real m c r1 r2 r3 r4 r5
  funext i
  obtain ⟨b, o, rfl⟩ : ∃ (b : Fin 32768) (o : Fin 256), i = ix2 b o := ⟨i 0, i 1, eq_ix2 i⟩
  show _ = Cert.KernelIdeal.KerValue.GkAt m c b o
  unfold Cert.KernelIdeal.KerValue.GkAt
  -- the kernel's operands, read at an index, are the kernel's arrangement of the argument arrays
  refine Eq.trans ?_ (Cert.KernelIdeal.KerValue.outGen_congr
    (fun cc q => Cert.KernelIdeal.KerValue.V_v58_apply m c q cc) (fun cc q => Cert.KernelIdeal.KerValue.V_v59_apply m c q cc)
    (fun cc => Cert.KernelIdeal.KerValue.V_v55_apply m c cc) (fun cc => Cert.KernelIdeal.KerValue.V_v56_apply m c cc)
    (fun o' q => Cert.KernelIdeal.KerValue.V_v60_apply m c q o') (fun o' => Cert.KernelIdeal.KerValue.V_v57_apply m c o')
    (fun q => Cert.KernelIdeal.KerValue.V_v45_apply m c b q) rfl).symm
  -- which is the reference's arrangement, every datum being real
  refine Eq.trans ?_ (congrFun (outKer_eq_outRef
    (fun cc q => (m ((c : Thread Cert.KernelIdeal.nD Cert.KernelIdeal.τ).loc Cert.KernelIdeal.main_arg6) : Cert.KernelIdeal.S1920x640.Idx → EReal) (ix2 cc q))
    (fun cc q => (m ((c : Thread Cert.KernelIdeal.nD Cert.KernelIdeal.τ).loc Cert.KernelIdeal.main_arg7) : Cert.KernelIdeal.S1920x640.Idx → EReal) (ix2 cc q))
    (fun cc => (m ((c : Thread Cert.KernelIdeal.nD Cert.KernelIdeal.τ).loc Cert.KernelIdeal.main_arg8) : Cert.KernelIdeal.S1920.Idx → EReal) (ix1 cc))
    (fun cc => (m ((c : Thread Cert.KernelIdeal.nD Cert.KernelIdeal.τ).loc Cert.KernelIdeal.main_arg9) : Cert.KernelIdeal.S1920.Idx → EReal) (ix1 cc))
    (fun o' q => (m ((c : Thread Cert.KernelIdeal.nD Cert.KernelIdeal.τ).loc Cert.KernelIdeal.main_arg10) : Cert.KernelIdeal.S256x640.Idx → EReal) (ix2 o' q))
    (fun o' => (m ((c : Thread Cert.KernelIdeal.nD Cert.KernelIdeal.τ).loc Cert.KernelIdeal.main_arg11) : Cert.KernelIdeal.S256.Idx → EReal) (ix1 o'))
    (embRow (fun j n => Cert.KernelIdeal.KerValue.gath m c j (ix2 b n)))
    (fun cc q => r6 _) (fun cc q => r7 _) (fun cc => r8 _) (fun cc => r9 _)
    (embRow_real (fun j n => hgr j _))) o).symm
  -- and the reference's data are the kernel's, the arguments agreeing
  exact outRef_congr o (fun cc q => congrFun g6 _) (fun cc q => congrFun g7 _) (fun cc => congrFun g8 _) (fun cc => congrFun g9 _)
    (fun o' q => congrFun g10 _) (fun o' => congrFun g11 _)
    (fun q => congrArg (fun g => embRow (fun j n => g j (ix2 b n)) q) (funext (gath_eq m m' c g0 g1 g2 g3 g4 g5)))

end

/-- The algebraic claim. -/
theorem algebraic : Cert.algebraic_KernelIdeal_ReferenceIdeal := by
  intro m ρ m' ρ' hpre hagree
  refine ⟨fun c => Cert.KernelIdeal.KerValue.Gk m c, Cert.KernelIdeal.KerValue.run m ρ, ?_⟩
  exact (θ_run Cert.ReferenceIdeal.defs _ _).mono (fun _ h c => ⟨(h c).1.trans (ref_eq_Gk m m' hpre hagree c), (h c).2⟩)
    (Cert.ReferenceIdeal.RefValue.run m' ρ')

end Cert.Proof.Bridge

end
-- ==== Proof.lean ====
/-
  The certificate's claim: the kernel program, its idealization and the idealized reference each run to the end
  without a fault and leave their twelve argument arrays unchanged; the idealization rewrote nothing; and, from
  memories agreeing on the arguments, the idealized kernel and the idealized reference end with equal results
  as extended reals.

  The program embeds five categorical features (five table lookups, 128 lanes each, 640 features a row) and
  applies two rounds of message passing over the complete graph on the five nodes followed by a GRU cell, then a
  linear layer.  The reference forms each node's message — the sum of the OTHER nodes' features — and multiplies
  it by the input-side weights; the kernel instead folds the message passing into the weights once, on the host
  (`weff W c q = ∑ j, W c (node j q) - W c q`), and multiplies the row itself by the folded weights, 512 rows to a
  grid point.  Over the reals the two are one bilinear expression with its two finite sums exchanged; at
  infinities the exchange fails, so the proof uses the precondition: every float argument is finite, a lookup
  returns an entry of its table, and a GRU round maps a real row to a real row.

  Modules: Spec (the row-wise specification of both arrangements), Algebra (they agree on real data), Finite (the
  precondition gives real data), FrameI / FrameB (the kernel program runs, at either instance: the body's one
  store as a function of its seven staged blocks), KerPayload (that function at an index), KerArray / KerRun (the
  64 row blocks tile the output array), KerHost (the operand arrays the region finds, read at an index), RefValue
  (the reference's result read at an index), Bridge (the two results are one function).
-/
import proofs.«167956_j6846177870358_2_alg».proof.Defs
import proofs.«167956_j6846177870358_2_alg».proof.Proof.FrameI
import proofs.«167956_j6846177870358_2_alg».proof.Proof.FrameB
import proofs.«167956_j6846177870358_2_alg».proof.Proof.Bridge
import proofs.«167956_j6846177870358_2_alg».proof.Proof.Gen.Kernel
import proofs.«167956_j6846177870358_2_alg».proof.Proof.Gen.Kernel.Skeleton
import proofs.«167956_j6846177870358_2_alg».proof.Proof.Gen.Kernel.Launch
import proofs.«167956_j6846177870358_2_alg».proof.Proof.Gen.Kernel.Points
import proofs.«167956_j6846177870358_2_alg».proof.Proof.Gen.KernelIdeal
import proofs.«167956_j6846177870358_2_alg».proof.Proof.Gen.KernelIdeal.Skeleton
import proofs.«167956_j6846177870358_2_alg».proof.Proof.Gen.KernelIdeal.Launch
import proofs.«167956_j6846177870358_2_alg».proof.Proof.Gen.KernelIdeal.Points
import proofs.«167956_j6846177870358_2_alg».proof.Proof.Gen.ReferenceIdeal
import proofs.«167956_j6846177870358_2_alg».proof.Proof.Gen.Pre_finite_inputs
import proofs.«167956_j6846177870358_2_alg».proof.Proof.Gen.ReferenceIdeal.Run
import Idealize.ShloMosaic.Adequacy
import Idealize.ShloMosaic.Init

noncomputable section

namespace Cert.Proof

open Idealize.ShloMosaic Idealize.SL.Sem Cert.Kernel

/-- The kernel program, read at the word level, runs and leaves its arguments unchanged. -/
theorem frame_k : Cert.frame_Kernel := fun m ρ _ => Cert.Kernel.Frame.frame m ρ

/-- So does its idealization. -/
theorem frame_ki : Cert.frame_KernelIdeal := fun m ρ _ => Cert.KernelIdeal.Frame.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

theorem claim : Cert.Claim :=
  ⟨Cert.Kernel.Gen.facts, Cert.KernelIdeal.Gen.facts, Cert.ReferenceIdeal.Gen.facts, Cert.Pre_finite_inputs.Gen.facts,
    frame_k, frame_ki, frame_ri, preserves, Bridge.algebraic⟩

end Cert.Proof

end
